-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v58) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x3x128 : Shape := ⟨3, ![10000, 3, 128]⟩
abbrev S200000x3 : Shape := ⟨2, ![200000, 3]⟩
abbrev S200000x20 : Shape := ⟨2, ![200000, 20]⟩
abbrev S2x200000 : Shape := ⟨2, ![2, 200000]⟩
abbrev S128x128 : Shape := ⟨2, ![128, 128]⟩
abbrev S128 : Shape := ⟨1, ![128]⟩
abbrev S20x128 : Shape := ⟨2, ![20, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x3x128 : S_.BroadcastsInDim S10000x3x128 (![] : Fin 0 → Fin S10000x3x128.rank)
  reducesTo_S10000x3x128_S_d0_1_2 : S10000x3x128.ReducesTo [0, 1, 2] S_
  bcast_S_S200000x3 : S_.BroadcastsInDim S200000x3 (![] : Fin 0 → Fin S200000x3.rank)
  reducesTo_S200000x3_S_d0_1 : S200000x3.ReducesTo [0, 1] S_
  bcast_S_S200000x20 : S_.BroadcastsInDim S200000x20 (![] : Fin 0 → Fin S200000x20.rank)
  reducesTo_S200000x20_S_d0_1 : S200000x20.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S20x128 : S_.BroadcastsInDim S20x128 (![] : Fin 0 → Fin S20x128.rank)
  reducesTo_S20x128_S_d0_1 : S20x128.ReducesTo [0, 1] S_

variable [Facts]

def fn_part7 {F : FTy → Type} [FloatOps F] (main_arg26 : FVec F S128 .f32) (main_arg27 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg26
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128 .f32 := Host.absf main_arg27
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  main_v133

def fn_part6 {F : FTy → Type} [FloatOps F] (main_arg22 : FVec F S128x128 .f32) (main_arg23 : FVec F S128 .f32) (main_arg24 : FVec F S128x128 .f32) (main_arg25 : FVec F S128 .f32) (main_arg26 : FVec F S128 .f32) (main_arg27 : FVec F S128 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128x128 .f32 := Host.absf main_arg22
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg23
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg24
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg25
  fn_part7 (F := F) main_arg26 main_arg27 main_v118 main_v119

def fn_part5 {F : FTy → Type} [FloatOps F] (main_arg19 : FVec F S128 .f32) (main_arg20 : FVec F S128x128 .f32) (main_arg21 : FVec F S128x128 .f32) (main_arg22 : FVec F S128x128 .f32) (main_arg23 : FVec F S128 .f32) (main_arg24 : FVec F S128x128 .f32) (main_arg25 : FVec F S128 .f32) (main_arg26 : FVec F S128 .f32) (main_arg27 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg20
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128x128 .f32 := Host.absf main_arg21
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg22 main_arg23 main_arg24 main_arg25 main_arg26 main_arg27 main_v98 main_v101 main_c_39

def fn_part4 {F : FTy → Type} [FloatOps F] (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128x128 .f32) (main_arg22 : FVec F S128x128 .f32) (main_arg23 : FVec F S128 .f32) (main_arg24 : FVec F S128x128 .f32) (main_arg25 : FVec F S128 .f32) (main_arg26 : FVec F S128 .f32) (main_arg27 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_v83 main_v84 main_cst_32

def fn_part3 {F : FTy → Type} [FloatOps F] (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128x128 .f32) (main_arg22 : FVec F S128x128 .f32) (main_arg23 : FVec F S128 .f32) (main_arg24 : FVec F S128x128 .f32) (main_arg25 : FVec F S128 .f32) (main_arg26 : FVec F S128 .f32) (main_arg27 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_arg20 main_arg21 main_arg22 main_arg23 main_arg24 main_arg25 main_arg26 main_arg27 main_v63 main_v67

def fn_part2 {F : FTy → Type} [FloatOps F] (main_arg8 : FVec F S128x128 .f32) (main_arg9 : FVec F S128 .f32) (main_arg10 : FVec F S20x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128x128 .f32) (main_arg22 : FVec F S128x128 .f32) (main_arg23 : FVec F S128 .f32) (main_arg24 : FVec F S128x128 .f32) (main_arg25 : FVec F S128 .f32) (main_arg26 : FVec F S128 .f32) (main_arg27 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S20x128 .f32 := Host.absf main_arg10
  let main_cst_16 : FVec F S_ .f32 := constant S_ .f32 0x7F800000#32
  let main_v45 : FVec F S20x128 .f32 := broadcastInDim S20x128 ![] bcast_S_S20x128 main_cst_16
  let main_v46 : IVec S20x128 1 := cmpf .olt main_v44 main_v45
  let main_c_17 : IVec S_ 1 := constantI S_ 1 1#1
  let main_v47 : IVec S_ 1 := (fun x v => Host.reduce IntOp.andi x v reducesTo_S20x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg4 : FVec F S200000x20 .f32) (main_arg6 : FVec F S128x128 .f32) (main_arg7 : FVec F S128 .f32) (main_arg8 : FVec F S128x128 .f32) (main_arg9 : FVec F S128 .f32) (main_arg10 : FVec F S20x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128x128 .f32) (main_arg22 : FVec F S128x128 .f32) (main_arg23 : FVec F S128 .f32) (main_arg24 : FVec F S128x128 .f32) (main_arg25 : FVec F S128 .f32) (main_arg26 : FVec F S128 .f32) (main_arg27 : FVec F S128 .f32) (main_v13 : IVec S_ 1) (main_v16 : IVec S200000x3 1) : IVec S_ 1 :=
  let main_c_5 : IVec S_ 1 := constantI S_ 1 1#1
  let main_v17 : IVec S_ 1 := (fun x v => Host.reduce IntOp.andi x v reducesTo_S200000x3_S_d0_1 h_S_) main_v16 main_c_5
  let main_v18 : IVec S_ 1 := andi main_v13 main_v17
  let main_v19 : FVec F S200000x20 .f32 := Host.absf main_arg4
  let main_cst_6 : FVec F S_ .f32 := constant S_ .f32 0x7F800000#32
  let main_v20 : FVec F S200000x20 .f32 := broadcastInDim S200000x20 ![] bcast_S_S200000x20 main_cst_6
  let main_v21 : IVec S200000x20 1 := cmpf .olt main_v19 main_v20
  let main_c_7 : IVec S_ 1 := constantI S_ 1 1#1
  let main_v22 : IVec S_ 1 := (fun x v => Host.reduce IntOp.andi x v reducesTo_S200000x20_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S10000x128 .f32) (main_arg1 : FVec F S10000x3x128 .f32) (main_arg2 : FVec F S10000x3x128 .f32) (main_arg3 : FVec F S200000x3 .f32) (main_arg4 : FVec F S200000x20 .f32) (main_arg5 : IVec S2x200000 32) (main_arg6 : FVec F S128x128 .f32) (main_arg7 : FVec F S128 .f32) (main_arg8 : FVec F S128x128 .f32) (main_arg9 : FVec F S128 .f32) (main_arg10 : FVec F S20x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128x128 .f32) (main_arg22 : FVec F S128x128 .f32) (main_arg23 : FVec F S128 .f32) (main_arg24 : FVec F S128x128 .f32) (main_arg25 : FVec F S128 .f32) (main_arg26 : FVec F S128 .f32) (main_arg27 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x3x128 .f32 := Host.absf main_arg1
  let main_cst_0 : FVec F S_ .f32 := constant S_ .f32 0x7F800000#32
  let main_v5 : FVec F S10000x3x128 .f32 := broadcastInDim S10000x3x128 ![] bcast_S_S10000x3x128 main_cst_0
  let main_v6 : IVec S10000x3x128 1 := cmpf .olt main_v4 main_v5
  let main_c_1 : IVec S_ 1 := constantI S_ 1 1#1
  let main_v7 : IVec S_ 1 := (fun x v => Host.reduce IntOp.andi x v reducesTo_S10000x3x128_S_d0_1_2 h_S_) main_v6 main_c_1
  let main_v8 : IVec S_ 1 := andi main_v3 main_v7
  let main_v9 : FVec F S10000x3x128 .f32 := Host.absf main_arg2
  let main_cst_2 : FVec F S_ .f32 := constant S_ .f32 0x7F800000#32
  let main_v10 : FVec F S10000x3x128 .f32 := broadcastInDim S10000x3x128 ![] bcast_S_S10000x3x128 main_cst_2
  let main_v11 : IVec S10000x3x128 1 := cmpf .olt main_v9 main_v10
  let main_c_3 : IVec S_ 1 := constantI S_ 1 1#1
  let main_v12 : IVec S_ 1 := (fun x v => Host.reduce IntOp.andi x v reducesTo_S10000x3x128_S_d0_1_2 h_S_) main_v11 main_c_3
  let main_v13 : IVec S_ 1 := andi main_v8 main_v12
  let main_v14 : FVec F S200000x3 .f32 := Host.absf main_arg3
  let main_cst_4 : FVec F S_ .f32 := constant S_ .f32 0x7F800000#32
  let main_v15 : FVec F S200000x3 .f32 := broadcastInDim S200000x3 ![] bcast_S_S200000x3 main_cst_4
  let main_v16 : IVec S200000x3 1 := cmpf .olt main_v14 main_v15
  fn_part1 (F := F) main_arg4 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S10000x128 : Shape := ⟨2, ![10000, 128]⟩
abbrev S10000x3x128 : Shape := ⟨3, ![10000, 3, 128]⟩
abbrev S200000x3 : Shape := ⟨2, ![200000, 3]⟩
abbrev S200000x20 : Shape := ⟨2, ![200000, 20]⟩
abbrev S2x200000 : Shape := ⟨2, ![2, 200000]⟩
abbrev S128x128 : Shape := ⟨2, ![128, 128]⟩
abbrev S128 : Shape := ⟨1, ![128]⟩
abbrev S20x128 : Shape := ⟨2, ![20, 128]⟩
abbrev S1x200000 : Shape := ⟨2, ![1, 200000]⟩
abbrev S200000 : Shape := ⟨1, ![200000]⟩
abbrev S1000x128 : Shape := ⟨2, ![1000, 128]⟩
abbrev S1x128 : Shape := ⟨2, ![1, 128]⟩
abbrev S_ : Shape := ⟨0, ![]⟩
abbrev S200000x1 : Shape := ⟨2, ![200000, 1]⟩
abbrev S200000x128 : Shape := ⟨2, ![200000, 128]⟩
abbrev S200000x3x128 : Shape := ⟨3, ![200000, 3, 128]⟩
abbrev S200000x384 : Shape := ⟨2, ![200000, 384]⟩
abbrev S2000x20 : Shape := ⟨2, ![2000, 20]⟩
abbrev S2000x128 : Shape := ⟨2, ![2000, 128]⟩
abbrev S2000x3 : Shape := ⟨2, ![2000, 3]⟩
abbrev S2000x384 : Shape := ⟨2, ![2000, 384]⟩
abbrev S2000x1 : Shape := ⟨2, ![2000, 1]⟩
abbrev S10000x384 : Shape := ⟨2, ![10000, 384]⟩
abbrev S1000x384 : Shape := ⟨2, ![1000, 384]⟩
abbrev S1000 : Shape := ⟨1, ![1000]⟩
abbrev S1000x1 : Shape := ⟨2, ![1000, 1]⟩

abbrev nBuf : Space → Nat
  | .hbm => 105
  | .vmem => 62
  | .smem => 0
  | _ => 0

abbrev bufTy : (tb : Table) → Fin (tcTables nBuf tb) → BufTy
  | .hbm, ⟨0, _⟩ => ⟨S10000x128, .f32⟩
  | .hbm, ⟨1, _⟩ => ⟨S10000x3x128, .f32⟩
  | .hbm, ⟨2, _⟩ => ⟨S10000x3x128, .f32⟩
  | .hbm, ⟨3, _⟩ => ⟨S200000x3, .f32⟩
  | .hbm, ⟨4, _⟩ => ⟨S200000x20, .f32⟩
  | .hbm, ⟨5, _⟩ => ⟨S2x200000, .i32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S20x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S1x200000, .i32⟩
  | .hbm, ⟨29, _⟩ => ⟨S200000, .i32⟩
  | .hbm, ⟨30, _⟩ => ⟨S1x200000, .i32⟩
  | .hbm, ⟨31, _⟩ => ⟨S200000, .i32⟩
  | .hbm, ⟨32, _⟩ => ⟨S10000x128, .f32⟩
  | .hbm, ⟨33, _⟩ => ⟨S_, .i32⟩
  | .hbm, ⟨34, _⟩ => ⟨S200000, .i32⟩
  | .hbm, ⟨35, _⟩ => ⟨S200000, .i1⟩
  | .hbm, ⟨36, _⟩ => ⟨S_, .i32⟩
  | .hbm, ⟨37, _⟩ => ⟨S200000, .i32⟩
  | .hbm, ⟨38, _⟩ => ⟨S200000, .i32⟩
  | .hbm, ⟨39, _⟩ => ⟨S200000, .i32⟩
  | .hbm, ⟨40, _⟩ => ⟨S200000x1, .i32⟩
  | .hbm, ⟨41, _⟩ => ⟨S200000x128, .f32⟩
  | .hbm, ⟨42, _⟩ => ⟨S_, .i32⟩
  | .hbm, ⟨43, _⟩ => ⟨S200000, .i32⟩
  | .hbm, ⟨44, _⟩ => ⟨S200000, .i1⟩
  | .hbm, ⟨45, _⟩ => ⟨S_, .i32⟩
  | .hbm, ⟨46, _⟩ => ⟨S200000, .i32⟩
  | .hbm, ⟨47, _⟩ => ⟨S200000, .i32⟩
  | .hbm, ⟨48, _⟩ => ⟨S200000, .i32⟩
  | .hbm, ⟨49, _⟩ => ⟨S200000x1, .i32⟩
  | .hbm, ⟨50, _⟩ => ⟨S200000x128, .f32⟩
  | .hbm, ⟨51, _⟩ => ⟨S_, .i32⟩
  | .hbm, ⟨52, _⟩ => ⟨S200000, .i32⟩
  | .hbm, ⟨53, _⟩ => ⟨S200000, .i1⟩
  | .hbm, ⟨54, _⟩ => ⟨S_, .i32⟩
  | .hbm, ⟨55, _⟩ => ⟨S200000, .i32⟩
  | .hbm, ⟨56, _⟩ => ⟨S200000, .i32⟩
  | .hbm, ⟨57, _⟩ => ⟨S200000, .i32⟩
  | .hbm, ⟨58, _⟩ => ⟨S200000x1, .i32⟩
  | .hbm, ⟨59, _⟩ => ⟨S200000x3x128, .f32⟩
  | .hbm, ⟨60, _⟩ => ⟨S200000x384, .f32⟩
  | .hbm, ⟨61, _⟩ => ⟨S200000x128, .f32⟩
  | .hbm, ⟨62, _⟩ => ⟨S200000x384, .f32⟩
  | .hbm, ⟨63, _⟩ => ⟨S200000x384, .f32⟩
  | .hbm, ⟨64, _⟩ => ⟨S_, .f32⟩
  | .hbm, ⟨65, _⟩ => ⟨S10000x128, .f32⟩
  | .hbm, ⟨66, _⟩ => ⟨S200000x1, .i32⟩
  | .hbm, ⟨67, _⟩ => ⟨S10000x128, .f32⟩
  | .hbm, ⟨68, _⟩ => ⟨S10000x128, .f32⟩
  | .hbm, ⟨69, _⟩ => ⟨S200000x3x128, .f32⟩
  | .hbm, ⟨70, _⟩ => ⟨S_, .f32⟩
  | .hbm, ⟨71, _⟩ => ⟨S10000x3x128, .f32⟩
  | .hbm, ⟨72, _⟩ => ⟨S200000x1, .i32⟩
  | .hbm, ⟨73, _⟩ => ⟨S10000x3x128, .f32⟩
  | .hbm, ⟨74, _⟩ => ⟨S10000x3x128, .f32⟩
  | .hbm, ⟨75, _⟩ => ⟨S10000x128, .f32⟩
  | .hbm, ⟨76, _⟩ => ⟨S_, .i32⟩
  | .hbm, ⟨77, _⟩ => ⟨S200000, .i32⟩
  | .hbm, ⟨78, _⟩ => ⟨S200000, .i1⟩
  | .hbm, ⟨79, _⟩ => ⟨S_, .i32⟩
  | .hbm, ⟨80, _⟩ => ⟨S200000, .i32⟩
  | .hbm, ⟨81, _⟩ => ⟨S200000, .i32⟩
  | .hbm, ⟨82, _⟩ => ⟨S200000, .i32⟩
  | .hbm, ⟨83, _⟩ => ⟨S200000x1, .i32⟩
  | .hbm, ⟨84, _⟩ => ⟨S200000x128, .f32⟩
  | .hbm, ⟨85, _⟩ => ⟨S_, .i32⟩
  | .hbm, ⟨86, _⟩ => ⟨S200000, .i32⟩
  | .hbm, ⟨87, _⟩ => ⟨S200000, .i1⟩
  | .hbm, ⟨88, _⟩ => ⟨S_, .i32⟩
  | .hbm, ⟨89, _⟩ => ⟨S200000, .i32⟩
  | .hbm, ⟨90, _⟩ => ⟨S200000, .i32⟩
  | .hbm, ⟨91, _⟩ => ⟨S200000, .i32⟩
  | .hbm, ⟨92, _⟩ => ⟨S200000x1, .i32⟩
  | .hbm, ⟨93, _⟩ => ⟨S200000x3x128, .f32⟩
  | .hbm, ⟨94, _⟩ => ⟨S200000x384, .f32⟩
  | .hbm, ⟨95, _⟩ => ⟨S200000x384, .f32⟩
  | .hbm, ⟨96, _⟩ => ⟨S200000x3x128, .f32⟩
  | .hbm, ⟨97, _⟩ => ⟨S_, .f32⟩
  | .hbm, ⟨98, _⟩ => ⟨S10000x3x128, .f32⟩
  | .hbm, ⟨99, _⟩ => ⟨S200000x1, .i32⟩
  | .hbm, ⟨100, _⟩ => ⟨S10000x3x128, .f32⟩
  | .hbm, ⟨101, _⟩ => ⟨S10000x3x128, .f32⟩
  | .hbm, ⟨102, _⟩ => ⟨S10000x384, .f32⟩
  | .hbm, ⟨103, _⟩ => ⟨S10000x384, .f32⟩
  | .hbm, ⟨104, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S1000x128, .f32⟩
  | .local _ .vmem, ⟨7, _⟩ => ⟨S1000x128, .f32⟩
  | .local _ .vmem, ⟨8, _⟩ => ⟨S2000x20, .f32⟩
  | .local _ .vmem, ⟨9, _⟩ => ⟨S2000x20, .f32⟩
  | .local _ .vmem, ⟨10, _⟩ => ⟨S20x128, .f32⟩
  | .local _ .vmem, ⟨11, _⟩ => ⟨S128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S2000x3, .f32⟩
  | .local _ .vmem, ⟨21, _⟩ => ⟨S2000x3, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S2000x384, .f32⟩
  | .local _ .vmem, ⟨27, _⟩ => ⟨S2000x384, .f32⟩
  | .local _ .vmem, ⟨28, _⟩ => ⟨S2000x128, .f32⟩
  | .local _ .vmem, ⟨29, _⟩ => ⟨S2000x128, .f32⟩
  | .local _ .vmem, ⟨30, _⟩ => ⟨S2000x384, .f32⟩
  | .local _ .vmem, ⟨31, _⟩ => ⟨S2000x384, .f32⟩
  | .local _ .vmem, ⟨32, _⟩ => ⟨S2000x384, .f32⟩
  | .local _ .vmem, ⟨33, _⟩ => ⟨S2000x384, .f32⟩
  | .local _ .vmem, ⟨34, _⟩ => ⟨S1000x128, .f32⟩
  | .local _ .vmem, ⟨35, _⟩ => ⟨S1000x128, .f32⟩
  | .local _ .vmem, ⟨36, _⟩ => ⟨S128x128, .f32⟩
  | .local _ .vmem, ⟨37, _⟩ => ⟨S128x128, .f32⟩
  | .local _ .vmem, ⟨38, _⟩ => ⟨S1000x128, .f32⟩
  | .local _ .vmem, ⟨39, _⟩ => ⟨S1000x128, .f32⟩
  | .local _ .vmem, ⟨40, _⟩ => ⟨S2000x384, .f32⟩
  | .local _ .vmem, ⟨41, _⟩ => ⟨S2000x384, .f32⟩
  | .local _ .vmem, ⟨42, _⟩ => ⟨S2000x128, .f32⟩
  | .local _ .vmem, ⟨43, _⟩ => ⟨S2000x128, .f32⟩
  | .local _ .vmem, ⟨44, _⟩ => ⟨S2000x384, .f32⟩
  | .local _ .vmem, ⟨45, _⟩ => ⟨S2000x384, .f32⟩
  | .local _ .vmem, ⟨46, _⟩ => ⟨S2000x384, .f32⟩
  | .local _ .vmem, ⟨47, _⟩ => ⟨S2000x384, .f32⟩
  | .local _ .vmem, ⟨48, _⟩ => ⟨S1000x128, .f32⟩
  | .local _ .vmem, ⟨49, _⟩ => ⟨S1000x128, .f32⟩
  | .local _ .vmem, ⟨50, _⟩ => ⟨S1000x384, .f32⟩
  | .local _ .vmem, ⟨51, _⟩ => ⟨S1000x384, .f32⟩
  | .local _ .vmem, ⟨52, _⟩ => ⟨S1000x384, .f32⟩
  | .local _ .vmem, ⟨53, _⟩ => ⟨S1000x384, .f32⟩
  | .local _ .vmem, ⟨54, _⟩ => ⟨S128x128, .f32⟩
  | .local _ .vmem, ⟨55, _⟩ => ⟨S128, .f32⟩
  | .local _ .vmem, ⟨56, _⟩ => ⟨S128x128, .f32⟩
  | .local _ .vmem, ⟨57, _⟩ => ⟨S128, .f32⟩
  | .local _ .vmem, ⟨58, _⟩ => ⟨S128, .f32⟩
  | .local _ .vmem, ⟨59, _⟩ => ⟨S128, .f32⟩
  | .local _ .vmem, ⟨60, _⟩ => ⟨S1000x128, .f32⟩
  | .local _ .vmem, ⟨61, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_c : Ref sig .tc := ⟨.hbm, 33, rfl⟩
abbrev main_v5 : Ref sig .tc := ⟨.hbm, 34, rfl⟩
abbrev main_v6 : Ref sig .tc := ⟨.hbm, 35, rfl⟩
abbrev main_c_0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_c_1 : Ref sig .tc := ⟨.hbm, 42, rfl⟩
abbrev main_v12 : Ref sig .tc := ⟨.hbm, 43, rfl⟩
abbrev main_v13 : Ref sig .tc := ⟨.hbm, 44, rfl⟩
abbrev main_c_2 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_c_3 : Ref sig .tc := ⟨.hbm, 51, rfl⟩
abbrev main_v19 : Ref sig .tc := ⟨.hbm, 52, rfl⟩
abbrev main_v20 : Ref sig .tc := ⟨.hbm, 53, rfl⟩
abbrev main_c_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27_0 : Ref sig .tc := ⟨.hbm, 61, rfl⟩
abbrev main_v27_1 : Ref sig .tc := ⟨.hbm, 62, rfl⟩
abbrev main_v27_2 : Ref sig .tc := ⟨.hbm, 63, rfl⟩
abbrev main_cst : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_5 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_c_6 : Ref sig .tc := ⟨.hbm, 76, rfl⟩
abbrev main_v38 : Ref sig .tc := ⟨.hbm, 77, rfl⟩
abbrev main_v39 : Ref sig .tc := ⟨.hbm, 78, rfl⟩
abbrev main_c_7 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_c_8 : Ref sig .tc := ⟨.hbm, 85, rfl⟩
abbrev main_v45 : Ref sig .tc := ⟨.hbm, 86, rfl⟩
abbrev main_v46 : Ref sig .tc := ⟨.hbm, 87, rfl⟩
abbrev main_c_9 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_10 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg14_0 : Ref sig .tc := ⟨.vmem, 26, rfl⟩
abbrev cc1_stg14_1 : Ref sig .tc := ⟨.vmem, 27, rfl⟩
abbrev cc1_stg15_0 : Ref sig .tc := ⟨.vmem, 28, rfl⟩
abbrev cc1_stg15_1 : Ref sig .tc := ⟨.vmem, 29, rfl⟩
abbrev cc1_stg16_0 : Ref sig .tc := ⟨.vmem, 30, rfl⟩
abbrev cc1_stg16_1 : Ref sig .tc := ⟨.vmem, 31, rfl⟩
abbrev cc1_stg17_0 : Ref sig .tc := ⟨.vmem, 32, rfl⟩
abbrev cc1_stg17_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg2_0 : Ref sig .tc := ⟨.vmem, 37, rfl⟩
abbrev cc2_stg3_0 : Ref sig .tc := ⟨.vmem, 38, rfl⟩
abbrev cc2_stg3_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg2_1 : Ref sig .tc := ⟨.vmem, 45, rfl⟩
abbrev cc3_stg3_0 : Ref sig .tc := ⟨.vmem, 46, rfl⟩
abbrev cc3_stg3_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg4_0 : Ref sig .tc := ⟨.vmem, 55, rfl⟩
abbrev cc4_stg5_0 : Ref sig .tc := ⟨.vmem, 56, rfl⟩
abbrev cc4_stg6_0 : Ref sig .tc := ⟨.vmem, 57, rfl⟩
abbrev cc4_stg7_0 : Ref sig .tc := ⟨.vmem, 58, rfl⟩
abbrev cc4_stg8_0 : Ref sig .tc := ⟨.vmem, 59, rfl⟩
abbrev cc4_stg9_0 : Ref sig .tc := ⟨.vmem, 60, rfl⟩
abbrev cc4_stg9_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc1_sem14_1 : DmaSem sig := 27
abbrev cc1_sem15_0 : DmaSem sig := 28
abbrev cc1_sem15_1 : DmaSem sig := 29
abbrev cc1_sem16_0 : DmaSem sig := 30
abbrev cc1_sem16_1 : DmaSem sig := 31
abbrev cc1_sem17_0 : DmaSem sig := 32
abbrev cc1_sem17_1 : DmaSem sig := 33
abbrev cc2_sem0_0 : DmaSem sig := 34
abbrev cc2_sem0_1 : DmaSem sig := 35
abbrev cc2_sem1_0 : DmaSem sig := 36
abbrev cc2_sem2_0 : DmaSem sig := 37
abbrev cc2_sem3_0 : DmaSem sig := 38
abbrev cc2_sem3_1 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem2_1 : DmaSem sig := 45
abbrev cc3_sem3_0 : DmaSem sig := 46
abbrev cc3_sem3_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem4_0 : DmaSem sig := 55
abbrev cc4_sem5_0 : DmaSem sig := 56
abbrev cc4_sem6_0 : DmaSem sig := 57
abbrev cc4_sem7_0 : DmaSem sig := 58
abbrev cc4_sem8_0 : DmaSem sig := 59
abbrev cc4_sem9_0 : DmaSem sig := 60
abbrev cc4_sem9_1 : DmaSem sig := 61

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S20x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x3 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S2000x384 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S2000x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S2000x384 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S2000x384 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x384 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x384 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x384 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1000x384 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S1000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  bcast_S_S200000 : S_.BroadcastsInDim S200000 (![] : Fin 0 → Fin S200000.rank)
  bcast_S200000_S200000x1_0 : S200000.BroadcastsInDim S200000x1 (![0] : Fin 1 → Fin S200000x1.rank)
  shapeCasts_S200000x3x128_S200000x384 : S200000x3x128.ShapeCasts S200000x384
  inb_S2000x20_S2000x20_0_0 : ∀ a, (![0, 0] : Fin 2 → Nat) a + S2000x20.size a ≤ S2000x20.size a
  h_S2000x20 : 0 < S2000x20.numel
  inb_S20x128_S20x128_0_0 : ∀ a, (![0, 0] : Fin 2 → Nat) a + S20x128.size a ≤ S20x128.size a
  h_S20x128 : 0 < S20x128.numel
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x3_S2000x3_0_0 : ∀ a, (![0, 0] : Fin 2 → Nat) a + S2000x3.size a ≤ S2000x3.size a
  h_S2000x3 : 0 < S2000x3.numel
  slices_S2000x3_o0_0_S2000x1 : S2000x3.Slices ![0, 0] S2000x1
  slices_S2000x3_o0_1_S2000x1 : S2000x3.Slices ![0, 1] S2000x1
  slices_S2000x3_o0_2_S2000x1 : S2000x3.Slices ![0, 2] S2000x1
  broadcasts_S2000x1_S2000x128 : S2000x1.Broadcasts S2000x128
  concatenates_S2000x128_S2000x128_S2000x128_S2000x384_d1 : Shape.Concatenates [S2000x128, S2000x128, S2000x128] S2000x384 1
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  bcast_S_S10000x128 : S_.BroadcastsInDim S10000x128 (![] : Fin 0 → Fin S10000x128.rank)
  shapeCasts_S200000x384_S200000x3x128 : S200000x384.ShapeCasts S200000x3x128
  bcast_S_S10000x3x128 : S_.BroadcastsInDim S10000x3x128 (![] : Fin 0 → Fin S10000x3x128.rank)
  shapeCasts_S1000x128_S1000x128 : S1000x128.ShapeCasts S1000x128
  shapeCasts_S10000x3x128_S10000x384 : S10000x3x128.ShapeCasts S10000x384
  inb_S1000x384_S1000x384_0_0 : ∀ a, (![0, 0] : Fin 2 → Nat) a + S1000x384.size a ≤ S1000x384.size a
  h_S1000x384 : 0 < S1000x384.numel
  shapeCasts_S1000x384_S1000x384 : S1000x384.ShapeCasts S1000x384
  slices_S1000x384_o0_0_S1000x128 : S1000x384.Slices ![0, 0] S1000x128
  slices_S1000x384_o0_128_S1000x128 : S1000x384.Slices ![0, 128] S1000x128
  slices_S1000x384_o0_256_S1000x128 : S1000x384.Slices ![0, 256] S1000x128
  reduces_S1000x128_S1000 : S1000x128.Reduces [1] S1000
  shapeCasts_S1000_S1000x1 : S1000.ShapeCasts S1000x1
  broadcasts_S1000x1_S1000x128 : S1000x1.Broadcasts S1000x128
  dot_S1000x128_S128x128_S1000x128_1_0_0_1_n_n_wf : DotDims.WF S1000x128 S128x128 S1000x128 [1] [0] [0] [1] [] []
  gather_S10000x128_S200000x1_S200000x128_1_0_n_n_0_1_1128_wf : GatherDims.WF S10000x128 S200000x1 S200000x128 [1] [0] [] [0] [] 1 ![1, 128]
  gather_S10000x3x128_S200000x1_S200000x3x128_12_0_n_n_0_1_13128_wf : GatherDims.WF S10000x3x128 S200000x1 S200000x3x128 [1, 2] [0] [] [0] [] 1 ![1, 3, 128]
  dot_S2000x20_S20x128_S2000x128_1_0_0_1_n_n_wf : DotDims.WF S2000x20 S20x128 S2000x128 [1] [0] [0] [1] [] []
  dot_S2000x128_S128x128_S2000x128_1_0_0_1_n_n_wf : DotDims.WF S2000x128 S128x128 S2000x128 [1] [0] [0] [1] [] []
  scatter_S10000x128_S200000x1_S200000x128_1_0_0_1_wf : ScatterDims.WF S10000x128 S200000x1 S200000x128 [1] [0] [0] 1
  scatter_S10000x3x128_S200000x1_S200000x3x128_12_0_0_1_wf : ScatterDims.WF S10000x3x128 S200000x1 S200000x3x128 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S10000x128.size a
  hwx0_5 : ∀ i : grid0.Coords, EltTy.bits .f32 = 32 ∨ (Rect.block (s := S10000x128) S1000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x20.size a ≤ S200000x20.size a
  hwx1_0 : ∀ i : grid1.Coords, EltTy.bits .f32 = 32 ∨ (Rect.block (s := S200000x20) S2000x20.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S20x128.size a ≤ S20x128.size a
  hwx1_1 : ∀ i : grid1.Coords, EltTy.bits .f32 = 32 ∨ (Rect.block (s := S20x128) S20x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S200000x128.size a
  hwx1_3 : ∀ i : grid1.Coords, EltTy.bits .f32 = 32 ∨ (Rect.block (s := S200000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S200000x128.size a
  hwx1_4 : ∀ i : grid1.Coords, EltTy.bits .f32 = 32 ∨ (Rect.block (s := S200000x128) S2000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x3.size a ≤ S200000x3.size a
  hwx1_9 : ∀ i : grid1.Coords, EltTy.bits .f32 = 32 ∨ (Rect.block (s := S200000x3) S2000x3.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128.size a ≤ S128.size a
  hwx1_11 : ∀ i : grid1.Coords, EltTy.bits .f32 = 32 ∨ (Rect.block (s := S128) S128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128x128.size a ≤ S128x128.size a
  hwx1_12 : ∀ i : grid1.Coords, EltTy.bits .f32 = 32 ∨ (Rect.block (s := S128x128) S128x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S128.size a ≤ S128.size a
  hwx1_13 : ∀ i : grid1.Coords, EltTy.bits .f32 = 32 ∨ (Rect.block (s := S128) S128.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S2000x384.size a ≤ S200000x384.size a
  hwx1_14 : ∀ i : grid1.Coords, EltTy.bits .f32 = 32 ∨ (Rect.block (s := S200000x384) S2000x384.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S2000x128.size a ≤ S200000x128.size a
  hwx1_15 : ∀ i : grid1.Coords, EltTy.bits .f32 = 32 ∨ (Rect.block (s := S200000x128) S2000x128.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S2000x384.size a ≤ S200000x384.size a
  hwx1_16 : ∀ i : grid1.Coords, EltTy.bits .f32 = 32 ∨ (Rect.block (s := S200000x384) S2000x384.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S2000x384.size a ≤ S200000x384.size a
  hwx1_17 : ∀ i : grid1.Coords, EltTy.bits .f32 = 32 ∨ (Rect.block (s := S200000x384) S2000x384.size (cc1_transform_17 i) (hinb1_17 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S10000x128.size a
  hwx2_0 : ∀ i : grid2.Coords, EltTy.bits .f32 = 32 ∨ (Rect.block (s := S10000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x128.size a ≤ S10000x128.size a
  hwx2_3 : ∀ i : grid2.Coords, EltTy.bits .f32 = 32 ∨ (Rect.block (s := S10000x128) S1000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x384.size a ≤ S200000x384.size a
  hwx3_0 : ∀ i : grid3.Coords, EltTy.bits .f32 = 32 ∨ (Rect.block (s := S200000x384) S2000x384.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S200000x128.size a
  hwx3_1 : ∀ i : grid3.Coords, EltTy.bits .f32 = 32 ∨ (Rect.block (s := S200000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x384.size a ≤ S200000x384.size a
  hwx3_2 : ∀ i : grid3.Coords, EltTy.bits .f32 = 32 ∨ (Rect.block (s := S200000x384) S2000x384.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x384.size a ≤ S200000x384.size a
  hwx3_3 : ∀ i : grid3.Coords, EltTy.bits .f32 = 32 ∨ (Rect.block (s := S200000x384) S2000x384.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S10000x128.size a
  hwx4_0 : ∀ i : grid4.Coords, EltTy.bits .f32 = 32 ∨ (Rect.block (s := S10000x128) S1000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x384.size a ≤ S10000x384.size a
  hwx4_1 : ∀ i : grid4.Coords, EltTy.bits .f32 = 32 ∨ (Rect.block (s := S10000x384) S1000x384.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x384.size a ≤ S10000x384.size a
  hwx4_2 : ∀ i : grid4.Coords, EltTy.bits .f32 = 32 ∨ (Rect.block (s := S10000x384) S1000x384.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128.size a ≤ S128.size a
  hwx4_6 : ∀ i : grid4.Coords, EltTy.bits .f32 = 32 ∨ (Rect.block (s := S128) S128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128.size a ≤ S128.size a
  hwx4_7 : ∀ i : grid4.Coords, EltTy.bits .f32 = 32 ∨ (Rect.block (s := S128) S128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128.size a ≤ S128.size a
  hwx4_8 : ∀ i : grid4.Coords, EltTy.bits .f32 = 32 ∨ (Rect.block (s := S128) S128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S1000x128.size a ≤ S10000x128.size a
  hwx4_9 : ∀ i : grid4.Coords, EltTy.bits .f32 = 32 ∨ (Rect.block (s := S10000x128) S1000x128.size (cc4_transform_9 i) (hinb4_9 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S10000x128_S200000x1_S200000x128_1_0_n_n_0_1_1128 : GatherDims S10000x128 S200000x1 S200000x128 where
  offsetDims := [1]
  collapsedSliceDims := [0]
  operandBatchingDims := []
  startIndicesBatchingDims := []
  startIndexMap := [0]
  indexVectorDim := 1
  sliceSizes := ![1, 128]
  wf := gather_S10000x128_S200000x1_S200000x128_1_0_n_n_0_1_1128_wf
def gather_S10000x3x128_S200000x1_S200000x3x128_12_0_n_n_0_1_13128 : GatherDims S10000x3x128 S200000x1 S200000x3x128 where
  offsetDims := [1, 2]
  collapsedSliceDims := [0]
  operandBatchingDims := []
  startIndicesBatchingDims := []
  startIndexMap := [0]
  indexVectorDim := 1
  sliceSizes := ![1, 3, 128]
  wf := gather_S10000x3x128_S200000x1_S200000x3x128_12_0_n_n_0_1_13128_wf
def dot_S2000x20_S20x128_S2000x128_1_0_0_1_n_n : DotDims S2000x20 S20x128 S2000x128 where
  lhsContracting := [1]
  rhsContracting := [0]
  lhsNonContracting := [0]
  rhsNonContracting := [1]
  lhsBatch := []
  rhsBatch := []
  wf := dot_S2000x20_S20x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S10000x128_S200000x1_S200000x128_1_0_0_1 : ScatterDims S10000x128 S200000x1 S200000x128 where
  updateWindowDims := [1]
  insertedWindowDims := [0]
  scatterDimsToOperandDims := [0]
  indexVectorDim := 1
  wf := scatter_S10000x128_S200000x1_S200000x128_1_0_0_1_wf
def scatter_S10000x3x128_S200000x1_S200000x3x128_12_0_0_1 : ScatterDims S10000x3x128 S200000x1 S200000x3x128 where
  updateWindowDims := [1, 2]
  insertedWindowDims := [0]
  scatterDimsToOperandDims := [0]
  indexVectorDim := 1
  wf := scatter_S10000x3x128_S200000x1_S200000x3x128_12_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg4) S2000x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S20x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg15) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg3) S2000x3.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_arg16) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg17) S128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg18) S128x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg19) S128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v26) S2000x384.size cc1_transform_14 reads1_14 false false 2 stage1_14 sem1_14
    hrank1 hreads1_14 hinb1_14 nbuf1_14 (Memref.isWhole_whole _) hwx1_14 hstage1_14

abbrev win1_15 : Pipeline.Window sig grid1 :=
  Pipeline.Window.ofSpec (Memref.whole main_v27_0) S2000x128.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v27_1) S2000x384.size cc1_transform_16 reads1_16 true false 2 stage1_16 sem1_16
    hrank1 hreads1_16 hinb1_16 nbuf1_16 (Memref.isWhole_whole _) hwx1_16 hstage1_16

abbrev win1_17 : Pipeline.Window sig grid1 :=
  Pipeline.Window.ofSpec (Memref.whole main_v27_2) S2000x384.size cc1_transform_17 reads1_17 true false 2 stage1_17 sem1_17
    hrank1 hreads1_17 hinb1_17 nbuf1_17 (Memref.isWhole_whole _) hwx1_17 hstage1_17

abbrev win1 : Fin 18 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | ⟨_ + 18, h⟩ => absurd h (Nat.not_lt.2 (Nat.le_add_left _ _))
abbrev spec1 : Fin 18 → Pipeline.WinSpec sig grid1.rank := fun w => (win1 w).toWinSpec

abbrev win2_0 : Pipeline.Window sig grid2 :=
  Pipeline.Window.ofSpec (Memref.whole main_v31) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg20) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg21) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v27_2) S2000x384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v52) S2000x384.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v53) S2000x384.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v31) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S1000x384.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v60) S1000x384.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg22) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg23) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg24) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg25) S128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg26) S128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg27) S128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v61) S1000x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S10000x128 : Shape := ⟨2, ![10000, 128]⟩
abbrev S10000x3x128 : Shape := ⟨3, ![10000, 3, 128]⟩
abbrev S200000x3 : Shape := ⟨2, ![200000, 3]⟩
abbrev S200000x20 : Shape := ⟨2, ![200000, 20]⟩
abbrev S2x200000 : Shape := ⟨2, ![2, 200000]⟩
abbrev S128x128 : Shape := ⟨2, ![128, 128]⟩
abbrev S128 : Shape := ⟨1, ![128]⟩
abbrev S20x128 : Shape := ⟨2, ![20, 128]⟩
abbrev S1x200000 : Shape := ⟨2, ![1, 200000]⟩
abbrev S200000 : Shape := ⟨1, ![200000]⟩
abbrev S1x128 : Shape := ⟨2, ![1, 128]⟩
abbrev S_ : Shape := ⟨0, ![]⟩
abbrev S200000x128 : Shape := ⟨2, ![200000, 128]⟩
abbrev S200000x1 : Shape := ⟨2, ![200000, 1]⟩
abbrev S200000x1x128 : Shape := ⟨3, ![200000, 1, 128]⟩
abbrev S200000x3x1 : Shape := ⟨3, ![200000, 3, 1]⟩
abbrev S200000x3x128 : Shape := ⟨3, ![200000, 3, 128]⟩
abbrev S10000 : Shape := ⟨1, ![10000]⟩
abbrev S10000x1 : Shape := ⟨2, ![10000, 1]⟩

abbrev nBuf : Space → Nat
  | .hbm => 228
  | .vmem => 0
  | .smem => 0
  | _ => 0

abbrev hbmTy0_0 (i : Nat) : BufTy := match i % 128 with
  | 0 => ⟨S10000x128, .f32⟩
  | 1 => ⟨S10000x3x128, .f32⟩
  | 2 => ⟨S10000x3x128, .f32⟩
  | 3 => ⟨S200000x3, .f32⟩
  | 4 => ⟨S200000x20, .f32⟩
  | 5 => ⟨S2x200000, .i32⟩
  | 6 => ⟨S128x128, .f32⟩
  | 7 => ⟨S128, .f32⟩
  | 8 => ⟨S128x128, .f32⟩
  | 9 => ⟨S128, .f32⟩
  | 10 => ⟨S20x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x128, .f32⟩
  | 21 => ⟨S128x128, .f32⟩
  | 22 => ⟨S128x128, .f32⟩
  | 23 => ⟨S128, .f32⟩
  | 24 => ⟨S128x128, .f32⟩
  | 25 => ⟨S128, .f32⟩
  | 26 => ⟨S128, .f32⟩
  | 27 => ⟨S128, .f32⟩
  | 28 => ⟨S1x200000, .i32⟩
  | 29 => ⟨S200000, .i32⟩
  | 30 => ⟨S1x200000, .i32⟩
  | 31 => ⟨S200000, .i32⟩
  | 32 => ⟨S10000x128, .f32⟩
  | 33 => ⟨S1x128, .f32⟩
  | 34 => ⟨S10000x128, .f32⟩
  | 35 => ⟨S10000x128, .f32⟩
  | 36 => ⟨S10000x128, .f32⟩
  | 37 => ⟨S10000x128, .f32⟩
  | 38 => ⟨S_, .f32⟩
  | 39 => ⟨S10000x128, .f32⟩
  | 40 => ⟨S10000x128, .f32⟩
  | 41 => ⟨S_, .f32⟩
  | 42 => ⟨S10000x128, .f32⟩
  | 43 => ⟨S10000x128, .f32⟩
  | 44 => ⟨S10000x128, .f32⟩
  | 45 => ⟨S10000x128, .f32⟩
  | 46 => ⟨S1x128, .f32⟩
  | 47 => ⟨S10000x128, .f32⟩
  | 48 => ⟨S10000x128, .f32⟩
  | 49 => ⟨S200000x128, .f32⟩
  | 50 => ⟨S1x128, .f32⟩
  | 51 => ⟨S200000x128, .f32⟩
  | 52 => ⟨S200000x128, .f32⟩
  | 53 => ⟨S_, .i32⟩
  | 54 => ⟨S200000, .i32⟩
  | 55 => ⟨S200000, .i1⟩
  | 56 => ⟨S_, .i32⟩
  | 57 => ⟨S200000, .i32⟩
  | 58 => ⟨S200000, .i32⟩
  | 59 => ⟨S200000, .i32⟩
  | 60 => ⟨S200000x1, .i32⟩
  | 61 => ⟨S200000x128, .f32⟩
  | 62 => ⟨S200000x128, .f32⟩
  | 63 => ⟨S_, .i32⟩
  | 64 => ⟨S200000, .i32⟩
  | 65 => ⟨S200000, .i1⟩
  | 66 => ⟨S_, .i32⟩
  | 67 => ⟨S200000, .i32⟩
  | 68 => ⟨S200000, .i32⟩
  | 69 => ⟨S200000, .i32⟩
  | 70 => ⟨S200000x1, .i32⟩
  | 71 => ⟨S200000x128, .f32⟩
  | 72 => ⟨S200000x128, .f32⟩
  | 73 => ⟨S_, .f32⟩
  | 74 => ⟨S10000x128, .f32⟩
  | 75 => ⟨S200000x1, .i32⟩
  | 76 => ⟨S10000x128, .f32⟩
  | 77 => ⟨S10000x128, .f32⟩
  | 78 => ⟨S200000x128, .f32⟩
  | 79 => ⟨S1x128, .f32⟩
  | 80 => ⟨S200000x128, .f32⟩
  | 81 => ⟨S200000x128, .f32⟩
  | 82 => ⟨S200000x128, .f32⟩
  | 83 => ⟨S200000x128, .f32⟩
  | 84 => ⟨S_, .f32⟩
  | 85 => ⟨S200000x128, .f32⟩
  | 86 => ⟨S200000x128, .f32⟩
  | 87 => ⟨S_, .f32⟩
  | 88 => ⟨S200000x128, .f32⟩
  | 89 => ⟨S200000x128, .f32⟩
  | 90 => ⟨S200000x128, .f32⟩
  | 91 => ⟨S200000x128, .f32⟩
  | 92 => ⟨S1x128, .f32⟩
  | 93 => ⟨S200000x128, .f32⟩
  | 94 => ⟨S200000x128, .f32⟩
  | 95 => ⟨S200000x1x128, .f32⟩
  | 96 => ⟨S200000x3x1, .f32⟩
  | 97 => ⟨S200000x3x128, .f32⟩
  | 98 => ⟨S200000x3x128, .f32⟩
  | 99 => ⟨S200000x3x128, .f32⟩
  | 100 => ⟨S_, .f32⟩
  | 101 => ⟨S10000x3x128, .f32⟩
  | 102 => ⟨S200000x1, .i32⟩
  | 103 => ⟨S10000x3x128, .f32⟩
  | 104 => ⟨S10000x3x128, .f32⟩
  | 105 => ⟨S200000x128, .f32⟩
  | 106 => ⟨S1x128, .f32⟩
  | 107 => ⟨S200000x128, .f32⟩
  | 108 => ⟨S200000x128, .f32⟩
  | 109 => ⟨S200000x128, .f32⟩
  | 110 => ⟨S200000x128, .f32⟩
  | 111 => ⟨S_, .f32⟩
  | 112 => ⟨S200000x128, .f32⟩
  | 113 => ⟨S200000x128, .f32⟩
  | 114 => ⟨S_, .f32⟩
  | 115 => ⟨S200000x128, .f32⟩
  | 116 => ⟨S200000x128, .f32⟩
  | 117 => ⟨S200000x128, .f32⟩
  | 118 => ⟨S200000x128, .f32⟩
  | 119 => ⟨S1x128, .f32⟩
  | 120 => ⟨S200000x128, .f32⟩
  | 121 => ⟨S200000x128, .f32⟩
  | 122 => ⟨S200000x1x128, .f32⟩
  | 123 => ⟨S_, .i32⟩
  | 124 => ⟨S200000, .i32⟩
  | 125 => ⟨S200000, .i1⟩
  | 126 => ⟨S_, .i32⟩
  | 127 => ⟨S200000, .i32⟩
  | _ => ⟨S10000x128, .f32⟩

abbrev hbmTy0_1 (i : Nat) : BufTy := match i % 128 with
  | 0 => ⟨S200000, .i32⟩
  | 1 => ⟨S200000, .i32⟩
  | 2 => ⟨S200000x1, .i32⟩
  | 3 => ⟨S200000x3x128, .f32⟩
  | 4 => ⟨S200000x3x128, .f32⟩
  | 5 => ⟨S200000x3x128, .f32⟩
  | 6 => ⟨S_, .f32⟩
  | 7 => ⟨S10000x3x128, .f32⟩
  | 8 => ⟨S200000x1, .i32⟩
  | 9 => ⟨S10000x3x128, .f32⟩
  | 10 => ⟨S10000x3x128, .f32⟩
  | 11 => ⟨S10000x128, .f32⟩
  | 12 => ⟨S10000x128, .f32⟩
  | 13 => ⟨S10000x128, .f32⟩
  | 14 => ⟨S_, .f32⟩
  | 15 => ⟨S10000x128, .f32⟩
  | 16 => ⟨S10000x128, .f32⟩
  | 17 => ⟨S_, .f32⟩
  | 18 => ⟨S10000x128, .f32⟩
  | 19 => ⟨S10000x128, .f32⟩
  | 20 => ⟨S10000x128, .f32⟩
  | 21 => ⟨S10000x128, .f32⟩
  | 22 => ⟨S_, .i32⟩
  | 23 => ⟨S200000, .i32⟩
  | 24 => ⟨S200000, .i1⟩
  | 25 => ⟨S_, .i32⟩
  | 26 => ⟨S200000, .i32⟩
  | 27 => ⟨S200000, .i32⟩
  | 28 => ⟨S200000, .i32⟩
  | 29 => ⟨S200000x1, .i32⟩
  | 30 => ⟨S200000x128, .f32⟩
  | 31 => ⟨S200000x1x128, .f32⟩
  | 32 => ⟨S_, .i32⟩
  | 33 => ⟨S200000, .i32⟩
  | 34 => ⟨S200000, .i1⟩
  | 35 => ⟨S_, .i32⟩
  | 36 => ⟨S200000, .i32⟩
  | 37 => ⟨S200000, .i32⟩
  | 38 => ⟨S200000, .i32⟩
  | 39 => ⟨S200000x1, .i32⟩
  | 40 => ⟨S200000x3x128, .f32⟩
  | 41 => ⟨S200000x3x128, .f32⟩
  | 42 => ⟨S200000x3x128, .f32⟩
  | 43 => ⟨S_, .f32⟩
  | 44 => ⟨S10000x3x128, .f32⟩
  | 45 => ⟨S200000x1, .i32⟩
  | 46 => ⟨S10000x3x128, .f32⟩
  | 47 => ⟨S10000x3x128, .f32⟩
  | 48 => ⟨S10000x128, .f32⟩
  | 49 => ⟨S1x128, .f32⟩
  | 50 => ⟨S10000x128, .f32⟩
  | 51 => ⟨S10000x128, .f32⟩
  | 52 => ⟨S10000x128, .f32⟩
  | 53 => ⟨S10000x128, .f32⟩
  | 54 => ⟨S_, .f32⟩
  | 55 => ⟨S10000x128, .f32⟩
  | 56 => ⟨S10000x128, .f32⟩
  | 57 => ⟨S_, .f32⟩
  | 58 => ⟨S10000x128, .f32⟩
  | 59 => ⟨S10000x128, .f32⟩
  | 60 => ⟨S10000x128, .f32⟩
  | 61 => ⟨S10000x128, .f32⟩
  | 62 => ⟨S1x128, .f32⟩
  | 63 => ⟨S10000x128, .f32⟩
  | 64 => ⟨S10000x128, .f32⟩
  | 65 => ⟨S10000x3x128, .f32⟩
  | 66 => ⟨S10000x3x128, .f32⟩
  | 67 => ⟨S_, .f32⟩
  | 68 => ⟨S10000x128, .f32⟩
  | 69 => ⟨S10000x128, .f32⟩
  | 70 => ⟨S10000x128, .f32⟩
  | 71 => ⟨S_, .f32⟩
  | 72 => ⟨S10000, .f32⟩
  | 73 => ⟨S10000x1, .f32⟩
  | 74 => ⟨S_, .f32⟩
  | 75 => ⟨S10000x1, .f32⟩
  | 76 => ⟨S10000x1, .f32⟩
  | 77 => ⟨S10000x128, .f32⟩
  | 78 => ⟨S10000x128, .f32⟩
  | 79 => ⟨S10000x128, .f32⟩
  | 80 => ⟨S_, .f32⟩
  | 81 => ⟨S10000, .f32⟩
  | 82 => ⟨S10000x1, .f32⟩
  | 83 => ⟨S_, .f32⟩
  | 84 => ⟨S10000x1, .f32⟩
  | 85 => ⟨S10000x1, .f32⟩
  | 86 => ⟨S10000x128, .f32⟩
  | 87 => ⟨S10000x128, .f32⟩
  | 88 => ⟨S_, .f32⟩
  | 89 => ⟨S10000x1, .f32⟩
  | 90 => ⟨S10000x1, .f32⟩
  | 91 => ⟨S10000x1, .f32⟩
  | 92 => ⟨S10000x128, .f32⟩
  | 93 => ⟨S10000x128, .f32⟩
  | 94 => ⟨S1x128, .f32⟩
  | 95 => ⟨S10000x128, .f32⟩
  | 96 => ⟨S10000x128, .f32⟩
  | 97 => ⟨S1x128, .f32⟩
  | 98 => ⟨S10000x128, .f32⟩
  | 99 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_c : Ref sig .tc := ⟨.hbm, 53, rfl⟩
abbrev main_v17 : Ref sig .tc := ⟨.hbm, 54, rfl⟩
abbrev main_v18 : Ref sig .tc := ⟨.hbm, 55, rfl⟩
abbrev main_c_0 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_c_1 : Ref sig .tc := ⟨.hbm, 63, rfl⟩
abbrev main_v25 : Ref sig .tc := ⟨.hbm, 64, rfl⟩
abbrev main_v26 : Ref sig .tc := ⟨.hbm, 65, rfl⟩
abbrev main_c_2 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_call1_v5 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_cst_3 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_call2_v0 : Ref sig .tc := ⟨.hbm, 109, rfl⟩
abbrev main_call2_v1 : Ref sig .tc := ⟨.hbm, 110, rfl⟩
abbrev main_call2_cst : Ref sig .tc := ⟨.hbm, 111, rfl⟩
abbrev main_call2_v2 : Ref sig .tc := ⟨.hbm, 112, rfl⟩
abbrev main_call2_v3 : Ref sig .tc := ⟨.hbm, 113, rfl⟩
abbrev main_call2_cst_0 : Ref sig .tc := ⟨.hbm, 114, rfl⟩
abbrev main_call2_v4 : Ref sig .tc := ⟨.hbm, 115, rfl⟩
abbrev main_call2_v5 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_c_4 : Ref sig .tc := ⟨.hbm, 123, rfl⟩
abbrev main_v65 : Ref sig .tc := ⟨.hbm, 124, rfl⟩
abbrev main_v66 : Ref sig .tc := ⟨.hbm, 125, rfl⟩
abbrev main_c_5 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_cst_6 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_call3_v0 : Ref sig .tc := ⟨.hbm, 140, rfl⟩
abbrev main_call3_v1 : Ref sig .tc := ⟨.hbm, 141, rfl⟩
abbrev main_call3_cst : Ref sig .tc := ⟨.hbm, 142, rfl⟩
abbrev main_call3_v2 : Ref sig .tc := ⟨.hbm, 143, rfl⟩
abbrev main_call3_v3 : Ref sig .tc := ⟨.hbm, 144, rfl⟩
abbrev main_call3_cst_0 : Ref sig .tc := ⟨.hbm, 145, rfl⟩
abbrev main_call3_v4 : Ref sig .tc := ⟨.hbm, 146, rfl⟩
abbrev main_call3_v5 : Ref sig .tc := ⟨.hbm, 147, rfl⟩
abbrev main_v79 : Ref sig .tc := ⟨.hbm, 148, rfl⟩
abbrev main_v80 : Ref sig .tc := ⟨.hbm, 149, rfl⟩
abbrev main_c_7 : Ref sig .tc := ⟨.hbm, 150, rfl⟩
abbrev main_v81 : Ref sig .tc := ⟨.hbm, 151, rfl⟩
abbrev main_v82 : Ref sig .tc := ⟨.hbm, 152, rfl⟩
abbrev main_c_8 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_c_9 : Ref sig .tc := ⟨.hbm, 160, rfl⟩
abbrev main_v89 : Ref sig .tc := ⟨.hbm, 161, rfl⟩
abbrev main_v90 : Ref sig .tc := ⟨.hbm, 162, rfl⟩
abbrev main_c_10 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_cst_11 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_call4_v0 : Ref sig .tc := ⟨.hbm, 180, rfl⟩
abbrev main_call4_v1 : Ref sig .tc := ⟨.hbm, 181, rfl⟩
abbrev main_call4_cst : Ref sig .tc := ⟨.hbm, 182, rfl⟩
abbrev main_call4_v2 : Ref sig .tc := ⟨.hbm, 183, rfl⟩
abbrev main_call4_v3 : Ref sig .tc := ⟨.hbm, 184, rfl⟩
abbrev main_call4_cst_0 : Ref sig .tc := ⟨.hbm, 185, rfl⟩
abbrev main_call4_v4 : Ref sig .tc := ⟨.hbm, 186, rfl⟩
abbrev main_call4_v5 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_cst_12 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_cst_13 : Ref sig .tc := ⟨.hbm, 199, rfl⟩
abbrev main_v116 : Ref sig .tc := ⟨.hbm, 200, rfl⟩
abbrev main_v117 : Ref sig .tc := ⟨.hbm, 201, rfl⟩
abbrev main_cst_14 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_cst_15 : Ref sig .tc := ⟨.hbm, 208, rfl⟩
abbrev main_v123 : Ref sig .tc := ⟨.hbm, 209, rfl⟩
abbrev main_v124 : Ref sig .tc := ⟨.hbm, 210, rfl⟩
abbrev main_cst_16 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_cst_17 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S1x128_S200000x128_0_1 : S1x128.BroadcastsInDim S200000x128 (![0, 1] : Fin 2 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S200000x128 : S_.BroadcastsInDim S200000x128 (![] : Fin 0 → Fin S200000x128.rank)
  bcast_S200000x128_S200000x1x128_0_2 : S200000x128.BroadcastsInDim S200000x1x128 (![0, 2] : Fin 2 → Fin S200000x1x128.rank)
  bcast_S200000x3_S200000x3x1_0_1 : S200000x3.BroadcastsInDim S200000x3x1 (![0, 1] : Fin 2 → Fin S200000x3x1.rank)
  bcast_S200000x1x128_S200000x3x128_0_1_2 : S200000x1x128.BroadcastsInDim S200000x3x128 (![0, 1, 2] : Fin 3 → Fin S200000x3x128.rank)
  bcast_S200000x3x1_S200000x3x128_0_1_2 : S200000x3x1.BroadcastsInDim S200000x3x128 (![0, 1, 2] : Fin 3 → Fin S200000x3x128.rank)
  bcast_S_S10000x3x128 : S_.BroadcastsInDim S10000x3x128 (![] : Fin 0 → Fin S10000x3x128.rank)
  reducesTo_S10000x3x128_S10000x128_d1 : S10000x3x128.ReducesTo [1] S10000x128
  h_S_ : 0 < S_.numel
  reducesTo_S10000x128_S10000_d1 : S10000x128.ReducesTo [1] S10000
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S200000x20_S20x128_S200000x128_1_0_0_1_n_n_wf : DotDims.WF S200000x20 S20x128 S200000x128 [1] [0] [0] [1] [] []
  gather_S10000x128_S200000x1_S200000x128_1_0_n_n_0_1_1128_wf : GatherDims.WF S10000x128 S200000x1 S200000x128 [1] [0] [] [0] [] 1 ![1, 128]
  scatter_S10000x128_S200000x1_S200000x128_1_0_0_1_wf : ScatterDims.WF S10000x128 S200000x1 S200000x128 [1] [0] [0] 1
  dot_S200000x128_S128x128_S200000x128_1_0_0_1_n_n_wf : DotDims.WF S200000x128 S128x128 S200000x128 [1] [0] [0] [1] [] []
  scatter_S10000x3x128_S200000x1_S200000x3x128_12_0_0_1_wf : ScatterDims.WF S10000x3x128 S200000x1 S200000x3x128 [1, 2] [0] [0] 1
  gather_S10000x3x128_S200000x1_S200000x3x128_12_0_n_n_0_1_13128_wf : GatherDims.WF S10000x3x128 S200000x1 S200000x3x128 [1, 2] [0] [] [0] [] 1 ![1, 3, 128]

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200000x20_S20x128_S200000x128_1_0_0_1_n_n : DotDims S200000x20 S20x128 S200000x128 where
  lhsContracting := [1]
  rhsContracting := [0]
  lhsNonContracting := [0]
  rhsNonContracting := [1]
  lhsBatch := []
  rhsBatch := []
  wf := dot_S200000x20_S20x128_S200000x128_1_0_0_1_n_n_wf
def gather_S10000x128_S200000x1_S200000x128_1_0_n_n_0_1_1128 : GatherDims S10000x128 S200000x1 S200000x128 where
  offsetDims := [1]
  collapsedSliceDims := [0]
  operandBatchingDims := []
  startIndicesBatchingDims := []
  startIndexMap := [0]
  indexVectorDim := 1
  sliceSizes := ![1, 128]
  wf := gather_S10000x128_S200000x1_S200000x128_1_0_n_n_0_1_1128_wf
def scatter_S10000x128_S200000x1_S200000x128_1_0_0_1 : ScatterDims S10000x128 S200000x1 S200000x128 where
  updateWindowDims := [1]
  insertedWindowDims := [0]
  scatterDimsToOperandDims := [0]
  indexVectorDim := 1
  wf := scatter_S10000x128_S200000x1_S200000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def scatter_S10000x3x128_S200000x1_S200000x3x128_12_0_0_1 : ScatterDims S10000x3x128 S200000x1 S200000x3x128 where
  updateWindowDims := [1, 2]
  insertedWindowDims := [0]
  scatterDimsToOperandDims := [0]
  indexVectorDim := 1
  wf := scatter_S10000x3x128_S200000x1_S200000x3x128_12_0_0_1_wf
def gather_S10000x3x128_S200000x1_S200000x3x128_12_0_n_n_0_1_13128 : GatherDims S10000x3x128 S200000x1 S200000x3x128 where
  offsetDims := [1, 2]
  collapsedSliceDims := [0]
  operandBatchingDims := []
  startIndicesBatchingDims := []
  startIndexMap := [0]
  indexVectorDim := 1
  sliceSizes := ![1, 3, 128]
  wf := gather_S10000x3x128_S200000x1_S200000x3x128_12_0_n_n_0_1_13128_wf

class Facts : Prop extends Facts₀ where

variable [Facts]
-- ==== Proof.KernelRun.lean ====
/-
  The kernel program's run, with its three results named.

  The program is five kernel launches among stretches of host operations. Its run ends with every buffer of the
  TensorCore at the contents of the last boundary of that chain: each stretch applies its operations to the contents
  it finds, and each launch replaces its arrays by what its write-backs leave. So the three result buffers end at those
  last contents read at their references, and the arguments end as launched.
-/
import proofs.«115706_j13340168421980_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the three results end at the last boundary's
    contents and the arguments end as launched. -/
theorem run_results : θ_run defs (onTc (τ := τ) (main (F := F))) ⟨m, fun _ => 0, ρ⟩ (fun r => ∀ c : Dev nD,
      r.2.mem ((c.tc : Thread nD τ).loc main_v61) = W10 m ρ c (Proc.devRef .tc main_v61)
      ∧ r.2.mem ((c.tc : Thread nD τ).loc main_v36) = W10 m ρ c (Proc.devRef .tc main_v36)
      ∧ r.2.mem ((c.tc : Thread nD τ).loc main_v58) = W10 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v61 (by decide)),
       h c _ (mem_uc main_v36 (by decide)),
       h c _ (mem_uc main_v58 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c),
       (h c _ (mem_uc main_arg22 (by decide))).trans (W10_main_arg22 m ρ c),
       (h c _ (mem_uc main_arg23 (by decide))).trans (W10_main_arg23 m ρ c),
       (h c _ (mem_uc main_arg24 (by decide))).trans (W10_main_arg24 m ρ c),
       (h c _ (mem_uc main_arg25 (by decide))).trans (W10_main_arg25 m ρ c),
       (h c _ (mem_uc main_arg26 (by decide))).trans (W10_main_arg26 m ρ c),
       (h c _ (mem_uc main_arg27 (by decide))).trans (W10_main_arg27 m ρ c)⟩)

end Cert.KernelIdeal.Hand

end
-- ==== Proof.Spec.lean ====
/-
  The reference's stages as functions of the arrays they read.

  Every stage is spelt with the host operations of the reference program itself, so that each value the reference
  computes is, by unfolding, one of these functions applied to earlier values:
    * `siluN`, `siluE`      x * (1 / (1 + exp (-x))), entry by entry, over node rows and over edge rows;
    * `mlpN`, `mlpE`        silu (x * W1 + b1) * W2 + b2;
    * `mlpnbN`              silu (x * W1) * W2;
    * `linE`                x * W + b for the twenty radial features of an edge;
    * `invE`                the edge part times the node part gathered at both endpoints;
    * `stretchE`, `eq1E`    an edge row laid along the three spatial directions, and its product with the edge's
                             displacement;
    * `lnN`                 the invariant update and the normalisation of its rows.
-/
import proofs.«115706_j13340168421980_2_alg».proof.ReferenceIdeal
import proofs.«115706_j13340168421980_2_alg».proof.Proof.Gen.ReferenceIdeal
import Idealize.ShloMosaic.PureOps.Ideal

noncomputable section

namespace Cert.Spec

open Idealize.ShloMosaic Cert.ReferenceIdeal Cert.ReferenceIdeal.Gen

abbrev AN := FVec Ideal S10000x128 .f32
abbrev AE := FVec Ideal S200000x128 .f32
abbrev AN3 := FVec Ideal S10000x3x128 .f32
abbrev AE3 := FVec Ideal S200000x3x128 .f32
abbrev AW := FVec Ideal S128x128 .f32
abbrev AB := FVec Ideal S128 .f32
abbrev AD := FVec Ideal S200000x20 .f32
abbrev AW20 := FVec Ideal S20x128 .f32
abbrev AE3c := FVec Ideal S200000x3 .f32
abbrev AN1 := FVec Ideal S10000x1 .f32

/-- x * (1 / (1 + exp (-x))) over the node rows. -/
def siluN (t : AN) : AN :=
  mulf t (Host.divf (broadcastInDim S10000x128 ![] bcast_S_S10000x128 (constant S_ .f32 0x3F800000#32))
    (addf (broadcastInDim S10000x128 ![] bcast_S_S10000x128 (constant S_ .f32 0x3F800000#32)) (Host.exp (Host.negf t))))

/-- x * (1 / (1 + exp (-x))) over the edge rows. -/
def siluE (t : AE) : AE :=
  mulf t (Host.divf (broadcastInDim S200000x128 ![] bcast_S_S200000x128 (constant S_ .f32 0x3F800000#32))
    (addf (broadcastInDim S200000x128 ![] bcast_S_S200000x128 (constant S_ .f32 0x3F800000#32)) (Host.exp (Host.negf t))))

/-- A bias row laid down the node rows. -/
def rowN (b : AB) : AN :=
  broadcastInDim S10000x128 ![0, 1] bcast_S1x128_S10000x128_0_1 (broadcastInDim S1x128 ![1] bcast_S128_S1x128_1 b)

/-- A bias row laid down the edge rows. -/
def rowE (b : AB) : AE :=
  broadcastInDim S200000x128 ![0, 1] bcast_S1x128_S200000x128_0_1 (broadcastInDim S1x128 ![1] bcast_S128_S1x128_1 b)

/-- silu (x * W1 + b1) * W2 + b2 over the node rows. -/
def mlpN (x : AN) (W1 : AW) (b1 : AB) (W2 : AW) (b2 : AB) : AN :=
  addf (Host.dotGeneral dot_S10000x128_S128x128_S10000x128_1_0_0_1_n_n none
    (siluN (addf (Host.dotGeneral dot_S10000x128_S128x128_S10000x128_1_0_0_1_n_n none x W1) (rowN b1))) W2) (rowN b2)

/-- silu (x * W1) * W2 over the node rows. -/
def mlpnbN (x : AN) (W1 W2 : AW) : AN :=
  Host.dotGeneral dot_S10000x128_S128x128_S10000x128_1_0_0_1_n_n none
    (siluN (Host.dotGeneral dot_S10000x128_S128x128_S10000x128_1_0_0_1_n_n none x W1)) W2

/-- silu (x * W1 + b1) * W2 + b2 over the edge rows. -/
def mlpE (x : AE) (W1 : AW) (b1 : AB) (W2 : AW) (b2 : AB) : AE :=
  addf (Host.dotGeneral dot_S200000x128_S128x128_S200000x128_1_0_0_1_n_n none
    (siluE (addf (Host.dotGeneral dot_S200000x128_S128x128_S200000x128_1_0_0_1_n_n none x W1) (rowE b1))) W2) (rowE b2)

/-- x * W + b for the radial features of the edges. -/
def linE (x : AD) (W : AW20) (b : AB) : AE :=
  addf (Host.dotGeneral dot_S200000x20_S20x128_S200000x128_1_0_0_1_n_n none x W) (rowE b)

/-- The invariant message of an edge: its radial part times the node part at its source and at its target. -/
def invE (x : AD) (W : AW20) (b : AB)
    (hs hd : AE) : AE :=
  mulf (mulf (linE x W b) hs) hd

/-- An edge row repeated along the three spatial directions. -/
def stretchE (y : AE) : AE3 :=
  broadcastInDim S200000x3x128 ![0, 1, 2] bcast_S200000x1x128_S200000x3x128_0_1_2
    (broadcastInDim S200000x1x128 ![0, 2] bcast_S200000x128_S200000x1x128_0_2 y)

/-- The first equivariant message: an edge row times the edge's displacement, direction by direction. -/
def eq1E (y : AE) (de : AE3c) : AE3 :=
  mulf (stretchE y)
    (broadcastInDim S200000x3x128 ![0, 1, 2] bcast_S200000x3x1_S200000x3x128_0_1_2
      (broadcastInDim S200000x3x1 ![0, 1] bcast_S200000x3_S200000x3x1_0_1 de))

/-- A one-column array of node rows stretched over the feature axis. -/
def colN (v : AN1) : AN :=
  broadcastInDim S10000x128 ![0, 1] bcast_S10000x1_S10000x128_0_1 v

/-- The mean of each node row, as a column. -/
def meanN (x : AN) : AN1 :=
  Host.divf (broadcastInDim S10000x1 ![0] bcast_S10000_S10000x1_0
      (Host.reduceAdd x (constant S_ .f32 0x00000000#32) reducesTo_S10000x128_S10000_d1 h_S_))
    (broadcastInDim S10000x1 ![] bcast_S_S10000x1 (constant S_ .f32 0x43000000#32))

/-- The atoms before normalisation: the atom rows plus the update MLP of them times the sum over the three directions of
    minus force times displacement. -/
def preN (a : AN) (f d : AN3) (W1 : AW) (b1 : AB) (W2 : AW) (b2 : AB) : AN :=
  addf a (mulf (mlpN a W1 b1 W2 b2)
    (Host.reduceAdd (mulf (Host.negf f) d) (constant S_ .f32 0x00000000#32) reducesTo_S10000x3x128_S10000x128_d1 h_S_))

/-- Row normalisation: (x - mean) * rsqrt (variance + eps) * g + b. -/
def normN (x : AN) (g b : AB) : AN :=
  addf (mulf (mulf (subf x (colN (meanN x)))
      (colN (Host.rsqrt (addf (meanN (mulf (subf x (colN (meanN x))) (subf x (colN (meanN x)))))
        (broadcastInDim S10000x1 ![] bcast_S_S10000x1 (constant S_ .f32 0x3727C5AC#32))))))
    (rowN g)) (rowN b)

/-- The last stage: the normalised updated atoms. -/
def lnN (a : AN) (f d : AN3) (W1 : AW) (b1 : AB) (W2 : AW) (b2 : AB) (g b : AB) : AN :=
  normN (preN a f d W1 b1 W2 b2) g b

end Cert.Spec

end
-- ==== Proof.LibScatterSum.lean ====
/-
  Scattering a sum is the sum of the scatters.

  On the extended reals an accumulating scatter gives, at each index, the operand's entry plus the sum of the updates
  whose target is that index. The set of updates landing at an index depends on the index array alone, and a sum
  over a finite set of a + b is the sum of the a's plus the sum of the b's in any commutative monoid — the extended
  reals with their addition are one, so nothing is assumed of the entries. Hence, for an array z of zeros,

      x + scatter(z, idx, a + b) = (x + scatter(z, idx, a)) + scatter(z, idx, b)      entry by entry.
-/
import Idealize.ShloMosaic.PureOps.Ideal
import Idealize.ShloMosaic.PureOps.Contract
import Idealize.ShloMosaic.Lib.ValueIdx
import Idealize.ShloMosaic.Lib.IdealHost

noncomputable section

namespace Cert.Hand.ScatterSum

open Idealize.ShloMosaic Idealize.ShloMosaic.ValueIdx

variable {s si su : Shape} {w : Nat}

/-- The exact scatter of a sum of updates into zeros, at one index. -/
theorem hostScatterAdd_add (d : ScatterDims s si su) (z : s.Idx → EReal) (hz : ∀ i, z i = 0) (idx : IVec si w)
    (a b : su.Idx → EReal) (i : s.Idx) :
    Ideal.hostScatterAdd d z idx (fun j => a j + b j) i
      = Ideal.hostScatterAdd d z idx a i + Ideal.hostScatterAdd d z idx b i := by
  simp only [Ideal.hostScatterAdd, hz, zero_add]
  exact Finset.sum_add_distrib

/-- The array form: adding one scatter of a sum, or the two scatters in turn. -/
theorem add_scatter_add (d : ScatterDims s si su) (x z : FVec Ideal s .f32) (hz : ∀ i, z i = 0) (idx : IVec si w)
    (a b : FVec Ideal su .f32) :
    addf x (Host.scatterAdd (F := Ideal) d z idx (addf a b))
      = addf (addf x (Host.scatterAdd (F := Ideal) d z idx a)) (Host.scatterAdd (F := Ideal) d z idx b) := by
  funext i
  rw [addf_apply, addf_apply, addf_apply]
  show x i + Ideal.hostScatterAdd d z idx (fun j => a j + b j) i
    = x i + Ideal.hostScatterAdd d z idx a i + Ideal.hostScatterAdd d z idx b i
  rw [hostScatterAdd_add d z hz idx a b i, add_assoc]

/-- The zero array as a program spells it: the zero word laid over every index. -/
theorem zeros_apply {t : Shape} (h : (⟨0, ![]⟩ : Shape).BroadcastsInDim t ![]) (i : t.Idx) :
    broadcastInDim t ![] h (constant (F := Ideal) ⟨0, ![]⟩ .f32 0x00000000#32) i = 0 := by
  rw [broadcastInDim_scalar_apply, constant_apply, Ideal.ofBits_zero_f32]

end Cert.Hand.ScatterSum

end
-- ==== Proof.Composite.lean ====
/-
  The whole computation as one composition of the reference's stages, over the 28 argument arrays.

  With A the atom rows, F and D the force and displacement rows, and src, dst the two rows of the edge index:
    H      = mlp(A)                                          the node part of the invariant message
    INV    = (dist * W + b) * H[src] * H[dst]                the invariant message of every edge
    ATOM1  = A + scatter_src(INV)
    AGG1   = scatter_src(mlp1(INV) ⊗ disp_edge),  FORCE1 = F + AGG1
    EQ2    = mlp2(INV) ⊗ D[dst],   EINV = mlpnb(ATOM1),   EQ3 = EINV[dst] ⊗ AGG1[dst]
    DISP1  = (D + scatter_src(EQ2)) + scatter_src(EQ3)       the reference's order
    DISP1' = D + scatter_src(EQ2 + EQ3)                      one scatter of the merged messages
    OUT    = layernorm(ATOM1 + mlp(ATOM1) * sum over the 3 directions of (-FORCE1 * DISP1))
  The reference's three results are OUT, FORCE1, DISP1 by unfolding; DISP1 = DISP1' because a scatter into zeros is
  additive in its updates.
-/
import proofs.«115706_j13340168421980_2_alg».proof.Proof.Gen.ReferenceIdeal.Read
import proofs.«115706_j13340168421980_2_alg».proof.Proof.Spec
import proofs.«115706_j13340168421980_2_alg».proof.Proof.LibScatterSum

set_option maxRecDepth 8192

noncomputable section

namespace Cert.Spec

open Idealize.ShloMosaic Cert.ReferenceIdeal Cert.ReferenceIdeal.Gen Cert.ReferenceIdeal.Read

/-- The 28 argument arrays. -/
structure Args where
  x0 : AN
  x1 : AN3
  x2 : AN3
  x3 : AE3c
  x4 : AD
  x5 : IVec S2x200000 32
  x6 : AW
  x7 : AB
  x8 : AW
  x9 : AB
  x10 : AW20
  x11 : AB
  x12 : AW
  x13 : AB
  x14 : AW
  x15 : AB
  x16 : AW
  x17 : AB
  x18 : AW
  x19 : AB
  x20 : AW
  x21 : AW
  x22 : AW
  x23 : AB
  x24 : AW
  x25 : AB
  x26 : AB
  x27 : AB

variable (a : Args)

/-- The source row of the edge index. -/
def src : IVec S200000 32 := val_main_v1 (F := Ideal) a.x5
/-- The target row of the edge index. -/
def dst : IVec S200000 32 := val_main_v3 (F := Ideal) a.x5
/-- An index row as a column, negative entries wrapped by the number of nodes: what a gather reads rows by. -/
def wrapCol (s : IVec S200000 32) : IVec S200000x1 32 :=
  broadcastInDim S200000x1 ![0] bcast_S200000_S200000x1_0
    (select (cmpi .slt s (broadcastInDim S200000 ![] bcast_S_S200000 (constantI S_ 32 0#32)))
      (addi s (broadcastInDim S200000 ![] bcast_S_S200000 (constantI S_ 32 10000#32))) s)
/-- An index row as a column, as it is: what a scatter adds rows by. -/
def rawCol (s : IVec S200000 32) : IVec S200000x1 32 :=
  broadcastInDim S200000x1 ![0] bcast_S200000_S200000x1_0 s
/-- Rows of a node table gathered per edge. -/
def rowsAt (x : AN) (i : IVec S200000x1 32) : AE :=
  Host.gather gather_S10000x128_S200000x1_S200000x128_1_0_n_n_0_1_1128 x i
/-- Triple rows of a node table gathered per edge. -/
def rows3At (x : AN3) (i : IVec S200000x1 32) : AE3 :=
  Host.gather gather_S10000x3x128_S200000x1_S200000x3x128_12_0_n_n_0_1_13128 x i
def zerosN : AN := broadcastInDim S10000x128 ![] bcast_S_S10000x128 (constant S_ .f32 0x00000000#32)
def zerosN3 : AN3 := broadcastInDim S10000x3x128 ![] bcast_S_S10000x3x128 (constant S_ .f32 0x00000000#32)
/-- Edge rows added into the node rows their index names. -/
def sumAt (i : IVec S200000x1 32) (u : AE) : AN :=
  Host.scatterAdd scatter_S10000x128_S200000x1_S200000x128_1_0_0_1 zerosN i u
/-- Edge triple rows added into the node triple rows their index names. -/
def sum3At (i : IVec S200000x1 32) (u : AE3) : AN3 :=
  Host.scatterAdd scatter_S10000x3x128_S200000x1_S200000x3x128_12_0_0_1 zerosN3 i u

def H : AN := mlpN a.x0 a.x6 a.x7 a.x8 a.x9
def INV : AE := invE a.x4 a.x10 a.x11 (rowsAt (H a) (wrapCol (src a))) (rowsAt (H a) (wrapCol (dst a)))
def ATOM1 : AN := addf a.x0 (sumAt (rawCol (src a)) (INV a))
def EQ1 : AE3 := eq1E (mlpE (INV a) a.x12 a.x13 a.x14 a.x15) a.x3
def AGG1 : AN3 := sum3At (rawCol (src a)) (EQ1 a)
def FORCE1 : AN3 := addf a.x1 (AGG1 a)
def EQ2 : AE3 := mulf (stretchE (mlpE (INV a) a.x16 a.x17 a.x18 a.x19)) (rows3At a.x2 (wrapCol (dst a)))
def EINV : AN := mlpnbN (ATOM1 a) a.x20 a.x21
def EQ3 : AE3 := mulf (stretchE (rowsAt (EINV a) (wrapCol (dst a)))) (rows3At (AGG1 a) (wrapCol (dst a)))
/-- The displacement rows after both messages, one scatter after the other. -/
def DISP1 : AN3 := addf (addf a.x2 (sum3At (rawCol (src a)) (EQ2 a))) (sum3At (rawCol (src a)) (EQ3 a))
/-- The displacement rows after one scatter of the merged messages. -/
def DISP1' : AN3 := addf a.x2 (sum3At (rawCol (src a)) (addf (EQ2 a) (EQ3 a)))
def OUT : AN := lnN (ATOM1 a) (FORCE1 a) (DISP1 a) a.x22 a.x23 a.x24 a.x25 a.x26 a.x27

/-- One scatter of the merged messages, or the two scatters in turn: the same displacement rows. -/
theorem disp1'_eq : DISP1' a = DISP1 a := by
  unfold DISP1' DISP1 sum3At
  exact Cert.Hand.ScatterSum.add_scatter_add _ a.x2 zerosN3 (fun i => Cert.Hand.ScatterSum.zeros_apply _ i) _ (EQ2 a) (EQ3 a)

/-! ## The reference's three results are these compositions -/

theorem ref_out0 : val_main_v139 (F := Ideal) a.x0 a.x1 a.x2 a.x3 a.x4 a.x5 a.x6 a.x7 a.x8 a.x9 a.x10 a.x11 a.x12 a.x13 a.x14 a.x15 a.x16 a.x17 a.x18 a.x19 a.x20 a.x21 a.x22 a.x23 a.x24 a.x25 a.x26 a.x27 = OUT a := rfl

theorem ref_out1 : val_main_v54 (F := Ideal) a.x0 a.x1 a.x3 a.x4 a.x5 a.x6 a.x7 a.x8 a.x9 a.x10 a.x11 a.x12 a.x13 a.x14 a.x15 = FORCE1 a := rfl

theorem ref_out2 : val_main_v101 (F := Ideal) a.x0 a.x2 a.x3 a.x4 a.x5 a.x6 a.x7 a.x8 a.x9 a.x10 a.x11 a.x12 a.x13 a.x14 a.x15 a.x16 a.x17 a.x18 a.x19 a.x20 a.x21 = DISP1 a := rfl

end Cert.Spec

end
-- ==== Proof.LibKeeps.lean ====
/-
  A straight line of host operations leaves every buffer it does not write as it was. Which buffers a line writes is
  read off the line itself: each operation writes exactly its result reference. The tactic below proves, for a literal
  line `ops` and a literal list `W` of references, that every operation's written set lies inside `W`; the library's
  `StableHlo.after_of_writes_sub` then gives `after ops V b = V b` for any reference `b` outside `W`
  (membership in `W` is decided over references).
-/
import Idealize.ShloMosaic.Lib.StableHlo.Run

open Idealize.ShloMosaic

/-- Closes `ops.Forall fun op => op.writes ⊆ (W.map (Proc.devRef .tc)).toFinset` for a literal line `ops` (named by the
    identifier given, so that it can be unfolded) of the library's operation builders and a literal list `W` holding
    every result reference of the line: the conjunction is split, each builder's written set is the singleton of its
    result reference, and that reference is found in `W` by `decide`. -/
macro "host_writes" ops:ident : tactic =>
  `(tactic| (simp only [$ops:ident, List.Forall]
             repeat' apply And.intro
             all_goals
               (simp only [StableHlo.nullary_writes, StableHlo.unary_writes, StableHlo.binary_writes, StableHlo.ternary_writes,
                  StableHlo.quaternary_writes, StableHlo.reshape_writes, StableHlo.binaryIndexed_writes,
                  StableHlo.unaryIndexed_writes, StableHlo.nary_writes, Finset.singleton_subset_iff, List.mem_toFinset]
                exact List.mem_map_of_mem (by decide))))
-- ==== Proof.KernelValues.lean ====
/-
  The kernel program's buffers at each boundary of its chain of host stretches and launches, read back to the arguments.

  A host stretch leaves every buffer it does not write as it found it, and gives each buffer it writes its operation's
  value of the buffers read; a launch leaves every buffer that is not one of its output arrays as it found it, and its
  output arrays at what its blocks wrote. Walking the chain in order names each intermediate array as a stage of the
  whole computation over the 28 arguments.
-/
import proofs.«115706_j13340168421980_2_alg».proof.Proof.Gen.KernelIdeal.Frame
import proofs.«115706_j13340168421980_2_alg».proof.Proof.Composite
import proofs.«115706_j13340168421980_2_alg».proof.Proof.LibKeeps
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The 28 argument arrays as launched. -/
def args : Cert.Spec.Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)
  x12 := m ((c : Thread nD τ).loc main_arg12)
  x13 := m ((c : Thread nD τ).loc main_arg13)
  x14 := m ((c : Thread nD τ).loc main_arg14)
  x15 := m ((c : Thread nD τ).loc main_arg15)
  x16 := m ((c : Thread nD τ).loc main_arg16)
  x17 := m ((c : Thread nD τ).loc main_arg17)
  x18 := m ((c : Thread nD τ).loc main_arg18)
  x19 := m ((c : Thread nD τ).loc main_arg19)
  x20 := m ((c : Thread nD τ).loc main_arg20)
  x21 := m ((c : Thread nD τ).loc main_arg21)
  x22 := m ((c : Thread nD τ).loc main_arg22)
  x23 := m ((c : Thread nD τ).loc main_arg23)
  x24 := m ((c : Thread nD τ).loc main_arg24)
  x25 := m ((c : Thread nD τ).loc main_arg25)
  x26 := m ((c : Thread nD τ).loc main_arg26)
  x27 := m ((c : Thread nD τ).loc main_arg27)

/-! ## What each host stretch writes -/

theorem writes0 : (hostOps0 : List (HloOp τ sig (Elt Ideal))).Forall fun op => op.writes ⊆ (([main_v0, main_v1, main_v2, main_v3] : List (Ref sig .tc)).map (Proc.devRef (τ := τ) .tc)).toFinset := by
  host_writes hostOps0
theorem keep0 (V : Valuation τ sig (Elt Ideal)) (b : Ref sig .tc) (hb : b ∉ ([main_v0, main_v1, main_v2, main_v3] : List (Ref sig .tc))) :
    StableHlo.after hostOps0 V (Proc.devRef .tc b) = V (Proc.devRef .tc b) :=
  StableHlo.after_of_writes_sub _ _ writes0 hb
theorem writes1 : (hostOps1 : List (HloOp τ sig (Elt Ideal))).Forall fun op => op.writes ⊆ (([main_c, main_v5, main_v6, main_c_0, main_v7, main_v8, main_v9, main_v10, main_v11, main_c_1, main_v12, main_v13, main_c_2, main_v14, main_v15, main_v16, main_v17, main_v18, main_c_3, main_v19, main_v20, main_c_4, main_v21, main_v22, main_v23, main_v24, main_v25, main_v26] : List (Ref sig .tc)).map (Proc.devRef (τ := τ) .tc)).toFinset := by
  host_writes hostOps1
theorem keep1 (V : Valuation τ sig (Elt Ideal)) (b : Ref sig .tc) (hb : b ∉ ([main_c, main_v5, main_v6, main_c_0, main_v7, main_v8, main_v9, main_v10, main_v11, main_c_1, main_v12, main_v13, main_c_2, main_v14, main_v15, main_v16, main_v17, main_v18, main_c_3, main_v19, main_v20, main_c_4, main_v21, main_v22, main_v23, main_v24, main_v25, main_v26] : List (Ref sig .tc))) :
    StableHlo.after hostOps1 V (Proc.devRef .tc b) = V (Proc.devRef .tc b) :=
  StableHlo.after_of_writes_sub _ _ writes1 hb
theorem writes2 : (hostOps2 : List (HloOp τ sig (Elt Ideal))).Forall fun op => op.writes ⊆ (([main_cst, main_v28, main_v29, main_v30, main_v31, main_v32, main_cst_5, main_v33, main_v34, main_v35, main_v36] : List (Ref sig .tc)).map (Proc.devRef (τ := τ) .tc)).toFinset := by
  host_writes hostOps2
theorem keep2 (V : Valuation τ sig (Elt Ideal)) (b : Ref sig .tc) (hb : b ∉ ([main_cst, main_v28, main_v29, main_v30, main_v31, main_v32, main_cst_5, main_v33, main_v34, main_v35, main_v36] : List (Ref sig .tc))) :
    StableHlo.after hostOps2 V (Proc.devRef .tc b) = V (Proc.devRef .tc b) :=
  StableHlo.after_of_writes_sub _ _ writes2 hb
theorem writes3 : (hostOps3 : List (HloOp τ sig (Elt Ideal))).Forall fun op => op.writes ⊆ (([main_c_6, main_v38, main_v39, main_c_7, main_v40, main_v41, main_v42, main_v43, main_v44, main_c_8, main_v45, main_v46, main_c_9, main_v47, main_v48, main_v49, main_v50, main_v51, main_v52] : List (Ref sig .tc)).map (Proc.devRef (τ := τ) .tc)).toFinset := by
  host_writes hostOps3
theorem keep3 (V : Valuation τ sig (Elt Ideal)) (b : Ref sig .tc) (hb : b ∉ ([main_c_6, main_v38, main_v39, main_c_7, main_v40, main_v41, main_v42, main_v43, main_v44, main_c_8, main_v45, main_v46, main_c_9, main_v47, main_v48, main_v49, main_v50, main_v51, main_v52] : List (Ref sig .tc))) :
    StableHlo.after hostOps3 V (Proc.devRef .tc b) = V (Proc.devRef .tc b) :=
  StableHlo.after_of_writes_sub _ _ writes3 hb
theorem writes4 : (hostOps4 : List (HloOp τ sig (Elt Ideal))).Forall fun op => op.writes ⊆ (([main_v54, main_cst_10, main_v55, main_v56, main_v57, main_v58, main_v59, main_v60] : List (Ref sig .tc)).map (Proc.devRef (τ := τ) .tc)).toFinset := by
  host_writes hostOps4
theorem keep4 (V : Valuation τ sig (Elt Ideal)) (b : Ref sig .tc) (hb : b ∉ ([main_v54, main_cst_10, main_v55, main_v56, main_v57, main_v58, main_v59, main_v60] : List (Ref sig .tc))) :
    StableHlo.after hostOps4 V (Proc.devRef .tc b) = V (Proc.devRef .tc b) :=
  StableHlo.after_of_writes_sub _ _ writes4 hb

/-! ## The launches' values, taken as given here (each is proved in its own module) -/

set_option maxHeartbeats 4000000 in
/-- What the five launches leave in their output arrays, as stages of the reference's computation of their input
    arrays, whatever the buffers hold when the launch is entered. -/
structure Launches : Prop where
  node : ∀ (V : (c : Dev nD) → (b : Ref sig .tc) → Buf (Elt Ideal) ((c : Thread nD τ).loc b)) (c : Dev nD),
    (dat0 (F := Ideal) V c).arrAt 5 cfg0.N = Cert.Spec.mlpN (V c (Pipeline.arrRef spec0 0)) (V c (Pipeline.arrRef spec0 1)) (V c (Pipeline.arrRef spec0 2)) (V c (Pipeline.arrRef spec0 3)) (V c (Pipeline.arrRef spec0 4))
  edgeInv : ∀ (V : (c : Dev nD) → (b : Ref sig .tc) → Buf (Elt Ideal) ((c : Thread nD τ).loc b)) (c : Dev nD),
    (dat1 (F := Ideal) V c).arrAt 15 cfg1.N = Cert.Spec.invE (V c (Pipeline.arrRef spec1 0)) (V c (Pipeline.arrRef spec1 1)) (V c (Pipeline.arrRef spec1 2)) (V c (Pipeline.arrRef spec1 3)) (V c (Pipeline.arrRef spec1 4))
  edgeEq1 : ∀ (V : (c : Dev nD) → (b : Ref sig .tc) → Buf (Elt Ideal) ((c : Thread nD τ).loc b)) (c : Dev nD),
    shapeCast Cert.ReferenceIdeal.S200000x3x128 ((dat1 (F := Ideal) V c).arrAt 16 cfg1.N) shapeCasts_S200000x384_S200000x3x128
      = Cert.Spec.eq1E (Cert.Spec.mlpE (Cert.Spec.invE (V c (Pipeline.arrRef spec1 0)) (V c (Pipeline.arrRef spec1 1)) (V c (Pipeline.arrRef spec1 2)) (V c (Pipeline.arrRef spec1 3)) (V c (Pipeline.arrRef spec1 4)))
          (V c (Pipeline.arrRef spec1 5)) (V c (Pipeline.arrRef spec1 6)) (V c (Pipeline.arrRef spec1 7)) (V c (Pipeline.arrRef spec1 8))) (V c (Pipeline.arrRef spec1 9))
  edgeEq2 : ∀ (V : (c : Dev nD) → (b : Ref sig .tc) → Buf (Elt Ideal) ((c : Thread nD τ).loc b)) (c : Dev nD) (y : Cert.Spec.AE3),
    V c (Pipeline.arrRef spec1 14) = shapeCast S200000x384 y shapeCasts_S200000x3x128_S200000x384 →
    shapeCast Cert.ReferenceIdeal.S200000x3x128 ((dat1 (F := Ideal) V c).arrAt 17 cfg1.N) shapeCasts_S200000x384_S200000x3x128
      = mulf (Cert.Spec.stretchE (Cert.Spec.mlpE (Cert.Spec.invE (V c (Pipeline.arrRef spec1 0)) (V c (Pipeline.arrRef spec1 1)) (V c (Pipeline.arrRef spec1 2)) (V c (Pipeline.arrRef spec1 3)) (V c (Pipeline.arrRef spec1 4)))
          (V c (Pipeline.arrRef spec1 10)) (V c (Pipeline.arrRef spec1 11)) (V c (Pipeline.arrRef spec1 12)) (V c (Pipeline.arrRef spec1 13)))) y
  gate : ∀ (V : (c : Dev nD) → (b : Ref sig .tc) → Buf (Elt Ideal) ((c : Thread nD τ).loc b)) (c : Dev nD),
    (dat2 (F := Ideal) V c).arrAt 3 cfg2.N = Cert.Spec.mlpnbN (V c (Pipeline.arrRef spec2 0)) (V c (Pipeline.arrRef spec2 1)) (V c (Pipeline.arrRef spec2 2))
  merge : ∀ (V : (c : Dev nD) → (b : Ref sig .tc) → Buf (Elt Ideal) ((c : Thread nD τ).loc b)) (c : Dev nD) (u w : Cert.Spec.AE3),
    V c (Pipeline.arrRef spec3 0) = shapeCast S200000x384 u shapeCasts_S200000x3x128_S200000x384 → V c (Pipeline.arrRef spec3 2) = shapeCast S200000x384 w shapeCasts_S200000x3x128_S200000x384 →
    shapeCast Cert.ReferenceIdeal.S200000x3x128 ((dat3 (F := Ideal) V c).arrAt 3 cfg3.N) shapeCasts_S200000x384_S200000x3x128
      = addf u (mulf (Cert.Spec.stretchE (V c (Pipeline.arrRef spec3 1))) w)
  norm : ∀ (V : (c : Dev nD) → (b : Ref sig .tc) → Buf (Elt Ideal) ((c : Thread nD τ).loc b)) (c : Dev nD) (f d : Cert.Spec.AN3),
    V c (Pipeline.arrRef spec4 1) = shapeCast S10000x384 f shapeCasts_S10000x3x128_S10000x384 →
    V c (Pipeline.arrRef spec4 2) = shapeCast S10000x384 d shapeCasts_S10000x3x128_S10000x384 →
    (dat4 (F := Ideal) V c).arrAt 9 cfg4.N = Cert.Spec.lnN (V c (Pipeline.arrRef spec4 0)) f d (V c (Pipeline.arrRef spec4 3)) (V c (Pipeline.arrRef spec4 4)) (V c (Pipeline.arrRef spec4 5)) (V c (Pipeline.arrRef spec4 6)) (V c (Pipeline.arrRef spec4 7)) (V c (Pipeline.arrRef spec4 8))

variable (Λ : Launches)

/-! ## The chain, boundary by boundary -/

/-! ### After the first stretch: the two rows of the edge index -/
theorem tr_arg0_1_0 : W1 m ρ c (Proc.devRef .tc main_arg0) = W0 m ρ c (Proc.devRef .tc main_arg0) :=
  calc W1 m ρ c (Proc.devRef .tc main_arg0)
    _ = W0 m ρ c (Proc.devRef .tc main_arg0) := keep0 (W0 m ρ c) main_arg0 (by decide)
theorem tr_arg6_1_0 : W1 m ρ c (Proc.devRef .tc main_arg6) = W0 m ρ c (Proc.devRef .tc main_arg6) :=
  calc W1 m ρ c (Proc.devRef .tc main_arg6)
    _ = W0 m ρ c (Proc.devRef .tc main_arg6) := keep0 (W0 m ρ c) main_arg6 (by decide)
theorem tr_arg7_1_0 : W1 m ρ c (Proc.devRef .tc main_arg7) = W0 m ρ c (Proc.devRef .tc main_arg7) :=
  calc W1 m ρ c (Proc.devRef .tc main_arg7)
    _ = W0 m ρ c (Proc.devRef .tc main_arg7) := keep0 (W0 m ρ c) main_arg7 (by decide)
theorem tr_arg8_1_0 : W1 m ρ c (Proc.devRef .tc main_arg8) = W0 m ρ c (Proc.devRef .tc main_arg8) :=
  calc W1 m ρ c (Proc.devRef .tc main_arg8)
    _ = W0 m ρ c (Proc.devRef .tc main_arg8) := keep0 (W0 m ρ c) main_arg8 (by decide)
theorem tr_arg9_1_0 : W1 m ρ c (Proc.devRef .tc main_arg9) = W0 m ρ c (Proc.devRef .tc main_arg9) :=
  calc W1 m ρ c (Proc.devRef .tc main_arg9)
    _ = W0 m ρ c (Proc.devRef .tc main_arg9) := keep0 (W0 m ρ c) main_arg9 (by decide)
set_option maxHeartbeats 8000000 in
theorem W1_v1 : W1 m ρ c (Proc.devRef .tc main_v1) = Cert.Spec.src (args m c) := by
  show StableHlo.after hostOps0 (W0 m ρ c) (Proc.devRef .tc main_v1) = _
  after_results
  rfl
set_option maxHeartbeats 8000000 in
theorem W1_v3 : W1 m ρ c (Proc.devRef .tc main_v3) = Cert.Spec.dst (args m c) := by
  show StableHlo.after hostOps0 (W0 m ρ c) (Proc.devRef .tc main_v3) = _
  after_results
  rfl

/-! ### After the first launch: the node part H -/
include Λ in
set_option maxHeartbeats 8000000 in
theorem W2_v4 : W2 m ρ c (Proc.devRef .tc main_v4) = Cert.Spec.H (args m c) :=
  ((W2_arr m ρ c 5).trans (Λ.node (V1 m ρ) c)).trans (by
    show Cert.Spec.mlpN (W1 m ρ c (Proc.devRef .tc main_arg0)) (W1 m ρ c (Proc.devRef .tc main_arg6)) (W1 m ρ c (Proc.devRef .tc main_arg7)) (W1 m ρ c (Proc.devRef .tc main_arg8)) (W1 m ρ c (Proc.devRef .tc main_arg9)) = _
    rw [tr_arg0_1_0, tr_arg6_1_0, tr_arg7_1_0, tr_arg8_1_0, tr_arg9_1_0]
    rfl)
theorem tr_v1_2_1 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)
theorem tr_v3_2_1 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)
theorem tr_arg2_2_0 : W2 m ρ c (Proc.devRef .tc main_arg2) = W0 m ρ c (Proc.devRef .tc main_arg2) :=
  calc W2 m ρ c (Proc.devRef .tc main_arg2)
    _ = W1 m ρ c (Proc.devRef .tc main_arg2) := W2_of_ne m ρ c main_arg2 (by decide)
    _ = W0 m ρ c (Proc.devRef .tc main_arg2) := keep0 (W0 m ρ c) main_arg2 (by decide)
theorem W2_v1 : W2 m ρ c (Proc.devRef .tc main_v1) = Cert.Spec.src (args m c) := (tr_v1_2_1 m ρ c).trans (W1_v1 m ρ c)
theorem W2_v3 : W2 m ρ c (Proc.devRef .tc main_v3) = Cert.Spec.dst (args m c) := (tr_v3_2_1 m ρ c).trans (W1_v3 m ρ c)

/-! ### After the second stretch: H gathered at both endpoints, the displacement rows gathered at the targets -/
include Λ in
set_option maxHeartbeats 8000000 in
theorem W3_v11 : W3 m ρ c (Proc.devRef .tc main_v11) = Cert.Spec.rowsAt (Cert.Spec.H (args m c)) (Cert.Spec.wrapCol (Cert.Spec.src (args m c))) := by
  show StableHlo.after hostOps1 (W2 m ρ c) (Proc.devRef .tc main_v11) = _
  after_results
  rw [W2_v4 m ρ c Λ, W2_v1 m ρ c]
  rfl
include Λ in
set_option maxHeartbeats 8000000 in
theorem W3_v18 : W3 m ρ c (Proc.devRef .tc main_v18) = Cert.Spec.rowsAt (Cert.Spec.H (args m c)) (Cert.Spec.wrapCol (Cert.Spec.dst (args m c))) := by
  show StableHlo.after hostOps1 (W2 m ρ c) (Proc.devRef .tc main_v18) = _
  after_results
  rw [W2_v4 m ρ c Λ, W2_v3 m ρ c]
  rfl
set_option maxHeartbeats 8000000 in
theorem W3_v26 : W3 m ρ c (Proc.devRef .tc main_v26) = shapeCast S200000x384 (Cert.Spec.rows3At (args m c).x2 (Cert.Spec.wrapCol (Cert.Spec.dst (args m c)))) shapeCasts_S200000x3x128_S200000x384 := by
  show StableHlo.after hostOps1 (W2 m ρ c) (Proc.devRef .tc main_v26) = _
  after_results
  rw [W2_v3 m ρ c, tr_arg2_2_0 m ρ c]
  rfl
theorem tr_arg4_3_0 : W3 m ρ c (Proc.devRef .tc main_arg4) = W0 m ρ c (Proc.devRef .tc main_arg4) :=
  calc W3 m ρ c (Proc.devRef .tc main_arg4)
    _ = W2 m ρ c (Proc.devRef .tc main_arg4) := keep1 (W2 m ρ c) main_arg4 (by decide)
    _ = W1 m ρ c (Proc.devRef .tc main_arg4) := W2_of_ne m ρ c main_arg4 (by decide)
    _ = W0 m ρ c (Proc.devRef .tc main_arg4) := keep0 (W0 m ρ c) main_arg4 (by decide)
theorem tr_arg10_3_0 : W3 m ρ c (Proc.devRef .tc main_arg10) = W0 m ρ c (Proc.devRef .tc main_arg10) :=
  calc W3 m ρ c (Proc.devRef .tc main_arg10)
    _ = W2 m ρ c (Proc.devRef .tc main_arg10) := keep1 (W2 m ρ c) main_arg10 (by decide)
    _ = W1 m ρ c (Proc.devRef .tc main_arg10) := W2_of_ne m ρ c main_arg10 (by decide)
    _ = W0 m ρ c (Proc.devRef .tc main_arg10) := keep0 (W0 m ρ c) main_arg10 (by decide)
theorem tr_arg11_3_0 : W3 m ρ c (Proc.devRef .tc main_arg11) = W0 m ρ c (Proc.devRef .tc main_arg11) :=
  calc W3 m ρ c (Proc.devRef .tc main_arg11)
    _ = W2 m ρ c (Proc.devRef .tc main_arg11) := keep1 (W2 m ρ c) main_arg11 (by decide)
    _ = W1 m ρ c (Proc.devRef .tc main_arg11) := W2_of_ne m ρ c main_arg11 (by decide)
    _ = W0 m ρ c (Proc.devRef .tc main_arg11) := keep0 (W0 m ρ c) main_arg11 (by decide)
theorem tr_arg12_3_0 : W3 m ρ c (Proc.devRef .tc main_arg12) = W0 m ρ c (Proc.devRef .tc main_arg12) :=
  calc W3 m ρ c (Proc.devRef .tc main_arg12)
    _ = W2 m ρ c (Proc.devRef .tc main_arg12) := keep1 (W2 m ρ c) main_arg12 (by decide)
    _ = W1 m ρ c (Proc.devRef .tc main_arg12) := W2_of_ne m ρ c main_arg12 (by decide)
    _ = W0 m ρ c (Proc.devRef .tc main_arg12) := keep0 (W0 m ρ c) main_arg12 (by decide)
theorem tr_arg13_3_0 : W3 m ρ c (Proc.devRef .tc main_arg13) = W0 m ρ c (Proc.devRef .tc main_arg13) :=
  calc W3 m ρ c (Proc.devRef .tc main_arg13)
    _ = W2 m ρ c (Proc.devRef .tc main_arg13) := keep1 (W2 m ρ c) main_arg13 (by decide)
    _ = W1 m ρ c (Proc.devRef .tc main_arg13) := W2_of_ne m ρ c main_arg13 (by decide)
    _ = W0 m ρ c (Proc.devRef .tc main_arg13) := keep0 (W0 m ρ c) main_arg13 (by decide)
theorem tr_arg14_3_0 : W3 m ρ c (Proc.devRef .tc main_arg14) = W0 m ρ c (Proc.devRef .tc main_arg14) :=
  calc W3 m ρ c (Proc.devRef .tc main_arg14)
    _ = W2 m ρ c (Proc.devRef .tc main_arg14) := keep1 (W2 m ρ c) main_arg14 (by decide)
    _ = W1 m ρ c (Proc.devRef .tc main_arg14) := W2_of_ne m ρ c main_arg14 (by decide)
    _ = W0 m ρ c (Proc.devRef .tc main_arg14) := keep0 (W0 m ρ c) main_arg14 (by decide)
theorem tr_arg15_3_0 : W3 m ρ c (Proc.devRef .tc main_arg15) = W0 m ρ c (Proc.devRef .tc main_arg15) :=
  calc W3 m ρ c (Proc.devRef .tc main_arg15)
    _ = W2 m ρ c (Proc.devRef .tc main_arg15) := keep1 (W2 m ρ c) main_arg15 (by decide)
    _ = W1 m ρ c (Proc.devRef .tc main_arg15) := W2_of_ne m ρ c main_arg15 (by decide)
    _ = W0 m ρ c (Proc.devRef .tc main_arg15) := keep0 (W0 m ρ c) main_arg15 (by decide)
theorem tr_arg3_3_0 : W3 m ρ c (Proc.devRef .tc main_arg3) = W0 m ρ c (Proc.devRef .tc main_arg3) :=
  calc W3 m ρ c (Proc.devRef .tc main_arg3)
    _ = W2 m ρ c (Proc.devRef .tc main_arg3) := keep1 (W2 m ρ c) main_arg3 (by decide)
    _ = W1 m ρ c (Proc.devRef .tc main_arg3) := W2_of_ne m ρ c main_arg3 (by decide)
    _ = W0 m ρ c (Proc.devRef .tc main_arg3) := keep0 (W0 m ρ c) main_arg3 (by decide)
theorem tr_arg16_3_0 : W3 m ρ c (Proc.devRef .tc main_arg16) = W0 m ρ c (Proc.devRef .tc main_arg16) :=
  calc W3 m ρ c (Proc.devRef .tc main_arg16)
    _ = W2 m ρ c (Proc.devRef .tc main_arg16) := keep1 (W2 m ρ c) main_arg16 (by decide)
    _ = W1 m ρ c (Proc.devRef .tc main_arg16) := W2_of_ne m ρ c main_arg16 (by decide)
    _ = W0 m ρ c (Proc.devRef .tc main_arg16) := keep0 (W0 m ρ c) main_arg16 (by decide)
theorem tr_arg17_3_0 : W3 m ρ c (Proc.devRef .tc main_arg17) = W0 m ρ c (Proc.devRef .tc main_arg17) :=
  calc W3 m ρ c (Proc.devRef .tc main_arg17)
    _ = W2 m ρ c (Proc.devRef .tc main_arg17) := keep1 (W2 m ρ c) main_arg17 (by decide)
    _ = W1 m ρ c (Proc.devRef .tc main_arg17) := W2_of_ne m ρ c main_arg17 (by decide)
    _ = W0 m ρ c (Proc.devRef .tc main_arg17) := keep0 (W0 m ρ c) main_arg17 (by decide)
theorem tr_arg18_3_0 : W3 m ρ c (Proc.devRef .tc main_arg18) = W0 m ρ c (Proc.devRef .tc main_arg18) :=
  calc W3 m ρ c (Proc.devRef .tc main_arg18)
    _ = W2 m ρ c (Proc.devRef .tc main_arg18) := keep1 (W2 m ρ c) main_arg18 (by decide)
    _ = W1 m ρ c (Proc.devRef .tc main_arg18) := W2_of_ne m ρ c main_arg18 (by decide)
    _ = W0 m ρ c (Proc.devRef .tc main_arg18) := keep0 (W0 m ρ c) main_arg18 (by decide)
theorem tr_arg19_3_0 : W3 m ρ c (Proc.devRef .tc main_arg19) = W0 m ρ c (Proc.devRef .tc main_arg19) :=
  calc W3 m ρ c (Proc.devRef .tc main_arg19)
    _ = W2 m ρ c (Proc.devRef .tc main_arg19) := keep1 (W2 m ρ c) main_arg19 (by decide)
    _ = W1 m ρ c (Proc.devRef .tc main_arg19) := W2_of_ne m ρ c main_arg19 (by decide)
    _ = W0 m ρ c (Proc.devRef .tc main_arg19) := keep0 (W0 m ρ c) main_arg19 (by decide)

/-! ### After the second launch: the invariant message and the two equivariant messages -/
include Λ in
set_option maxHeartbeats 8000000 in
theorem W4_v27_0 : W4 m ρ c (Proc.devRef .tc main_v27_0) = Cert.Spec.INV (args m c) :=
  ((W4_arr m ρ c 15).trans (Λ.edgeInv (V3 m ρ) c)).trans (by
    show Cert.Spec.invE (W3 m ρ c (Proc.devRef .tc main_arg4)) (W3 m ρ c (Proc.devRef .tc main_arg10)) (W3 m ρ c (Proc.devRef .tc main_arg11)) (W3 m ρ c (Proc.devRef .tc main_v11)) (W3 m ρ c (Proc.devRef .tc main_v18)) = _
    rw [tr_arg4_3_0, tr_arg10_3_0, tr_arg11_3_0, W3_v11 m ρ c Λ, W3_v18 m ρ c Λ]
    rfl)
include Λ in
set_option maxHeartbeats 8000000 in
theorem W4_v27_1 : shapeCast Cert.ReferenceIdeal.S200000x3x128 (W4 m ρ c (Proc.devRef .tc main_v27_1)) shapeCasts_S200000x384_S200000x3x128 = Cert.Spec.EQ1 (args m c) :=
  ((congrArg (fun x => shapeCast Cert.ReferenceIdeal.S200000x3x128 x shapeCasts_S200000x384_S200000x3x128) (W4_arr m ρ c 16)).trans (Λ.edgeEq1 (V3 m ρ) c)).trans (by
    show Cert.Spec.eq1E (Cert.Spec.mlpE (Cert.Spec.invE (W3 m ρ c (Proc.devRef .tc main_arg4)) (W3 m ρ c (Proc.devRef .tc main_arg10)) (W3 m ρ c (Proc.devRef .tc main_arg11)) (W3 m ρ c (Proc.devRef .tc main_v11)) (W3 m ρ c (Proc.devRef .tc main_v18))) (W3 m ρ c (Proc.devRef .tc main_arg12)) (W3 m ρ c (Proc.devRef .tc main_arg13)) (W3 m ρ c (Proc.devRef .tc main_arg14)) (W3 m ρ c (Proc.devRef .tc main_arg15))) (W3 m ρ c (Proc.devRef .tc main_arg3)) = _
    rw [tr_arg4_3_0, tr_arg10_3_0, tr_arg11_3_0, W3_v11 m ρ c Λ, W3_v18 m ρ c Λ, tr_arg12_3_0, tr_arg13_3_0, tr_arg14_3_0, tr_arg15_3_0, tr_arg3_3_0]
    rfl)
include Λ in
set_option maxHeartbeats 8000000 in
theorem W4_v27_2 : shapeCast Cert.ReferenceIdeal.S200000x3x128 (W4 m ρ c (Proc.devRef .tc main_v27_2)) shapeCasts_S200000x384_S200000x3x128 = Cert.Spec.EQ2 (args m c) :=
  ((congrArg (fun x => shapeCast Cert.ReferenceIdeal.S200000x3x128 x shapeCasts_S200000x384_S200000x3x128) (W4_arr m ρ c 17)).trans
    (Λ.edgeEq2 (V3 m ρ) c (Cert.Spec.rows3At (args m c).x2 (Cert.Spec.wrapCol (Cert.Spec.dst (args m c)))) (W3_v26 m ρ c))).trans (by
    show mulf (Cert.Spec.stretchE (Cert.Spec.mlpE (Cert.Spec.invE (W3 m ρ c (Proc.devRef .tc main_arg4)) (W3 m ρ c (Proc.devRef .tc main_arg10)) (W3 m ρ c (Proc.devRef .tc main_arg11)) (W3 m ρ c (Proc.devRef .tc main_v11)) (W3 m ρ c (Proc.devRef .tc main_v18))) (W3 m ρ c (Proc.devRef .tc main_arg16)) (W3 m ρ c (Proc.devRef .tc main_arg17)) (W3 m ρ c (Proc.devRef .tc main_arg18)) (W3 m ρ c (Proc.devRef .tc main_arg19)))) _ = _
    rw [tr_arg4_3_0, tr_arg10_3_0, tr_arg11_3_0, W3_v11 m ρ c Λ, W3_v18 m ρ c Λ, tr_arg16_3_0, tr_arg17_3_0, tr_arg18_3_0, tr_arg19_3_0]
    rfl)
theorem tr_v1_4_1 : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := keep1 (W2 m ρ c) main_v1 (by decide)
    _ = W1 m ρ c (Proc.devRef .tc main_v1) := W2_of_ne m ρ c main_v1 (by decide)
theorem tr_arg0_4_0 : W4 m ρ c (Proc.devRef .tc main_arg0) = W0 m ρ c (Proc.devRef .tc main_arg0) :=
  calc W4 m ρ c (Proc.devRef .tc main_arg0)
    _ = W3 m ρ c (Proc.devRef .tc main_arg0) := W4_of_ne m ρ c main_arg0 (by decide)
    _ = W2 m ρ c (Proc.devRef .tc main_arg0) := keep1 (W2 m ρ c) main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := keep0 (W0 m ρ c) main_arg0 (by decide)
theorem tr_arg1_4_0 : W4 m ρ c (Proc.devRef .tc main_arg1) = W0 m ρ c (Proc.devRef .tc main_arg1) :=
  calc W4 m ρ c (Proc.devRef .tc main_arg1)
    _ = W3 m ρ c (Proc.devRef .tc main_arg1) := W4_of_ne m ρ c main_arg1 (by decide)
    _ = W2 m ρ c (Proc.devRef .tc main_arg1) := keep1 (W2 m ρ c) main_arg1 (by decide)
    _ = W1 m ρ c (Proc.devRef .tc main_arg1) := W2_of_ne m ρ c main_arg1 (by decide)
    _ = W0 m ρ c (Proc.devRef .tc main_arg1) := keep0 (W0 m ρ c) main_arg1 (by decide)
theorem W4_v1 : W4 m ρ c (Proc.devRef .tc main_v1) = Cert.Spec.src (args m c) := (tr_v1_4_1 m ρ c).trans (W1_v1 m ρ c)

/-! ### After the third stretch: the updated atoms, the aggregated first message, the updated forces -/
include Λ in
set_option maxHeartbeats 8000000 in
theorem W5_v31 : W5 m ρ c (Proc.devRef .tc main_v31) = Cert.Spec.ATOM1 (args m c) := by
  show StableHlo.after hostOps2 (W4 m ρ c) (Proc.devRef .tc main_v31) = _
  after_results
  rw [W4_v27_0 m ρ c Λ, W4_v1 m ρ c, tr_arg0_4_0 m ρ c]
  rfl
include Λ in
set_option maxHeartbeats 8000000 in
theorem W5_v35 : W5 m ρ c (Proc.devRef .tc main_v35) = Cert.Spec.AGG1 (args m c) := by
  show StableHlo.after hostOps2 (W4 m ρ c) (Proc.devRef .tc main_v35) = _
  after_results
  rw [W4_v1 m ρ c]
  exact congrArg (fun u => Host.scatterAdd (F := Ideal) scatter_S10000x3x128_S200000x1_S200000x3x128_12_0_0_1 _ (Cert.Spec.rawCol (Cert.Spec.src (args m c))) u) (W4_v27_1 m ρ c Λ)
include Λ in
set_option maxHeartbeats 8000000 in
theorem W5_v36 : W5 m ρ c (Proc.devRef .tc main_v36) = Cert.Spec.FORCE1 (args m c) := by
  show StableHlo.after hostOps2 (W4 m ρ c) (Proc.devRef .tc main_v36) = _
  after_results
  rw [W4_v1 m ρ c, tr_arg1_4_0 m ρ c]
  exact congrArg (fun u => addf (args m c).x1 (Host.scatterAdd (F := Ideal) scatter_S10000x3x128_S200000x1_S200000x3x128_12_0_0_1 _ (Cert.Spec.rawCol (Cert.Spec.src (args m c))) u)) (W4_v27_1 m ρ c Λ)
theorem tr_arg20_5_0 : W5 m ρ c (Proc.devRef .tc main_arg20) = W0 m ρ c (Proc.devRef .tc main_arg20) :=
  calc W5 m ρ c (Proc.devRef .tc main_arg20)
    _ = W4 m ρ c (Proc.devRef .tc main_arg20) := keep2 (W4 m ρ c) main_arg20 (by decide)
    _ = W3 m ρ c (Proc.devRef .tc main_arg20) := W4_of_ne m ρ c main_arg20 (by decide)
    _ = W2 m ρ c (Proc.devRef .tc main_arg20) := keep1 (W2 m ρ c) main_arg20 (by decide)
    _ = W1 m ρ c (Proc.devRef .tc main_arg20) := W2_of_ne m ρ c main_arg20 (by decide)
    _ = W0 m ρ c (Proc.devRef .tc main_arg20) := keep0 (W0 m ρ c) main_arg20 (by decide)
theorem tr_arg21_5_0 : W5 m ρ c (Proc.devRef .tc main_arg21) = W0 m ρ c (Proc.devRef .tc main_arg21) :=
  calc W5 m ρ c (Proc.devRef .tc main_arg21)
    _ = W4 m ρ c (Proc.devRef .tc main_arg21) := keep2 (W4 m ρ c) main_arg21 (by decide)
    _ = W3 m ρ c (Proc.devRef .tc main_arg21) := W4_of_ne m ρ c main_arg21 (by decide)
    _ = W2 m ρ c (Proc.devRef .tc main_arg21) := keep1 (W2 m ρ c) main_arg21 (by decide)
    _ = W1 m ρ c (Proc.devRef .tc main_arg21) := W2_of_ne m ρ c main_arg21 (by decide)
    _ = W0 m ρ c (Proc.devRef .tc main_arg21) := keep0 (W0 m ρ c) main_arg21 (by decide)

/-! ### After the third launch: the invariant gate -/
include Λ in
set_option maxHeartbeats 8000000 in
theorem W6_v37 : W6 m ρ c (Proc.devRef .tc main_v37) = Cert.Spec.EINV (args m c) :=
  ((W6_arr m ρ c 3).trans (Λ.gate (V5 m ρ) c)).trans (by
    show Cert.Spec.mlpnbN (W5 m ρ c (Proc.devRef .tc main_v31)) (W5 m ρ c (Proc.devRef .tc main_arg20)) (W5 m ρ c (Proc.devRef .tc main_arg21)) = _
    rw [W5_v31 m ρ c Λ, tr_arg20_5_0, tr_arg21_5_0]
    rfl)
theorem tr_v3_6_1 : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := keep2 (W4 m ρ c) main_v3 (by decide)
    _ = W3 m ρ c (Proc.devRef .tc main_v3) := W4_of_ne m ρ c main_v3 (by decide)
    _ = W2 m ρ c (Proc.devRef .tc main_v3) := keep1 (W2 m ρ c) main_v3 (by decide)
    _ = W1 m ρ c (Proc.devRef .tc main_v3) := W2_of_ne m ρ c main_v3 (by decide)
theorem tr_v35_6_5 : W6 m ρ c (Proc.devRef .tc main_v35) = W5 m ρ c (Proc.devRef .tc main_v35) :=
  calc W6 m ρ c (Proc.devRef .tc main_v35)
    _ = W5 m ρ c (Proc.devRef .tc main_v35) := W6_of_ne m ρ c main_v35 (by decide)
theorem W6_v3 : W6 m ρ c (Proc.devRef .tc main_v3) = Cert.Spec.dst (args m c) := (tr_v3_6_1 m ρ c).trans (W1_v3 m ρ c)

/-! ### After the fourth stretch: the gate and the aggregate gathered at the targets -/
include Λ in
set_option maxHeartbeats 8000000 in
theorem W7_v44 : W7 m ρ c (Proc.devRef .tc main_v44) = Cert.Spec.rowsAt (Cert.Spec.EINV (args m c)) (Cert.Spec.wrapCol (Cert.Spec.dst (args m c))) := by
  show StableHlo.after hostOps3 (W6 m ρ c) (Proc.devRef .tc main_v44) = _
  after_results
  rw [W6_v37 m ρ c Λ, W6_v3 m ρ c]
  rfl
include Λ in
set_option maxHeartbeats 8000000 in
theorem W7_v52 : W7 m ρ c (Proc.devRef .tc main_v52) = shapeCast S200000x384 (Cert.Spec.rows3At (Cert.Spec.AGG1 (args m c)) (Cert.Spec.wrapCol (Cert.Spec.dst (args m c)))) shapeCasts_S200000x3x128_S200000x384 := by
  show StableHlo.after hostOps3 (W6 m ρ c) (Proc.devRef .tc main_v52) = _
  after_results
  rw [W6_v3 m ρ c, tr_v35_6_5 m ρ c, W5_v35 m ρ c Λ]
  rfl
theorem tr_v27_2_7_4 : W7 m ρ c (Proc.devRef .tc main_v27_2) = W4 m ρ c (Proc.devRef .tc main_v27_2) :=
  calc W7 m ρ c (Proc.devRef .tc main_v27_2)
    _ = W6 m ρ c (Proc.devRef .tc main_v27_2) := keep3 (W6 m ρ c) main_v27_2 (by decide)
    _ = W5 m ρ c (Proc.devRef .tc main_v27_2) := W6_of_ne m ρ c main_v27_2 (by decide)
    _ = W4 m ρ c (Proc.devRef .tc main_v27_2) := keep2 (W4 m ρ c) main_v27_2 (by decide)
include Λ in
theorem W7_v27_2 : W7 m ρ c (Proc.devRef .tc main_v27_2) = shapeCast S200000x384 (Cert.Spec.EQ2 (args m c)) shapeCasts_S200000x3x128_S200000x384 := by
  rw [tr_v27_2_7_4 m ρ c, ← W4_v27_2 m ρ c Λ]
  exact (shapeCast_shapeCast _ shapeCasts_S200000x384_S200000x3x128 shapeCasts_S200000x3x128_S200000x384).symm

/-! ### After the fourth launch: the merged second and third messages -/
include Λ in
set_option maxHeartbeats 8000000 in
theorem W8_v53 : shapeCast Cert.ReferenceIdeal.S200000x3x128 (W8 m ρ c (Proc.devRef .tc main_v53)) shapeCasts_S200000x384_S200000x3x128 = addf (Cert.Spec.EQ2 (args m c)) (Cert.Spec.EQ3 (args m c)) :=
  ((congrArg (fun x => shapeCast Cert.ReferenceIdeal.S200000x3x128 x shapeCasts_S200000x384_S200000x3x128) (W8_arr m ρ c 3)).trans
    (Λ.merge (V7 m ρ) c (Cert.Spec.EQ2 (args m c)) (Cert.Spec.rows3At (Cert.Spec.AGG1 (args m c)) (Cert.Spec.wrapCol (Cert.Spec.dst (args m c)))) (W7_v27_2 m ρ c Λ) (W7_v52 m ρ c Λ))).trans (by
    show addf _ (mulf (Cert.Spec.stretchE (W7 m ρ c (Proc.devRef .tc main_v44))) _) = _
    rw [W7_v44 m ρ c Λ]
    rfl)
theorem tr_v1_8_1 : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := keep3 (W6 m ρ c) main_v1 (by decide)
    _ = W5 m ρ c (Proc.devRef .tc main_v1) := W6_of_ne m ρ c main_v1 (by decide)
    _ = W4 m ρ c (Proc.devRef .tc main_v1) := keep2 (W4 m ρ c) main_v1 (by decide)
    _ = W3 m ρ c (Proc.devRef .tc main_v1) := W4_of_ne m ρ c main_v1 (by decide)
    _ = W2 m ρ c (Proc.devRef .tc main_v1) := keep1 (W2 m ρ c) main_v1 (by decide)
    _ = W1 m ρ c (Proc.devRef .tc main_v1) := W2_of_ne m ρ c main_v1 (by decide)
theorem tr_arg2_8_0 : W8 m ρ c (Proc.devRef .tc main_arg2) = W0 m ρ c (Proc.devRef .tc main_arg2) :=
  calc W8 m ρ c (Proc.devRef .tc main_arg2)
    _ = W7 m ρ c (Proc.devRef .tc main_arg2) := W8_of_ne m ρ c main_arg2 (by decide)
    _ = W6 m ρ c (Proc.devRef .tc main_arg2) := keep3 (W6 m ρ c) main_arg2 (by decide)
    _ = W5 m ρ c (Proc.devRef .tc main_arg2) := W6_of_ne m ρ c main_arg2 (by decide)
    _ = W4 m ρ c (Proc.devRef .tc main_arg2) := keep2 (W4 m ρ c) main_arg2 (by decide)
    _ = W3 m ρ c (Proc.devRef .tc main_arg2) := W4_of_ne m ρ c main_arg2 (by decide)
    _ = W2 m ρ c (Proc.devRef .tc main_arg2) := keep1 (W2 m ρ c) main_arg2 (by decide)
    _ = W1 m ρ c (Proc.devRef .tc main_arg2) := W2_of_ne m ρ c main_arg2 (by decide)
    _ = W0 m ρ c (Proc.devRef .tc main_arg2) := keep0 (W0 m ρ c) main_arg2 (by decide)
theorem tr_v36_8_5 : W8 m ρ c (Proc.devRef .tc main_v36) = W5 m ρ c (Proc.devRef .tc main_v36) :=
  calc W8 m ρ c (Proc.devRef .tc main_v36)
    _ = W7 m ρ c (Proc.devRef .tc main_v36) := W8_of_ne m ρ c main_v36 (by decide)
    _ = W6 m ρ c (Proc.devRef .tc main_v36) := keep3 (W6 m ρ c) main_v36 (by decide)
    _ = W5 m ρ c (Proc.devRef .tc main_v36) := W6_of_ne m ρ c main_v36 (by decide)
theorem W8_v1 : W8 m ρ c (Proc.devRef .tc main_v1) = Cert.Spec.src (args m c) := (tr_v1_8_1 m ρ c).trans (W1_v1 m ρ c)

/-! ### After the last stretch: the updated displacements, and both triple arrays flattened for the last launch -/
include Λ in
set_option maxHeartbeats 8000000 in
theorem W9_v58 : W9 m ρ c (Proc.devRef .tc main_v58) = Cert.Spec.DISP1' (args m c) := by
  show StableHlo.after hostOps4 (W8 m ρ c) (Proc.devRef .tc main_v58) = _
  after_results
  rw [W8_v1 m ρ c, tr_arg2_8_0 m ρ c]
  exact congrArg (fun u => addf (args m c).x2 (Host.scatterAdd (F := Ideal) scatter_S10000x3x128_S200000x1_S200000x3x128_12_0_0_1 _ (Cert.Spec.rawCol (Cert.Spec.src (args m c))) u)) (W8_v53 m ρ c Λ)
include Λ in
set_option maxHeartbeats 8000000 in
theorem W9_v59 : W9 m ρ c (Proc.devRef .tc main_v59) = shapeCast S10000x384 (Cert.Spec.FORCE1 (args m c)) shapeCasts_S10000x3x128_S10000x384 := by
  show StableHlo.after hostOps4 (W8 m ρ c) (Proc.devRef .tc main_v59) = _
  after_results
  rw [tr_v36_8_5 m ρ c, W5_v36 m ρ c Λ]
  rfl
include Λ in
set_option maxHeartbeats 8000000 in
theorem W9_v60 : W9 m ρ c (Proc.devRef .tc main_v60) = shapeCast S10000x384 (Cert.Spec.DISP1' (args m c)) shapeCasts_S10000x3x128_S10000x384 := by
  have h := W9_v58 m ρ c Λ
  show StableHlo.after hostOps4 (W8 m ρ c) (Proc.devRef .tc main_v60) = _
  after_results
  exact congrArg (fun u => shapeCast S10000x384 u shapeCasts_S10000x3x128_S10000x384) (by
    rw [← h]
    show _ = StableHlo.after hostOps4 (W8 m ρ c) (Proc.devRef .tc main_v58)
    after_results)
theorem tr_v31_9_5 : W9 m ρ c (Proc.devRef .tc main_v31) = W5 m ρ c (Proc.devRef .tc main_v31) :=
  calc W9 m ρ c (Proc.devRef .tc main_v31)
    _ = W8 m ρ c (Proc.devRef .tc main_v31) := keep4 (W8 m ρ c) main_v31 (by decide)
    _ = W7 m ρ c (Proc.devRef .tc main_v31) := W8_of_ne m ρ c main_v31 (by decide)
    _ = W6 m ρ c (Proc.devRef .tc main_v31) := keep3 (W6 m ρ c) main_v31 (by decide)
    _ = W5 m ρ c (Proc.devRef .tc main_v31) := (W6_arr m ρ c 0).trans (((dat2 (V5 m ρ) c).arrAt_in 0 rfl _).trans (A_eq2 (V5 m ρ) c 0))
theorem tr_arg22_9_0 : W9 m ρ c (Proc.devRef .tc main_arg22) = W0 m ρ c (Proc.devRef .tc main_arg22) :=
  calc W9 m ρ c (Proc.devRef .tc main_arg22)
    _ = W8 m ρ c (Proc.devRef .tc main_arg22) := keep4 (W8 m ρ c) main_arg22 (by decide)
    _ = W7 m ρ c (Proc.devRef .tc main_arg22) := W8_of_ne m ρ c main_arg22 (by decide)
    _ = W6 m ρ c (Proc.devRef .tc main_arg22) := keep3 (W6 m ρ c) main_arg22 (by decide)
    _ = W5 m ρ c (Proc.devRef .tc main_arg22) := W6_of_ne m ρ c main_arg22 (by decide)
    _ = W4 m ρ c (Proc.devRef .tc main_arg22) := keep2 (W4 m ρ c) main_arg22 (by decide)
    _ = W3 m ρ c (Proc.devRef .tc main_arg22) := W4_of_ne m ρ c main_arg22 (by decide)
    _ = W2 m ρ c (Proc.devRef .tc main_arg22) := keep1 (W2 m ρ c) main_arg22 (by decide)
    _ = W1 m ρ c (Proc.devRef .tc main_arg22) := W2_of_ne m ρ c main_arg22 (by decide)
    _ = W0 m ρ c (Proc.devRef .tc main_arg22) := keep0 (W0 m ρ c) main_arg22 (by decide)
theorem tr_arg23_9_0 : W9 m ρ c (Proc.devRef .tc main_arg23) = W0 m ρ c (Proc.devRef .tc main_arg23) :=
  calc W9 m ρ c (Proc.devRef .tc main_arg23)
    _ = W8 m ρ c (Proc.devRef .tc main_arg23) := keep4 (W8 m ρ c) main_arg23 (by decide)
    _ = W7 m ρ c (Proc.devRef .tc main_arg23) := W8_of_ne m ρ c main_arg23 (by decide)
    _ = W6 m ρ c (Proc.devRef .tc main_arg23) := keep3 (W6 m ρ c) main_arg23 (by decide)
    _ = W5 m ρ c (Proc.devRef .tc main_arg23) := W6_of_ne m ρ c main_arg23 (by decide)
    _ = W4 m ρ c (Proc.devRef .tc main_arg23) := keep2 (W4 m ρ c) main_arg23 (by decide)
    _ = W3 m ρ c (Proc.devRef .tc main_arg23) := W4_of_ne m ρ c main_arg23 (by decide)
    _ = W2 m ρ c (Proc.devRef .tc main_arg23) := keep1 (W2 m ρ c) main_arg23 (by decide)
    _ = W1 m ρ c (Proc.devRef .tc main_arg23) := W2_of_ne m ρ c main_arg23 (by decide)
    _ = W0 m ρ c (Proc.devRef .tc main_arg23) := keep0 (W0 m ρ c) main_arg23 (by decide)
theorem tr_arg24_9_0 : W9 m ρ c (Proc.devRef .tc main_arg24) = W0 m ρ c (Proc.devRef .tc main_arg24) :=
  calc W9 m ρ c (Proc.devRef .tc main_arg24)
    _ = W8 m ρ c (Proc.devRef .tc main_arg24) := keep4 (W8 m ρ c) main_arg24 (by decide)
    _ = W7 m ρ c (Proc.devRef .tc main_arg24) := W8_of_ne m ρ c main_arg24 (by decide)
    _ = W6 m ρ c (Proc.devRef .tc main_arg24) := keep3 (W6 m ρ c) main_arg24 (by decide)
    _ = W5 m ρ c (Proc.devRef .tc main_arg24) := W6_of_ne m ρ c main_arg24 (by decide)
    _ = W4 m ρ c (Proc.devRef .tc main_arg24) := keep2 (W4 m ρ c) main_arg24 (by decide)
    _ = W3 m ρ c (Proc.devRef .tc main_arg24) := W4_of_ne m ρ c main_arg24 (by decide)
    _ = W2 m ρ c (Proc.devRef .tc main_arg24) := keep1 (W2 m ρ c) main_arg24 (by decide)
    _ = W1 m ρ c (Proc.devRef .tc main_arg24) := W2_of_ne m ρ c main_arg24 (by decide)
    _ = W0 m ρ c (Proc.devRef .tc main_arg24) := keep0 (W0 m ρ c) main_arg24 (by decide)
theorem tr_arg25_9_0 : W9 m ρ c (Proc.devRef .tc main_arg25) = W0 m ρ c (Proc.devRef .tc main_arg25) :=
  calc W9 m ρ c (Proc.devRef .tc main_arg25)
    _ = W8 m ρ c (Proc.devRef .tc main_arg25) := keep4 (W8 m ρ c) main_arg25 (by decide)
    _ = W7 m ρ c (Proc.devRef .tc main_arg25) := W8_of_ne m ρ c main_arg25 (by decide)
    _ = W6 m ρ c (Proc.devRef .tc main_arg25) := keep3 (W6 m ρ c) main_arg25 (by decide)
    _ = W5 m ρ c (Proc.devRef .tc main_arg25) := W6_of_ne m ρ c main_arg25 (by decide)
    _ = W4 m ρ c (Proc.devRef .tc main_arg25) := keep2 (W4 m ρ c) main_arg25 (by decide)
    _ = W3 m ρ c (Proc.devRef .tc main_arg25) := W4_of_ne m ρ c main_arg25 (by decide)
    _ = W2 m ρ c (Proc.devRef .tc main_arg25) := keep1 (W2 m ρ c) main_arg25 (by decide)
    _ = W1 m ρ c (Proc.devRef .tc main_arg25) := W2_of_ne m ρ c main_arg25 (by decide)
    _ = W0 m ρ c (Proc.devRef .tc main_arg25) := keep0 (W0 m ρ c) main_arg25 (by decide)
theorem tr_arg26_9_0 : W9 m ρ c (Proc.devRef .tc main_arg26) = W0 m ρ c (Proc.devRef .tc main_arg26) :=
  calc W9 m ρ c (Proc.devRef .tc main_arg26)
    _ = W8 m ρ c (Proc.devRef .tc main_arg26) := keep4 (W8 m ρ c) main_arg26 (by decide)
    _ = W7 m ρ c (Proc.devRef .tc main_arg26) := W8_of_ne m ρ c main_arg26 (by decide)
    _ = W6 m ρ c (Proc.devRef .tc main_arg26) := keep3 (W6 m ρ c) main_arg26 (by decide)
    _ = W5 m ρ c (Proc.devRef .tc main_arg26) := W6_of_ne m ρ c main_arg26 (by decide)
    _ = W4 m ρ c (Proc.devRef .tc main_arg26) := keep2 (W4 m ρ c) main_arg26 (by decide)
    _ = W3 m ρ c (Proc.devRef .tc main_arg26) := W4_of_ne m ρ c main_arg26 (by decide)
    _ = W2 m ρ c (Proc.devRef .tc main_arg26) := keep1 (W2 m ρ c) main_arg26 (by decide)
    _ = W1 m ρ c (Proc.devRef .tc main_arg26) := W2_of_ne m ρ c main_arg26 (by decide)
    _ = W0 m ρ c (Proc.devRef .tc main_arg26) := keep0 (W0 m ρ c) main_arg26 (by decide)
theorem tr_arg27_9_0 : W9 m ρ c (Proc.devRef .tc main_arg27) = W0 m ρ c (Proc.devRef .tc main_arg27) :=
  calc W9 m ρ c (Proc.devRef .tc main_arg27)
    _ = W8 m ρ c (Proc.devRef .tc main_arg27) := keep4 (W8 m ρ c) main_arg27 (by decide)
    _ = W7 m ρ c (Proc.devRef .tc main_arg27) := W8_of_ne m ρ c main_arg27 (by decide)
    _ = W6 m ρ c (Proc.devRef .tc main_arg27) := keep3 (W6 m ρ c) main_arg27 (by decide)
    _ = W5 m ρ c (Proc.devRef .tc main_arg27) := W6_of_ne m ρ c main_arg27 (by decide)
    _ = W4 m ρ c (Proc.devRef .tc main_arg27) := keep2 (W4 m ρ c) main_arg27 (by decide)
    _ = W3 m ρ c (Proc.devRef .tc main_arg27) := W4_of_ne m ρ c main_arg27 (by decide)
    _ = W2 m ρ c (Proc.devRef .tc main_arg27) := keep1 (W2 m ρ c) main_arg27 (by decide)
    _ = W1 m ρ c (Proc.devRef .tc main_arg27) := W2_of_ne m ρ c main_arg27 (by decide)
    _ = W0 m ρ c (Proc.devRef .tc main_arg27) := keep0 (W0 m ρ c) main_arg27 (by decide)

/-! ### After the last launch: the normalised atoms; the results -/
include Λ in
set_option maxHeartbeats 8000000 in
theorem W10_v61 : W10 m ρ c (Proc.devRef .tc main_v61) = Cert.Spec.OUT (args m c) :=
  ((W10_arr m ρ c 9).trans (Λ.norm (V9 m ρ) c (Cert.Spec.FORCE1 (args m c)) (Cert.Spec.DISP1' (args m c)) (W9_v59 m ρ c Λ) (W9_v60 m ρ c Λ))).trans (by
    show Cert.Spec.lnN (W9 m ρ c (Proc.devRef .tc main_v31)) _ _ (W9 m ρ c (Proc.devRef .tc main_arg22)) (W9 m ρ c (Proc.devRef .tc main_arg23)) (W9 m ρ c (Proc.devRef .tc main_arg24)) (W9 m ρ c (Proc.devRef .tc main_arg25)) (W9 m ρ c (Proc.devRef .tc main_arg26)) (W9 m ρ c (Proc.devRef .tc main_arg27)) = _
    rw [tr_v31_9_5 m ρ c, W5_v31 m ρ c Λ, tr_arg22_9_0, tr_arg23_9_0, tr_arg24_9_0, tr_arg25_9_0, tr_arg26_9_0, tr_arg27_9_0, Cert.Spec.disp1'_eq]
    rfl)
theorem tr_v36_10_5 : W10 m ρ c (Proc.devRef .tc main_v36) = W5 m ρ c (Proc.devRef .tc main_v36) :=
  calc W10 m ρ c (Proc.devRef .tc main_v36)
    _ = W9 m ρ c (Proc.devRef .tc main_v36) := W10_of_ne m ρ c main_v36 (by decide)
    _ = W8 m ρ c (Proc.devRef .tc main_v36) := keep4 (W8 m ρ c) main_v36 (by decide)
    _ = W7 m ρ c (Proc.devRef .tc main_v36) := W8_of_ne m ρ c main_v36 (by decide)
    _ = W6 m ρ c (Proc.devRef .tc main_v36) := keep3 (W6 m ρ c) main_v36 (by decide)
    _ = W5 m ρ c (Proc.devRef .tc main_v36) := W6_of_ne m ρ c main_v36 (by decide)
theorem tr_v58_10_9 : W10 m ρ c (Proc.devRef .tc main_v58) = W9 m ρ c (Proc.devRef .tc main_v58) :=
  calc W10 m ρ c (Proc.devRef .tc main_v58)
    _ = W9 m ρ c (Proc.devRef .tc main_v58) := W10_of_ne m ρ c main_v58 (by decide)
include Λ in
theorem W10_v36 : W10 m ρ c (Proc.devRef .tc main_v36) = Cert.Spec.FORCE1 (args m c) := (tr_v36_10_5 m ρ c).trans (W5_v36 m ρ c Λ)
include Λ in
theorem W10_v58 : W10 m ρ c (Proc.devRef .tc main_v58) = Cert.Spec.DISP1 (args m c) :=
  ((tr_v58_10_9 m ρ c).trans (W9_v58 m ρ c Λ)).trans (Cert.Spec.disp1'_eq (args m c))

end Cert.KernelIdeal.Hand

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibCastForms.lean ====
/-
  Columns, rows and their stretchings read at coordinates, and two ways of writing the same column or row.

  * A one-column matrix [A,1] stretched along the columns by a host `broadcast_in_dim` (dims 0,1) reads, at (a, b), its entry (a, 0);
    a one-row matrix [1,B] stretched along the rows (dims 0,1) reads, at (a, b), its entry (0, b).
  * A vector [B] placed as the one row of a [1,B] matrix by `broadcast_in_dim` (dims 1) reads, at (z, b), the vector at b.
  * A vector [A] recast as an [A,1] column IS the vector placed as a column by `broadcast_in_dim` (dims 0), as whole arrays;
    a vector [B] recast as a [1,B] row IS the vector placed as a row by `broadcast_in_dim` (dims 1), as whole arrays.
-/
import Idealize.ShloMosaic.Lib.ValueIdx
import Idealize.ShloMosaic.Lib.ValueLayout
import Idealize.ShloMosaic.Lib.Pipeline.Value

namespace Cert.LibCastForms

open Idealize.ShloMosaic Idealize.ShloMosaic.ValueIdx

variable {α : Type}

/-- A column stretched over B columns: entry (a, b) is the column's entry in row a. -/
theorem bcast_a1_ab_apply {A B : ℕ} (x : (⟨2, ![A, 1]⟩ : Shape).Idx → α)
    (h : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 a (0 : Fin 1)) := by
  refine broadcastInDim_apply _ h x _ _ fun d => ?_
  match d with
  | ⟨0, _⟩ =>
    show a.val = if A = 1 then 0 else a.val
    split
    · have := a.isLt; omega
    · rfl
  | ⟨1, _⟩ => rfl

/-- A row stretched over A rows: entry (a, b) is the row's entry in column b. -/
theorem bcast_1b_ab_apply {A B : ℕ} (x : (⟨2, ![1, B]⟩ : Shape).Idx → α)
    (h : (⟨2, ![1, B]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 (0 : Fin 1) b) := by
  refine broadcastInDim_apply _ h x _ _ fun d => ?_
  match d with
  | ⟨0, _⟩ => rfl
  | ⟨1, _⟩ =>
    show b.val = if B = 1 then 0 else b.val
    split
    · have := b.isLt; omega
    · rfl

/-- A vector placed as the one row of a matrix: entry (z, b) is the vector's entry b. -/
theorem bcast_row {B : ℕ} (x : (⟨1, ![B]⟩ : Shape).Idx → α)
    (h : (⟨1, ![B]⟩ : Shape).BroadcastsInDim ⟨2, ![1, B]⟩ (![1] : Fin 1 → Fin 2)) (z : Fin 1) (b : Fin B) :
    broadcastInDim ⟨2, ![1, B]⟩ (![1] : Fin 1 → Fin 2) h x (ix2 z b) = x (ix1 b) := by
  refine broadcastInDim_apply _ h x _ _ fun d => ?_
  match d with
  | ⟨0, _⟩ =>
    show b.val = if B = 1 then 0 else b.val
    split
    · have := b.isLt; omega
    · rfl

/-- A vector placed as the one column of a matrix: entry (a, z) is the vector's entry a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    split
    · have := a.isLt; omega
    · rfl

/-- A vector recast as a column: entry (a, z) is the vector's entry a. -/
theorem cast_col {A : ℕ} (x : (⟨1, ![A]⟩ : Shape).Idx → α) (h : (⟨1, ![A]⟩ : Shape).ShapeCasts ⟨2, ![A, 1]⟩)
    (a : Fin A) (z : Fin 1) : shapeCast ⟨2, ![A, 1]⟩ x h (ix2 a z) = x (ix1 a) := by
  refine shapeCast_apply x h _ _ ?_
  rw [Shape.rowMajor_val_one, Shape.rowMajor_val_two]
  have hz : z.val = 0 := by omega
  show a.val = a.val * 1 + z.val
  omega

/-- Recasting a vector as a column and placing it as a column are one array. -/
theorem col_cast_eq_bcast {A : ℕ} (x : (⟨1, ![A]⟩ : Shape).Idx → α) (h : (⟨1, ![A]⟩ : Shape).ShapeCasts ⟨2, ![A, 1]⟩)
    (h' : (⟨1, ![A]⟩ : Shape).BroadcastsInDim ⟨2, ![A, 1]⟩ (![0] : Fin 1 → Fin 2)) :
    shapeCast ⟨2, ![A, 1]⟩ x h = broadcastInDim ⟨2, ![A, 1]⟩ (![0] : Fin 1 → Fin 2) h' x := by
  funext j
  obtain ⟨a, z, rfl⟩ : ∃ (a : Fin A) (z : Fin 1), j = ix2 a z := ⟨j 0, j 1, eq_ix2 j⟩
  rw [cast_col, bcast_col]

/-- Recasting a vector as a row and placing it as a row are one array. -/
theorem row_cast_eq_bcast {B : ℕ} (x : (⟨1, ![B]⟩ : Shape).Idx → α) (h : (⟨1, ![B]⟩ : Shape).ShapeCasts ⟨2, ![1, B]⟩)
    (h' : (⟨1, ![B]⟩ : Shape).BroadcastsInDim ⟨2, ![1, B]⟩ (![1] : Fin 1 → Fin 2)) :
    shapeCast ⟨2, ![1, B]⟩ x h = broadcastInDim ⟨2, ![1, B]⟩ (![1] : Fin 1 → Fin 2) h' x := by
  funext j
  obtain ⟨z, b, rfl⟩ : ∃ (z : Fin 1) (b : Fin B), j = ix2 z b := ⟨j 0, j 1, eq_ix2 j⟩
  rw [shapeCast_a_1a_apply, bcast_row]

end Cert.LibCastForms
-- ==== Proof.LibRowLayers.lean ====
/-
  One dense layer of a multilayer network, read one row at a time over the extended reals.

  A dense layer sends a row `r` (of length K) to the row whose entry q is `∑ k, r k · W (k, q) + b q`: a product with a
  weight matrix and a bias added. Because entry (a, q) of `X · W + b` only looks at row a of `X`, a row block of the
  product can be computed from the same row block of `X`: this is what lets a kernel that walks over row blocks agree
  with one whole-matrix product. The layer is met in two spellings.

  * The accumulating spelling multiplies into a zero accumulator and stretches a one-row bias down the rows.
  * The host spelling uses the plain product and stretches the one-row bias by a dimension map.

  Both are read here at an entry (a, q) as `dense` of row a of the left operand. The rectifier `max · 0` is likewise met
  as a maximum with a splat of zero and as a maximum with a scalar zero stretched to the whole shape.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«115706_j13340168421980_2_alg».proof.Proof.LibColumnBlocks
import proofs.«115706_j13340168421980_2_alg».proof.Proof.LibCastForms

/-- For a literal product record `d` of two matrices: the left operand's row coordinate is the result's row coordinate. -/
macro "dot_lhs0" d:ident : tactic =>
  `(tactic| (intro j k
             unfold Idealize.ShloMosaic.DotDims.lhsIdx
             rw [dif_neg (show ¬(0 : Fin 2) ∈ ($d).lhsBatch by decide), dif_pos (show (0 : Fin 2) ∈ ($d).lhsNonContracting by decide)]
             rfl))

/-- For a literal product record `d` of two matrices: the right operand's column coordinate is the result's column coordinate. -/
macro "dot_rhs1" d:ident : tactic =>
  `(tactic| (intro j k
             unfold Idealize.ShloMosaic.DotDims.rhsIdx
             rw [dif_neg (show ¬(1 : Fin 2) ∈ ($d).rhsBatch by decide), dif_pos (show (1 : Fin 2) ∈ ($d).rhsNonContracting by decide)]
             rfl))

noncomputable section

namespace Cert.LibRowLayers

open Idealize.ShloMosaic Idealize.ShloMosaic.ValueIdx

/-- Entry q of the dense layer's image of the row `r`: `∑ k, r k · W (k, q) + b q`. -/
def dense {K H : ℕ} (r : Fin K → EReal) (W : (⟨2, ![K, H]⟩ : Shape).Idx → EReal) (b : Fin H → EReal) (q : Fin H) : EReal :=
  (∑ k : Fin K, r k * W (ix2 k q)) + b q

/-- The layer's value only depends on the row's entries. -/
theorem dense_congr {K H : ℕ} {r r' : Fin K → EReal} (W : (⟨2, ![K, H]⟩ : Shape).Idx → EReal) {b b' : Fin H → EReal} (q : Fin H)
    (hr : ∀ k, r k = r' k) (hb : b q = b' q) : dense r W b q = dense r' W b' q := by
  unfold dense
  rw [hb]
  exact congrArg (· + b' q) (Finset.sum_congr rfl fun k _ => by rw [hr k])

section Forms
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)

include hr hs hlc hrc hl0 hr1 in
/-- The accumulating spelling at (p, q): the layer applied to row p of the left operand. -/
theorem tile_dense (prec : Option ContractPrecision) (x : FVec Ideal ⟨2, ![A, K]⟩ φ₁) (w : FVec Ideal ⟨2, ![K, B]⟩ φ₂)
    (b : FVec Ideal ⟨2, ![1, B]⟩ .f32) (hb : (⟨2, ![1, B]⟩ : Shape).Broadcasts ⟨2, ![A, B]⟩) (p : Fin A) (q : Fin B) :
    addf (matmul d prec x w (constant ⟨2, ![A, B]⟩ .f32 0x00000000#32)) (broadcastTo ⟨2, ![A, B]⟩ b hb) (ix2 p q)
      = dense (fun k => x (ix2 p k)) w (fun j => b (ix2 (0 : Fin 1) j)) q := by
  rw [addf_apply, LibColumnBlocks.matmul_zero_apply d hr hs hlc hrc hl0 hr1 x w p q prec, broadcastTo_1b_ab_apply b hb p q]
  rfl

include hr hs hlc hrc hl0 hr1 in
/-- The host spelling at (a, q): the layer applied to row a of the left operand. -/
theorem host_dense (prec : Option ContractPrecision) (x : FVec Ideal ⟨2, ![A, K]⟩ .f32) (w : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2)) (a : Fin A) (q : Fin B) :
    addf (Host.dotGeneral d prec x w) (broadcastInDim ⟨2, ![A, B]⟩ (![0, 1] : Fin 2 → Fin 2) hb b) (ix2 a q)
      = dense (fun k => x (ix2 a k)) w (fun j => b (ix2 (0 : Fin 1) j)) q := by
  rw [addf_apply, LibColumnBlocks.hostDot_apply d hr hs hlc hrc hl0 hr1 x w a q prec, LibCastForms.bcast_1b_ab_apply b hb a q]
  rfl

end Forms

/-- The rectifier as a maximum with a splat of zero. -/
theorem tile_relu {s : Shape} (v : FVec Ideal s .f32) (i : s.Idx) :
    maximumf v (broadcast s (Scalar.ofBits (F := Ideal) .f32 0x00000000#32)) i = max (v i) 0 := by
  rw [maximumf_apply, broadcast_apply]
  show max _ (Ideal.ofBits .f32 0x00000000#32) = _
  rw [Ideal.ofBits_zero_f32]

/-- The rectifier as a maximum with a scalar zero stretched to the whole shape. -/
theorem host_relu {s : Shape} (v : FVec Ideal s .f32) (hz : (⟨0, ![]⟩ : Shape).BroadcastsInDim s ![]) (i : s.Idx) :
    maximumf v (broadcastInDim s ![] hz (constant (F := Ideal) ⟨0, ![]⟩ .f32 0x00000000#32)) i = max (v i) 0 := by
  rw [maximumf_apply, broadcastInDim_scalar_apply, constant_apply, Ideal.ofBits_zero_f32]

end Cert.LibRowLayers

end
-- ==== Proof.RegionNodeMlp.lean ====
/-
  The node network's region and the host's node network, as one function of the arrays.

  A block of 1000 node rows goes through two dense layers with x · 1 / (1 + e^(-x)) between them. Entry (p, q) of the
  block's result only looks at row p of the block, so it is one function `mlpRow` of that row and of the weights; the
  host's whole-array spelling at (a, q) is the same function of row a. The ten blocks tile the 10000 rows: the array the
  region leaves is the host's function of the arrays it read. The same is done for the network without biases.
-/
import proofs.«115706_j13340168421980_2_alg».proof.Proof.Gen.KernelIdeal.Frame
import proofs.«115706_j13340168421980_2_alg».proof.Proof.Spec
import proofs.«115706_j13340168421980_2_alg».proof.Proof.LibRowLayers
import Idealize.ShloMosaic.Lib.Pipeline.Value
import Idealize.ShloMosaic.Lib.IdealHost
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.HandNodeMlp

open Cert.KernelIdeal Cert.KernelIdeal.Gen Cert.LibRowLayers

/-- x · 1 / (1 + e^(-x)). -/
def silu (x : EReal) : EReal := x * Ideal.logistic x

/-- One row through the two-layer network, at column q: silu (r · W1 + b1) · W2 + b2. -/
def mlpRow (r : Fin 128 → EReal) (W1 : S128x128.Idx → EReal) (b1 : S128.Idx → EReal) (W2 : S128x128.Idx → EReal)
    (b2 : S128.Idx → EReal) (q : Fin 128) : EReal :=
  dense (fun k => silu (dense r W1 (fun j => b1 (ix1 j)) k)) W2 (fun j => b2 (ix1 j)) q

/-- One layer of a block of node rows, at (p, q): the dense layer of row p. -/
theorem layer_apply (x : FVec Ideal S1000x128 .f32) (w : FVec Ideal S128x128 .f32) (b : FVec Ideal S128 .f32) (p : Fin 1000) (q : Fin 128) :
    addf (matmul dot_S1000x128_S128x128_S1000x128_1_0_0_1_n_n (some .fp32) x w (constant S1000x128 .f32 0x00000000#32))
        (broadcastTo S1000x128 (shapeCast S1x128 b shapeCasts_S128_S1x128) broadcasts_S1x128_S1000x128) (ix2 p q)
      = dense (fun k => x (ix2 p k)) w (fun j => b (ix1 j)) q :=
  (tile_dense (φ₁ := .f32) (φ₂ := .f32) dot_S1000x128_S128x128_S1000x128_1_0_0_1_n_n rfl rfl rfl rfl
    (by dot_lhs0 dot_S1000x128_S128x128_S1000x128_1_0_0_1_n_n) (by dot_rhs1 dot_S1000x128_S128x128_S1000x128_1_0_0_1_n_n)
    (some .fp32) x w (shapeCast S1x128 b shapeCasts_S128_S1x128) broadcasts_S1x128_S1000x128 p q).trans
    (dense_congr w q (fun _ => rfl) (shapeCast_a_1a_apply b shapeCasts_S128_S1x128 0 q))

theorem pay0_apply (x0 : Vec Ideal S1000x128 .f32) (w1 : Vec Ideal S128x128 .f32) (b1 : Vec Ideal S128 .f32)
    (w2 : Vec Ideal S128x128 .f32) (b2 : Vec Ideal S128 .f32) (p : Fin 1000) (q : Fin 128) :
    k0_pay1 x0 w1 b1 w2 b2 (ix2 p q) = mlpRow (fun k => x0 (ix2 p k)) w1 b1 w2 b2 q := by
  unfold k0_pay1
  refine (layer_apply _ w2 b2 p q).trans ?_
  unfold mlpRow
  refine dense_congr w2 q (fun k => ?_) rfl
  show _ * Ideal.logistic _ = silu _
  rw [layer_apply x0 w1 b1 p k]
  rfl

/-! ## The host's spelling at an entry -/

/-- One layer of the node rows in the host's spelling, at (a, q): the dense layer of row a. -/
theorem host_layer_apply (x : FVec Ideal S10000x128 .f32) (w : FVec Ideal S128x128 .f32) (b : FVec Ideal S128 .f32)
    (a : Fin 10000) (q : Fin 128) :
    addf (Host.dotGeneral Cert.ReferenceIdeal.dot_S10000x128_S128x128_S10000x128_1_0_0_1_n_n none x w) (Cert.Spec.rowN b) (ix2 a q)
      = dense (fun k => x (ix2 a k)) w (fun j => b (ix1 j)) q :=
  (host_dense Cert.ReferenceIdeal.dot_S10000x128_S128x128_S10000x128_1_0_0_1_n_n rfl rfl rfl rfl
    (by dot_lhs0 Cert.ReferenceIdeal.dot_S10000x128_S128x128_S10000x128_1_0_0_1_n_n)
    (by dot_rhs1 Cert.ReferenceIdeal.dot_S10000x128_S128x128_S10000x128_1_0_0_1_n_n)
    none x w _ Cert.ReferenceIdeal.Facts₀.bcast_S1x128_S10000x128_0_1 a q).trans
    (dense_congr w q (fun _ => rfl) (Cert.LibCastForms.bcast_row b Cert.ReferenceIdeal.Facts₀.bcast_S128_S1x128_1 0 q))

/-- The host's x · (1 / (1 + exp (-x))) at an entry. -/
theorem siluN_apply (t : Cert.Spec.AN) (i : S10000x128.Idx) : Cert.Spec.siluN t i = silu (t i) := by
  unfold Cert.Spec.siluN silu Ideal.logistic
  show t i * Ideal.div (broadcastInDim _ _ _ _ i) (broadcastInDim _ _ _ _ i + Ideal.exp (-(t i))) = _
  rw [broadcastInDim_scalar_apply, constant_apply, Ideal.ofBits_one_f32]

/-- The host's two-layer network at (a, q): the network of row a. -/
theorem mlpN_apply (x : Cert.Spec.AN) (W1 : Cert.Spec.AW) (b1 : Cert.Spec.AB) (W2 : Cert.Spec.AW) (b2 : Cert.Spec.AB)
    (a : Fin 10000) (q : Fin 128) :
    Cert.Spec.mlpN x W1 b1 W2 b2 (ix2 a q) = mlpRow (fun k => x (ix2 a k)) W1 b1 W2 b2 q := by
  unfold Cert.Spec.mlpN
  refine (host_layer_apply _ W2 b2 a q).trans ?_
  unfold mlpRow
  refine dense_congr W2 q (fun k => ?_) rfl
  rw [siluN_apply, host_layer_apply]

/-! ## From the blocks to the array -/

variable (V : (c : Dev nD) → (b : Ref sig .tc) → Buf (Elt Ideal) ((c : Thread nD τ).loc b)) (c : Dev nD)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the node rows' blocks move with the point, the weights' stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem lt_N0 (t : Fin cfg0.N) : t.val < 10 := by have h : t.val < grid0.N := t.isLt; have := N_0; omega

/-- Row p of point t's block of the node rows is row 1000 t + p of the array. -/
theorem iblk0_0_apply (t : Fin cfg0.N) (p : Fin 1000) (k : Fin 128) :
    (iblk0 V c 0 t : Vec Ideal S1000x128 .f32) (ix2 p k)
      = (V c (Pipeline.arrRef spec0 0) : S10000x128.Idx → EReal) (ix2 ⟨t.val * 1000 + p.val, by have := lt_N0 t; omega⟩ k) := by
  obtain ⟨e0, e1, -⟩ := idx_facts0 t
  unfold iblk0
  rw [View.read_apply]
  show (V c (Pipeline.arrRef spec0 0) : S10000x128.Idx → EReal) _ = (V c (Pipeline.arrRef spec0 0) : S10000x128.Idx → EReal) _
  refine congrArg (V c (Pipeline.arrRef spec0 0) : S10000x128.Idx → EReal) (funext fun a => Fin.ext ?_)
  match a with
  | ⟨0, _⟩ => show win0_0.index t (0 : Fin 2) * 1000 + 1 * p.val = t.val * 1000 + p.val; rw [e0]; omega
  | ⟨1, _⟩ => show win0_0.index t (1 : Fin 2) * 128 + 1 * k.val = k.val; rw [e1]; omega

theorem iblk0_1_eq (t : Fin cfg0.N) : (iblk0 V c 1 t : Vec Ideal S128x128 .f32) = V c (Pipeline.arrRef spec0 1) := by
  obtain ⟨-, -, e0, e1, -⟩ := idx_facts0 t
  funext j
  unfold iblk0
  rw [View.read_apply]
  show (V c (Pipeline.arrRef spec0 1) : S128x128.Idx → EReal) _ = (V c (Pipeline.arrRef spec0 1) : S128x128.Idx → EReal) _
  refine congrArg (V c (Pipeline.arrRef spec0 1) : S128x128.Idx → EReal) (funext fun a => Fin.ext ?_)
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

theorem iblk0_2_eq (t : Fin cfg0.N) : (iblk0 V c 2 t : Vec Ideal S128 .f32) = V c (Pipeline.arrRef spec0 2) := by
  obtain ⟨-, -, -, -, e0, -⟩ := idx_facts0 t
  funext j
  unfold iblk0
  rw [View.read_apply]
  show (V c (Pipeline.arrRef spec0 2) : S128.Idx → EReal) _ = (V c (Pipeline.arrRef spec0 2) : S128.Idx → EReal) _
  refine congrArg (V c (Pipeline.arrRef spec0 2) : S128.Idx → EReal) (funext fun a => Fin.ext ?_)
  match a with
  | ⟨0, _⟩ => show win0_2.index t (0 : Fin 1) * 128 + 1 * (j 0).val = (j 0).val; rw [e0]; omega

theorem iblk0_3_eq (t : Fin cfg0.N) : (iblk0 V c 3 t : Vec Ideal S128x128 .f32) = V c (Pipeline.arrRef spec0 3) := by
  obtain ⟨-, -, -, -, -, e0, e1, -⟩ := idx_facts0 t
  funext j
  unfold iblk0
  rw [View.read_apply]
  show (V c (Pipeline.arrRef spec0 3) : S128x128.Idx → EReal) _ = (V c (Pipeline.arrRef spec0 3) : S128x128.Idx → EReal) _
  refine congrArg (V c (Pipeline.arrRef spec0 3) : S128x128.Idx → EReal) (funext fun a => Fin.ext ?_)
  match a with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega

theorem iblk0_4_eq (t : Fin cfg0.N) : (iblk0 V c 4 t : Vec Ideal S128 .f32) = V c (Pipeline.arrRef spec0 4) := by
  obtain ⟨-, -, -, -, -, -, -, e0, -⟩ := idx_facts0 t
  funext j
  unfold iblk0
  rw [View.read_apply]
  show (V c (Pipeline.arrRef spec0 4) : S128.Idx → EReal) _ = (V c (Pipeline.arrRef spec0 4) : S128.Idx → EReal) _
  refine congrArg (V c (Pipeline.arrRef spec0 4) : S128.Idx → EReal) (funext fun a => Fin.ext ?_)
  match a with
  | ⟨0, _⟩ => show win0_4.index t (0 : Fin 1) * 128 + 1 * (j 0).val = (j 0).val; rw [e0]; omega

section Array
variable (G : S10000x128.Idx → EReal)
  (hG : ∀ (a : Fin 10000) (q : Fin 128), G (ix2 a q) = mlpRow (fun k => (V c (Pipeline.arrRef spec0 0) : S10000x128.Idx → EReal) (ix2 a k))
    (V c (Pipeline.arrRef spec0 1)) (V c (Pipeline.arrRef spec0 2)) (V c (Pipeline.arrRef spec0 3)) (V c (Pipeline.arrRef spec0 4)) q)

include hG in
/-- What point t writes back is block t of G. -/
theorem flushed0_eq (t : Fin cfg0.N) :
    (dat0 (F := Ideal) V c).flushed 5 t = ((cfg0.win 5).blk t).view.read (Elt Ideal) G := by
  show (cfg0.win 5).cut (grid0.coords t) ((dat0 V c).after 5 t) = _
  rw [after0_5]
  unfold out0_5
  rw [View.canon_unit_zero hz2]
  simp only [View.ld_unit_zero (S := S1000x128) hz2, View.ld_unit_zero (S := S128x128) hz2, View.ld_unit_zero (S := S128) hz1]
  rw [iblk0_1_eq, iblk0_2_eq, iblk0_3_eq, iblk0_4_eq]
  funext j
  obtain ⟨p, q, rfl⟩ : ∃ (p : Fin 1000) (q : Fin 128), j = ix2 p q := ⟨j 0, j 1, eq_ix2 j⟩
  obtain ⟨-, -, -, -, -, -, -, -, e0, e1⟩ := idx_facts0 t
  show k0_pay1 (iblk0 V c 0 t : Vec Ideal S1000x128 .f32) _ _ _ _ (ix2 p q) = G (((cfg0.win 5).blk t).view.emb (ix2 p q))
  have hemb : ((cfg0.win 5).blk t).view.emb (ix2 p q) = (ix2 ⟨t.val * 1000 + p.val, by have := lt_N0 t; omega⟩ q : S10000x128.Idx) := by
    funext a; apply Fin.ext
    match a with
    | ⟨0, _⟩ => show win0_5.index t (0 : Fin 2) * 1000 + 1 * p.val = t.val * 1000 + p.val; rw [e0]; omega
    | ⟨1, _⟩ => show win0_5.index t (1 : Fin 2) * 128 + 1 * q.val = q.val; rw [e1]; omega
  rw [hemb, hG, pay0_apply]
  refine congrArg (fun r => mlpRow r _ _ _ _ q) (funext fun k => ?_)
  exact iblk0_0_apply V c t p k

theorem mem_blk0 (t : Fin cfg0.N) (i : S10000x128.Idx) :
    i ∈ ((cfg0.win 5).blk t).view.set ↔ ∀ a : Fin 2, win0_5.index t a * S1000x128.size a ≤ (i a).val ∧ (i a).val < win0_5.index t a * S1000x128.size a + S1000x128.size a := by
  show i ∈ ((View.whole main_v4).slice (win0_5.rect t)).set ↔ _
  rw [View.set_slice_whole, Rect.mem_set_unit]
  exact Iff.rfl

/-- Row r is in the block of point r / 1000. -/
theorem cover0 (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  let t : Fin cfg0.N := ⟨(i 0).val / 1000, by show _ < grid0.N; rw [N_0]; omega⟩
  obtain ⟨-, -, -, -, -, -, -, -, e0, e1⟩ := idx_facts0 t
  refine ⟨t, flush0_5 t, ?_⟩
  rw [mem_blk0]
  intro a
  match a with
  | ⟨0, _⟩ => show win0_5.index t (0 : Fin 2) * 1000 ≤ (i 0).val ∧ (i 0).val < win0_5.index t (0 : Fin 2) * 1000 + 1000; rw [e0]; show (i 0).val / 1000 * 1000 ≤ _ ∧ _ < (i 0).val / 1000 * 1000 + 1000; omega
  | ⟨1, _⟩ => show win0_5.index t (1 : Fin 2) * 128 ≤ (i 1).val ∧ (i 1).val < win0_5.index t (1 : Fin 2) * 128 + 128; rw [e1]; omega

include hG in
/-- The ten blocks tile the array: it ends holding G. -/
theorem final0_of : (dat0 (F := Ideal) V c).arrAt 5 cfg0.N = G :=
  (dat0 (F := Ideal) V c).arrAt_eq_of_cover 5 G (fun t _ => flushed0_eq V c G hG t) (cover0 )

end Array

/-- The array the region leaves is the host's two-layer network of the arrays it read. -/
theorem final0 : (dat0 (F := Ideal) V c).arrAt 5 cfg0.N
    = Cert.Spec.mlpN (V c (Pipeline.arrRef spec0 0)) (V c (Pipeline.arrRef spec0 1)) (V c (Pipeline.arrRef spec0 2))
        (V c (Pipeline.arrRef spec0 3)) (V c (Pipeline.arrRef spec0 4)) :=
  final0_of V c _ fun a q => mlpN_apply _ _ _ _ _ a q

end Cert.KernelIdeal.HandNodeMlp
end
-- ==== Proof.RegionNodeGate.lean ====
/-
  The node network without biases: its region and the host's spelling, as one function of the arrays.

  A block of 1000 node rows is multiplied by a weight matrix, goes through x · 1 / (1 + e^(-x)) entry by entry, and is
  multiplied by a second weight matrix. Entry (p, q) of the block's result only looks at row p of the block, so it is one
  function `gateRow` of that row and of the weights; the host's whole-array spelling at (a, q) is the same function of
  row a. The ten blocks tile the 10000 rows: the array the region leaves is the host's function of the arrays it read.
-/
import proofs.«115706_j13340168421980_2_alg».proof.Proof.Gen.KernelIdeal.Frame
import proofs.«115706_j13340168421980_2_alg».proof.Proof.Spec
import proofs.«115706_j13340168421980_2_alg».proof.Proof.LibRowLayers
import Idealize.ShloMosaic.Lib.Pipeline.Value
import Idealize.ShloMosaic.Lib.IdealHost
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.HandNodeGate

open Cert.KernelIdeal Cert.KernelIdeal.Gen Cert.LibRowLayers

/-- x · 1 / (1 + e^(-x)). -/
def silu (x : EReal) : EReal := x * Ideal.logistic x

/-- One row through the two products, at column q: silu (r · W1) · W2. -/
def gateRow (r : Fin 128 → EReal) (W1 W2 : S128x128.Idx → EReal) (q : Fin 128) : EReal :=
  ∑ k : Fin 128, silu (∑ k' : Fin 128, r k' * W1 (ix2 k' k)) * W2 (ix2 k q)

/-! ## The kernel's spelling at an entry -/

/-- A block of node rows times a weight matrix into a zero accumulator, at (p, q). -/
theorem tile_dot_apply (x : FVec Ideal S1000x128 .f32) (w : FVec Ideal S128x128 .f32) (p : Fin 1000) (q : Fin 128) :
    matmul dot_S1000x128_S128x128_S1000x128_1_0_0_1_n_n (some .fp32) x w (constant S1000x128 .f32 0x00000000#32) (ix2 p q)
      = ∑ k : Fin 128, x (ix2 p k) * w (ix2 k q) :=
  Cert.LibColumnBlocks.matmul_zero_apply (φ₁ := .f32) (φ₂ := .f32) dot_S1000x128_S128x128_S1000x128_1_0_0_1_n_n rfl rfl rfl rfl
    (by dot_lhs0 dot_S1000x128_S128x128_S1000x128_1_0_0_1_n_n) (by dot_rhs1 dot_S1000x128_S128x128_S1000x128_1_0_0_1_n_n)
    x w p q (some .fp32)

theorem pay2_apply (x0 : Vec Ideal S1000x128 .f32) (w1 : Vec Ideal S128x128 .f32) (w2 : Vec Ideal S128x128 .f32)
    (p : Fin 1000) (q : Fin 128) :
    k2_pay1 x0 w1 w2 (ix2 p q) = gateRow (fun k => x0 (ix2 p k)) w1 w2 q := by
  unfold k2_pay1
  rw [shapeCast_self]
  refine (tile_dot_apply _ w2 p q).trans ?_
  unfold gateRow
  refine Finset.sum_congr rfl fun k _ => ?_
  refine congrArg (· * w2 (ix2 k q)) ?_
  show _ * Ideal.logistic _ = silu _
  rw [tile_dot_apply x0 w1 p k]
  rfl

/-! ## The host's spelling at an entry -/

/-- The node rows times a weight matrix in the host's spelling, at (a, q). -/
theorem host_dot_apply (x : FVec Ideal S10000x128 .f32) (w : FVec Ideal S128x128 .f32) (a : Fin 10000) (q : Fin 128) :
    Host.dotGeneral Cert.ReferenceIdeal.dot_S10000x128_S128x128_S10000x128_1_0_0_1_n_n none x w (ix2 a q)
      = ∑ k : Fin 128, x (ix2 a k) * w (ix2 k q) :=
  Cert.LibColumnBlocks.hostDot_apply (φ₁ := .f32) (φ₂ := .f32) Cert.ReferenceIdeal.dot_S10000x128_S128x128_S10000x128_1_0_0_1_n_n
    rfl rfl rfl rfl
    (by dot_lhs0 Cert.ReferenceIdeal.dot_S10000x128_S128x128_S10000x128_1_0_0_1_n_n)
    (by dot_rhs1 Cert.ReferenceIdeal.dot_S10000x128_S128x128_S10000x128_1_0_0_1_n_n) x w a q none

/-- The host's x · (1 / (1 + exp (-x))) at an entry. -/
theorem siluN_apply (t : Cert.Spec.AN) (i : S10000x128.Idx) : Cert.Spec.siluN t i = silu (t i) := by
  unfold Cert.Spec.siluN silu Ideal.logistic
  show t i * Ideal.div (broadcastInDim _ _ _ _ i) (broadcastInDim _ _ _ _ i + Ideal.exp (-(t i))) = _
  rw [broadcastInDim_scalar_apply, constant_apply, Ideal.ofBits_one_f32]

/-- The host's two products at (a, q): the function of row a. -/
theorem mlpnbN_apply (x : Cert.Spec.AN) (W1 W2 : Cert.Spec.AW) (a : Fin 10000) (q : Fin 128) :
    Cert.Spec.mlpnbN x W1 W2 (ix2 a q) = gateRow (fun k => x (ix2 a k)) W1 W2 q := by
  unfold Cert.Spec.mlpnbN
  refine (host_dot_apply _ W2 a q).trans ?_
  unfold gateRow
  refine Finset.sum_congr rfl fun k _ => ?_
  rw [siluN_apply, host_dot_apply]

/-! ## From the blocks to the array -/

variable (V : (c : Dev nD) → (b : Ref sig .tc) → Buf (Elt Ideal) ((c : Thread nD τ).loc b)) (c : Dev nD)

theorem hz2 : (![0, 0] : Fin 2 → Nat) = fun _ => 0 := funext fun a => by fin_cases a <;> rfl

/-- The printed index maps over the grid: the node rows' blocks move with the point, the weights' stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt_N2 (t : Fin cfg2.N) : t.val < 10 := by have h : t.val < grid2.N := t.isLt; have := N_2; omega

/-- Row p of point t's block of the node rows is row 1000 t + p of the array. -/
theorem iblk2_0_apply (t : Fin cfg2.N) (p : Fin 1000) (k : Fin 128) :
    (iblk2 V c 0 t : Vec Ideal S1000x128 .f32) (ix2 p k)
      = (V c (Pipeline.arrRef spec2 0) : S10000x128.Idx → EReal) (ix2 ⟨t.val * 1000 + p.val, by have := lt_N2 t; omega⟩ k) := by
  obtain ⟨e0, e1, -⟩ := idx_facts2 t
  unfold iblk2
  rw [View.read_apply]
  show (V c (Pipeline.arrRef spec2 0) : S10000x128.Idx → EReal) _ = (V c (Pipeline.arrRef spec2 0) : S10000x128.Idx → EReal) _
  refine congrArg (V c (Pipeline.arrRef spec2 0) : S10000x128.Idx → EReal) (funext fun a => Fin.ext ?_)
  match a with
  | ⟨0, _⟩ => show win2_0.index t (0 : Fin 2) * 1000 + 1 * p.val = t.val * 1000 + p.val; rw [e0]; omega
  | ⟨1, _⟩ => show win2_0.index t (1 : Fin 2) * 128 + 1 * k.val = k.val; rw [e1]; omega

theorem iblk2_1_eq (t : Fin cfg2.N) : (iblk2 V c 1 t : Vec Ideal S128x128 .f32) = V c (Pipeline.arrRef spec2 1) := by
  obtain ⟨-, -, e0, e1, -⟩ := idx_facts2 t
  funext j
  unfold iblk2
  rw [View.read_apply]
  show (V c (Pipeline.arrRef spec2 1) : S128x128.Idx → EReal) _ = (V c (Pipeline.arrRef spec2 1) : S128x128.Idx → EReal) _
  refine congrArg (V c (Pipeline.arrRef spec2 1) : S128x128.Idx → EReal) (funext fun a => Fin.ext ?_)
  match a with
  | ⟨0, _⟩ => show win2_1.index t (0 : Fin 2) * 128 + 1 * (j 0).val = (j 0).val; rw [e0]; omega
  | ⟨1, _⟩ => show win2_1.index t (1 : Fin 2) * 128 + 1 * (j 1).val = (j 1).val; rw [e1]; omega

theorem iblk2_2_eq (t : Fin cfg2.N) : (iblk2 V c 2 t : Vec Ideal S128x128 .f32) = V c (Pipeline.arrRef spec2 2) := by
  obtain ⟨-, -, -, -, e0, e1, -⟩ := idx_facts2 t
  funext j
  unfold iblk2
  rw [View.read_apply]
  show (V c (Pipeline.arrRef spec2 2) : S128x128.Idx → EReal) _ = (V c (Pipeline.arrRef spec2 2) : S128x128.Idx → EReal) _
  refine congrArg (V c (Pipeline.arrRef spec2 2) : S128x128.Idx → EReal) (funext fun a => Fin.ext ?_)
  match a with
  | ⟨0, _⟩ => show win2_2.index t (0 : Fin 2) * 128 + 1 * (j 0).val = (j 0).val; rw [e0]; omega
  | ⟨1, _⟩ => show win2_2.index t (1 : Fin 2) * 128 + 1 * (j 1).val = (j 1).val; rw [e1]; omega

section Array
variable (G : S10000x128.Idx → EReal)
  (hG : ∀ (a : Fin 10000) (q : Fin 128), G (ix2 a q) = gateRow (fun k => (V c (Pipeline.arrRef spec2 0) : S10000x128.Idx → EReal) (ix2 a k))
    (V c (Pipeline.arrRef spec2 1)) (V c (Pipeline.arrRef spec2 2)) q)

include hG in
/-- What point t writes back is block t of G. -/
theorem flushed2_eq (t : Fin cfg2.N) :
    (dat2 (F := Ideal) V c).flushed 3 t = ((cfg2.win 3).blk t).view.read (Elt Ideal) G := by
  show (cfg2.win 3).cut (grid2.coords t) ((dat2 V c).after 3 t) = _
  rw [after2_3]
  unfold out2_3
  rw [View.canon_unit_zero hz2]
  simp only [View.ld_unit_zero (S := S1000x128) hz2, View.ld_unit_zero (S := S128x128) hz2]
  rw [iblk2_1_eq, iblk2_2_eq]
  funext j
  obtain ⟨p, q, rfl⟩ : ∃ (p : Fin 1000) (q : Fin 128), j = ix2 p q := ⟨j 0, j 1, eq_ix2 j⟩
  obtain ⟨-, -, -, -, -, -, e0, e1⟩ := idx_facts2 t
  show k2_pay1 (iblk2 V c 0 t : Vec Ideal S1000x128 .f32) _ _ (ix2 p q) = G (((cfg2.win 3).blk t).view.emb (ix2 p q))
  have hemb : ((cfg2.win 3).blk t).view.emb (ix2 p q) = (ix2 ⟨t.val * 1000 + p.val, by have := lt_N2 t; omega⟩ q : S10000x128.Idx) := by
    funext a; apply Fin.ext
    match a with
    | ⟨0, _⟩ => show win2_3.index t (0 : Fin 2) * 1000 + 1 * p.val = t.val * 1000 + p.val; rw [e0]; omega
    | ⟨1, _⟩ => show win2_3.index t (1 : Fin 2) * 128 + 1 * q.val = q.val; rw [e1]; omega
  rw [hemb, hG, pay2_apply]
  refine congrArg (fun r => gateRow r _ _ q) (funext fun k => ?_)
  exact iblk2_0_apply V c t p k

theorem mem_blk2 (t : Fin cfg2.N) (i : S10000x128.Idx) :
    i ∈ ((cfg2.win 3).blk t).view.set ↔ ∀ a : Fin 2, win2_3.index t a * S1000x128.size a ≤ (i a).val ∧ (i a).val < win2_3.index t a * S1000x128.size a + S1000x128.size a := by
  show i ∈ ((View.whole main_v37).slice (win2_3.rect t)).set ↔ _
  rw [View.set_slice_whole, Rect.mem_set_unit]
  exact Iff.rfl

/-- Row r is in the block of point r / 1000. -/
theorem cover2 (i : S10000x128.Idx) : ∃ t : Fin cfg2.N, (cfg2.win 3).flush t = true ∧ i ∈ ((cfg2.win 3).blk t).view.set := by
  have hi0 : (i 0).val < 10000 := (i 0).isLt
  have hi1 : (i 1).val < 128 := (i 1).isLt
  let t : Fin cfg2.N := ⟨(i 0).val / 1000, by show _ < grid2.N; rw [N_2]; omega⟩
  obtain ⟨-, -, -, -, -, -, e0, e1⟩ := idx_facts2 t
  refine ⟨t, flush2_3 t, ?_⟩
  rw [mem_blk2]
  intro a
  match a with
  | ⟨0, _⟩ => show win2_3.index t (0 : Fin 2) * 1000 ≤ (i 0).val ∧ (i 0).val < win2_3.index t (0 : Fin 2) * 1000 + 1000; rw [e0]; show (i 0).val / 1000 * 1000 ≤ _ ∧ _ < (i 0).val / 1000 * 1000 + 1000; omega
  | ⟨1, _⟩ => show win2_3.index t (1 : Fin 2) * 128 ≤ (i 1).val ∧ (i 1).val < win2_3.index t (1 : Fin 2) * 128 + 128; rw [e1]; omega

include hG in
/-- The ten blocks tile the array: it ends holding G. -/
theorem final2_of : (dat2 (F := Ideal) V c).arrAt 3 cfg2.N = G :=
  (dat2 (F := Ideal) V c).arrAt_eq_of_cover 3 G (fun t _ => flushed2_eq V c G hG t) cover2

end Array

/-- The array the region leaves is the host's two products, with x · 1 / (1 + e^(-x)) between them, of the arrays it read. -/
theorem final2 : (dat2 (F := Ideal) V c).arrAt 3 cfg2.N
    = Cert.Spec.mlpnbN (V c (Pipeline.arrRef spec2 0)) (V c (Pipeline.arrRef spec2 1)) (V c (Pipeline.arrRef spec2 2)) :=
  final2_of V c _ fun a q => mlpnbN_apply _ _ _ a q

end Cert.KernelIdeal.HandNodeGate
end
-- ==== Proof.LibThreeBlocks.lean ====
/-
  Three matrices of equal height set side by side, read at coordinates.

  The concatenation `[x0 | x1 | x2]` along the column axis reads, at `(a, b)`, the block that column `b` falls in, at
  `(a, b - the widths before it)`. The three cases are stated one by one, and once more as a single equation: row `a`
  of the concatenation is the row `row3` made of row `a` of each block.
-/
import Idealize.ShloMosaic.Lib.ValueIdx
import Idealize.ShloMosaic.Lib.Pipeline.Value

namespace Cert.LibThreeBlocks

open Idealize.ShloMosaic Idealize.ShloMosaic.ValueIdx

variable {α : Type}

/-- Three rows of widths `w0`, `w1`, `w2` set side by side, as one row of width `B = w0 + w1 + w2`. -/
def row3 {w0 w1 w2 B : ℕ} (hB : w0 + w1 + w2 = B) (r0 : Fin w0 → α) (r1 : Fin w1 → α) (r2 : Fin w2 → α) (k : Fin B) : α :=
  if h0 : k.val < w0 then r0 ⟨k.val, h0⟩
  else if h1 : k.val < w0 + w1 then r1 ⟨k.val - w0, by omega⟩
  else r2 ⟨k.val - (w0 + w1), by have := k.isLt; omega⟩

/-- `row3` of rows that agree entry by entry. -/
theorem row3_congr {w0 w1 w2 B : ℕ} (hB : w0 + w1 + w2 = B) {r0 r0' : Fin w0 → α} {r1 r1' : Fin w1 → α} {r2 r2' : Fin w2 → α}
    (h0 : ∀ k, r0 k = r0' k) (h1 : ∀ k, r1 k = r1' k) (h2 : ∀ k, r2 k = r2' k) :
    row3 hB r0 r1 r2 = row3 hB r0' r1' r2' := by
  obtain rfl := funext h0
  obtain rfl := funext h1
  obtain rfl := funext h2
  rfl

section Three
variable {A w0 w1 w2 B : ℕ}
  (x0 : (⟨2, ![A, w0]⟩ : Shape).Idx → α) (x1 : (⟨2, ![A, w1]⟩ : Shape).Idx → α)
  (x2 : (⟨2, ![A, w2]⟩ : Shape).Idx → α)
  (h : Shape.Concatenates [⟨2, ![A, w0]⟩, ⟨2, ![A, w1]⟩, ⟨2, ![A, w2]⟩] ⟨2, ![A, B]⟩ 1)
  (a : Fin A) (b : Fin B)

/-- `[x0 | x1 | x2]` at a column of the first block. -/
theorem cat3_0 (hb : b.val < w0) :
    concatenate ⟨2, ![A, B]⟩ 1 [⟨⟨2, ![A, w0]⟩, x0⟩, ⟨⟨2, ![A, w1]⟩, x1⟩, ⟨⟨2, ![A, w2]⟩, x2⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat3_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat3_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- Row `a` of `[x0 | x1 | x2]` is row `a` of each block, set side by side. -/
theorem cat3_apply (hB : w0 + w1 + w2 = B) :
    concatenate ⟨2, ![A, B]⟩ 1 [⟨⟨2, ![A, w0]⟩, x0⟩, ⟨⟨2, ![A, w1]⟩, x1⟩, ⟨⟨2, ![A, w2]⟩, x2⟩] h (ix2 a b)
      = row3 hB (fun k => x0 (ix2 a k)) (fun k => x1 (ix2 a k)) (fun k => x2 (ix2 a k)) b := by
  unfold row3
  have hlt := b.isLt
  by_cases h0 : b.val < w0
  · rw [dif_pos h0]; exact cat3_0 x0 x1 x2 h a b h0
  · rw [dif_neg h0]
    by_cases h1 : b.val < w0 + w1
    · rw [dif_pos h1]; exact cat3_1 x0 x1 x2 h a b (by omega) (by omega)
    · rw [dif_neg h1]; exact cat3_2 x0 x1 x2 h a b (by omega) (by omega)

end Three

end Cert.LibThreeBlocks
-- ==== Proof.LibRowOps.lean ====
/-
  Row operations read at coordinates, at the extended reals: a sum over the last or the middle axis of a
  rank-3 vector and over the last axis of a rank-2 one, as a sum over that axis's coordinate; broadcasts
  along a unit axis and casts that insert a unit axis, read at the coordinates of the result. Every
  statement is over arbitrary extents and spells indices by their coordinates.
-/
import Idealize.ShloMosaic.PureOps.Ideal.Laws
import Idealize.ShloMosaic.Lib.ValueIdx
import Idealize.ShloMosaic.Lib.Pipeline.Value

noncomputable section

namespace Cert.LibRowOps

open Idealize.ShloMosaic Idealize.ShloMosaic.ValueIdx

/-- A sum over the last axis of an [A, B, C] vector, at (a, b): the sum over k of the entry at (a, b, k). -/
theorem sum_last3 {A B C : ℕ} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (a : Fin A) (b : Fin B) :
    multiReduction .add [2] ⟨2, ![A, B]⟩ src 0x00000000#32 h hφ hacc (ix2 a b) = ∑ k : Fin C, src (ix3 a b k) := by
  refine (Ideal.multiReduction_add_single src 0x00000000#32 h hφ hacc (ix2 a b)).trans ?_
  refine Finset.sum_congr rfl fun k _ => congrArg src ?_
  funext d
  match d with
  | ⟨0, _⟩ => rfl
  | ⟨1, _⟩ => rfl
  | ⟨2, _⟩ => rfl

/-- A sum over the middle axis of an [A, B, C] vector, at (a, c): the sum over k of the entry at (a, k, c). -/
theorem sum_mid3 {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = 0x00000000#32) (a : Fin A) (c : Fin C) :
    multiReduction .add [1] ⟨2, ![A, C]⟩ src 0x00000000#32 h hφ hacc (ix2 a c) = ∑ k : Fin B, src (ix3 a k c) := by
  refine (Ideal.multiReduction_add_single src 0x00000000#32 h hφ hacc (ix2 a c)).trans ?_
  refine Finset.sum_congr rfl fun k _ => congrArg src ?_
  funext d
  match d with
  | ⟨0, _⟩ => rfl
  | ⟨1, _⟩ => rfl
  | ⟨2, _⟩ => rfl

/-- A sum over the last axis of an [A, B] vector, at a: the sum over k of the entry at (a, k). -/
theorem sum_last2 {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ src 0x00000000#32 h hφ hacc (ix1 a) = ∑ k : Fin B, src (ix2 a k) := by
  refine (Ideal.multiReduction_add_single src 0x00000000#32 h hφ hacc (ix1 a)).trans ?_
  refine Finset.sum_congr rfl fun k _ => congrArg src ?_
  funext d
  match d with
  | ⟨0, _⟩ => rfl
  | ⟨1, _⟩ => rfl

variable {α : Type}

/-- [A, 1, C] broadcast to [A, B, C], at (a, b, c): the operand at (a, 0, c). -/
theorem bcast_a1c_abc {A B C : ℕ} (x : (⟨3, ![A, 1, C]⟩ : Shape).Idx → α)
    (h : (⟨3, ![A, 1, C]⟩ : Shape).Broadcasts ⟨3, ![A, B, C]⟩) (a : Fin A) (b : Fin B) (c : Fin C) :
    broadcastTo ⟨3, ![A, B, C]⟩ x h (ix3 a b c) = x (ix3 a 0 c) := by
  refine broadcastTo_apply x h _ _ fun d => ?_
  match d with
  | ⟨0, _⟩ =>
    show a.val = if A = 1 then 0 else a.val
    split_ifs with hA
    · have := a.isLt; omega
    · rfl
  | ⟨1, _⟩ => rfl
  | ⟨2, _⟩ =>
    show c.val = if C = 1 then 0 else c.val
    split_ifs with hC
    · have := c.isLt; omega
    · rfl

/-- [A, B, 1] broadcast to [A, B, C], at (a, b, c): the operand at (a, b, 0). -/
theorem bcast_ab1_abc {A B C : ℕ} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b 0) := by
  refine broadcastTo_apply x h _ _ fun d => ?_
  match d with
  | ⟨0, _⟩ =>
    show a.val = if A = 1 then 0 else a.val
    split_ifs with hA
    · have := a.isLt; omega
    · rfl
  | ⟨1, _⟩ =>
    show b.val = if B = 1 then 0 else b.val
    split_ifs with hB
    · have := b.isLt; omega
    · rfl
  | ⟨2, _⟩ => rfl

/-- [A, 1] broadcast to [A, B], at (a, b): the operand at (a, 0). -/
theorem bcast_a1_ab {A B : ℕ} (x : (⟨2, ![A, 1]⟩ : Shape).Idx → α)
    (h : (⟨2, ![A, 1]⟩ : Shape).Broadcasts ⟨2, ![A, B]⟩) (a : Fin A) (b : Fin B) :
    broadcastTo ⟨2, ![A, B]⟩ x h (ix2 a b) = x (ix2 a 0) := by
  refine broadcastTo_apply x h _ _ fun d => ?_
  match d with
  | ⟨0, _⟩ =>
    show a.val = if A = 1 then 0 else a.val
    split_ifs with hA
    · have := a.isLt; omega
    · rfl
  | ⟨1, _⟩ => rfl

/-- [1, B] broadcast to [A, B], at (a, b): the operand at (0, b). -/
theorem bcast_1b_ab {A B : ℕ} (x : (⟨2, ![1, B]⟩ : Shape).Idx → α)
    (h : (⟨2, ![1, B]⟩ : Shape).Broadcasts ⟨2, ![A, B]⟩) (a : Fin A) (b : Fin B) :
    broadcastTo ⟨2, ![A, B]⟩ x h (ix2 a b) = x (ix2 0 b) := by
  refine broadcastTo_apply x h _ _ fun d => ?_
  match d with
  | ⟨0, _⟩ => rfl
  | ⟨1, _⟩ =>
    show b.val = if B = 1 then 0 else b.val
    split_ifs with hB
    · have := b.isLt; omega
    · rfl

/-- [A, C] cast to [A, 1, C], at (a, 0, c): the operand at (a, c). -/
theorem cast_ac_a1c {A C : ℕ} (x : (⟨2, ![A, C]⟩ : Shape).Idx → α)
    (h : (⟨2, ![A, C]⟩ : Shape).ShapeCasts ⟨3, ![A, 1, C]⟩) (a : Fin A) (z : Fin 1) (c : Fin C) :
    shapeCast ⟨3, ![A, 1, C]⟩ x h (ix3 a z c) = x (ix2 a c) := by
  refine shapeCast_apply x h _ _ ?_
  rw [Shape.rowMajor_val_two, Shape.rowMajor_val_three]
  show a.val * C + c.val = (a.val * 1 + z.val) * C + c.val
  have := z.isLt
  have hz : z.val = 0 := by omega
  rw [hz]; ring

/-- [A, B] cast to [A, B, 1], at (a, b, 0): the operand at (a, b). -/
theorem cast_ab_ab1 {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) := by
  refine shapeCast_apply x h _ _ ?_
  rw [Shape.rowMajor_val_two, Shape.rowMajor_val_three]
  show a.val * B + b.val = (a.val * B + b.val) * 1 + z.val
  have := z.isLt
  omega

/-- [A] cast to [A, 1], at (a, 0): the operand at a. -/
theorem cast_a_a1 {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have := z.isLt
  omega

end Cert.LibRowOps

end
-- ==== Proof.LibTableRows.lean ====
/-
  A table look-up by row read at an index; the looked-up rows laid side by side; a conjunction of ones.

  table[idx] of a two-axis table [N, K] at an integer array idx : [R, C] lowers to a stablehlo.gather whose slices
  are whole rows of width K: offset axis 2 of the result is axis 1 of the table, axis 0 of the table is collapsed and
  is the one the start index names, and the start indices are laid out as [R, C, 1]. Result element (r, c, k) is the
  table's entry in column k of the row idx[r, c, 0], that word read as a signed integer and clamped into [0, N − 1].

  An array [P, Q, R] recast as the matrix [P, Q·R] reads, at row p and column q·R + r, the entry (p, q, r): both
  have the row-major position (p·Q + q)·R + r = p·(Q·R) + (q·R + r).

  A reduction by and, from the bit 1, of an array of bits that are all 1 is 1 at every index of its result: a left
  fold of and that starts at 1 and meets only 1s stays at 1.
-/
import Idealize.ShloMosaic.PureOps
import Idealize.ShloMosaic.Lib.ValueIdx
import Idealize.ShloMosaic.Lib.Pipeline.Value
import Idealize.ShloMosaic.PureOps.Reduce

namespace Idealize.ShloMosaic.TableRows

open Idealize.ShloMosaic Idealize.ShloMosaic.ValueIdx

variable {α : Type}

/-- The dimension numbers of table[idx] for a table [N, K], start indices [R, C, 1] and a result [R, C, K];
    their conditions wf are decided on a program's literal shapes. -/
abbrev tableDims (N K R C : Nat)
    (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- THE LOOK-UP READ AT (r, c, k): column k of the table's row idx[r, c, 0], that word read signed and clamped into
    [0, N − 1]. -/
theorem gather_table_apply {N K R C w : Nat} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (r : Fin R) (c : Fin C) (k : Fin K) :
    Host.gather (tableDims N K R C wf) x idx (ix3 r c k)
      = x (ix2 ⟨min (idx (ix3 r c (0 : Fin 1))).toInt.toNat (N - 1), by omega⟩ k) := by
  unfold Host.gather
  congr 1
  funext a
  refine Fin.ext ?_
  show (tableDims N K R C wf).start (ix3 r c k) idx a + (tableDims N K R C wf).batchCoord (ix3 r c k) a
      + (tableDims N K R C wf).offCoord (ix3 r c k) a = _
  rw [GatherDims.batchCoord_eq_zero _ _ _ List.not_mem_nil, Nat.add_zero]
  have h10 : (1 : Fin 2) ≠ 0 := Fin.ne_of_val_ne (by decide)
  match a with
  | ⟨0, _⟩ =>
    -- the row axis: collapsed, so no offset; its start is the clamped index word
    have hc : (0 : Fin 2) ∉ (tableDims N K R C wf).sKept :=
      fun h => ((GatherDims.mem_sKept _ _).mp h).1 (List.mem_singleton.mpr rfl)
    show (tableDims N K R C wf).start (ix3 r c k) idx (0 : Fin 2) + (tableDims N K R C wf).offCoord (ix3 r c k) (0 : Fin 2) = _
    rw [GatherDims.offCoord_eq_zero _ _ _ hc, Nat.add_zero]
    unfold GatherDims.start
    rw [dif_pos (show (0 : Fin 2) ∈ (tableDims N K R C wf).startIndexMap from List.mem_singleton.mpr rfl)]
    have hsi : (tableDims N K R C wf).siIdx (ix3 r c k) ⟨List.idxOf (0 : Fin 2) (tableDims N K R C wf).startIndexMap,
        List.idxOf_lt_length_iff.2 (List.mem_singleton.mpr rfl)⟩ = ix3 r c (0 : Fin 1) := by
      funext d; refine Fin.ext ?_
      match d with
      | ⟨0, _⟩ => rfl
      | ⟨1, _⟩ => rfl
      | ⟨2, _⟩ => rfl
    rw [hsi]
    rfl
  | ⟨1, _⟩ =>
    -- the column axis: no start index names it, and it is the table's one kept axis, read off the result's axis 2
    have hs : (tableDims N K R C wf).start (ix3 r c k) idx (1 : Fin 2) = 0 := by
      unfold GatherDims.start
      rw [dif_neg (fun h => h10 (List.mem_singleton.mp h))]
    have hk : (1 : Fin 2) ∈ (tableDims N K R C wf).sKept :=
      (GatherDims.mem_sKept _ _).mpr ⟨fun h => h10 (List.mem_singleton.mp h), List.not_mem_nil⟩
    show (tableDims N K R C wf).start (ix3 r c k) idx (1 : Fin 2) + (tableDims N K R C wf).offCoord (ix3 r c k) (1 : Fin 2) = _
    rw [hs, Nat.zero_add]
    unfold GatherDims.offCoord
    rw [dif_pos hk]
    rfl

/-- Folding the two trailing axes: column q·R + r of the matrix is entry (q, r) of the array's row. -/
theorem fold_last_apply {P Q R M : Nat} (x : (⟨3, ![P, Q, R]⟩ : Shape).Idx → α)
    (h : (⟨3, ![P, Q, R]⟩ : Shape).ShapeCasts ⟨2, ![P, M]⟩) (hM : M = Q * R) (p : Fin P) (q : Fin Q) (r : Fin R) (m : Fin M)
    (hm : m.val = q.val * R + r.val) :
    shapeCast ⟨2, ![P, M]⟩ x h (ix2 p m) = x (ix3 p q r) := by
  refine shapeCast_apply x h _ _ ?_
  rw [Shape.rowMajor_val_three, Shape.rowMajor_val_two]
  show (p.val * Q + q.val) * R + r.val = p.val * M + m.val
  rw [hm, hM, Nat.add_mul, Nat.mul_assoc, Nat.add_assoc]

/-- A left fold by and over bits that are all 1, started at 1, is 1. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_of_all_one f hf l

/-- A reduction by and, from the bit 1, of an array of bits that are all 1 is 1 at every index of its result. -/
theorem reduce_andi_of_all_one {s t u : Shape} {axes : List (Fin s.rank)} (x : s.Idx → BitVec 1) (hx : ∀ i, x i = 1#1)
    (init : u.Idx → BitVec 1) (h : s.ReducesTo axes t) (hu : 0 < u.numel) (hinit : init (Shape.Idx.first hu) = 1#1)
    (j : t.Idx) : Host.reduce IntOp.andi x init h hu j = 1#1 := by
  rw [Host.reduce_eq_foldl, hinit]
  exact foldl_andi_of_all_one x hx _

end Idealize.ShloMosaic.TableRows
-- ==== Proof.RegionEdge.lean ====
/-
  Region 1 (the edge kernel): what its three output arrays hold after all grid points, as the reference's own
  host-spelt functions of the arrays the region finds.

  Mathematics. Every window is cut along the edge rows into 100 blocks of 2000 rows (the weights and biases are whole).
  At a point t the body computes, row by row,
    * the invariant message: (radial row * W + b) times the source row times the target row;
    * a two-layer network silu (r * W1 + b1) * W2 + b2 of that row, where silu x = x * (1 / (1 + exp (-x)));
    * the first equivariant block: that network's entry (p, f) times the edge's displacement (p, j), at column j * 128 + f;
    * the second: another network of the invariant row, entry (p, f), times the block found in window 14 at column j * 128 + f.
  Entry (p, q) of each tile only looks at row p of the loaded blocks, and row p of block t is row 2000 t + p of the array:
  so each store is block t of one whole-array function, the blocks tile the array, and the array ends as that function.
  The accumulating product into a zero accumulator and the host's product are the same sum over the contracted coordinate;
  the logistic function is 1 / (1 + exp (-x)) by definition; an array [200000, 3, 128] and its folding [200000, 384] hold
  entry (e, j, f) at column j * 128 + f.
-/
import proofs.«115706_j13340168421980_2_alg».proof.Proof.Gen.KernelIdeal.Frame
import proofs.«115706_j13340168421980_2_alg».proof.Proof.Spec
import proofs.«115706_j13340168421980_2_alg».proof.Proof.LibRowLayers
import proofs.«115706_j13340168421980_2_alg».proof.Proof.LibCastForms
import proofs.«115706_j13340168421980_2_alg».proof.Proof.LibThreeBlocks
import proofs.«115706_j13340168421980_2_alg».proof.Proof.LibRowOps
import proofs.«115706_j13340168421980_2_alg».proof.Proof.LibTableRows
import Idealize.ShloMosaic.Lib.Pipeline.Value
import Idealize.ShloMosaic.Lib.IdealHost
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.HandEdge

open Cert.KernelIdeal Cert.KernelIdeal.Gen Cert.LibRowLayers

/-- x * logistic x. -/
def silu (x : EReal) : EReal := x * Ideal.logistic x

/-- One edge's invariant message at feature q: the radial layer of the edge's row, times the two endpoint rows. -/
def invRow (r : Fin 20 → EReal) (W : S20x128.Idx → EReal) (b : Fin 128 → EReal) (s d : EReal) (q : Fin 128) : EReal :=
  dense r W b q * s * d

/-- One row through the two-layer network: silu (r * W1 + b1) * W2 + b2, at feature q. -/
def mlpRow (r : Fin 128 → EReal) (W1 : S128x128.Idx → EReal) (b1 : Fin 128 → EReal) (W2 : S128x128.Idx → EReal)
    (b2 : Fin 128 → EReal) (q : Fin 128) : EReal :=
  dense (fun k => silu (dense r W1 b1 k)) W2 b2 q

theorem pay3_apply (x0 : Vec Ideal S2000x20 .f32) (x1 : Vec Ideal S20x128 .f32) (x2 : Vec Ideal S128 .f32)
    (x3 x4 : Vec Ideal S2000x128 .f32) (p : Fin 2000) (q : Fin 128) :
    k1_pay3 x0 x1 x2 x3 x4 (ix2 p q)
      = invRow (fun k => x0 (ix2 p k)) x1 (fun j => x2 (ix1 j)) (x3 (ix2 p q)) (x4 (ix2 p q)) q := by
  unfold k1_pay3 invRow
  rw [mulf_apply, mulf_apply, shapeCast_self, shapeCast_self]
  rw [tile_dense dot_S2000x20_S20x128_S2000x128_1_0_0_1_n_n rfl rfl rfl rfl
    (by dot_lhs0 dot_S2000x20_S20x128_S2000x128_1_0_0_1_n_n) (by dot_rhs1 dot_S2000x20_S20x128_S2000x128_1_0_0_1_n_n)]
  refine congrArg (fun z => z * x3 (ix2 p q) * x4 (ix2 p q)) ?_
  exact dense_congr x1 q (fun _ => rfl) (shapeCast_a_1a_apply x2 shapeCasts_S128_S1x128 (0 : Fin 1) q)

/-- The two-layer network on a tile of rows, in the accumulating spelling. -/
def tileMlp (v : FVec Ideal S2000x128 .f32) (W1 : FVec Ideal S128x128 .f32) (b1 : FVec Ideal S128 .f32)
    (W2 : FVec Ideal S128x128 .f32) (b2 : FVec Ideal S128 .f32) : FVec Ideal S2000x128 .f32 :=
  addf (matmul dot_S2000x128_S128x128_S2000x128_1_0_0_1_n_n (some .fp32)
      (mulf (addf (matmul dot_S2000x128_S128x128_S2000x128_1_0_0_1_n_n (some .fp32) v W1 (constant S2000x128 .f32 0x00000000#32))
              (broadcastTo S2000x128 (shapeCast S1x128 b1 shapeCasts_S128_S1x128) broadcasts_S1x128_S2000x128))
        (logistic (addf (matmul dot_S2000x128_S128x128_S2000x128_1_0_0_1_n_n (some .fp32) v W1 (constant S2000x128 .f32 0x00000000#32))
              (broadcastTo S2000x128 (shapeCast S1x128 b1 shapeCasts_S128_S1x128) broadcasts_S1x128_S2000x128))))
      W2 (constant S2000x128 .f32 0x00000000#32))
    (broadcastTo S2000x128 (shapeCast S1x128 b2 shapeCasts_S128_S1x128) broadcasts_S1x128_S2000x128)

/-- Entry (p, q) of the tile network is the row network of row p. -/
theorem tileMlp_apply (v : FVec Ideal S2000x128 .f32) (W1 : FVec Ideal S128x128 .f32) (b1 : FVec Ideal S128 .f32)
    (W2 : FVec Ideal S128x128 .f32) (b2 : FVec Ideal S128 .f32) (p : Fin 2000) (q : Fin 128) :
    tileMlp v W1 b1 W2 b2 (ix2 p q)
      = mlpRow (fun k => v (ix2 p k)) W1 (fun j => b1 (ix1 j)) W2 (fun j => b2 (ix1 j)) q := by
  unfold tileMlp mlpRow
  rw [tile_dense dot_S2000x128_S128x128_S2000x128_1_0_0_1_n_n rfl rfl rfl rfl
    (by dot_lhs0 dot_S2000x128_S128x128_S2000x128_1_0_0_1_n_n) (by dot_rhs1 dot_S2000x128_S128x128_S2000x128_1_0_0_1_n_n)]
  refine dense_congr W2 q (fun k => ?_) (shapeCast_a_1a_apply b2 shapeCasts_S128_S1x128 (0 : Fin 1) q)
  rw [mulf_apply]
  show _ * Ideal.logistic _ = _
  rw [tile_dense dot_S2000x128_S128x128_S2000x128_1_0_0_1_n_n rfl rfl rfl rfl
    (by dot_lhs0 dot_S2000x128_S128x128_S2000x128_1_0_0_1_n_n) (by dot_rhs1 dot_S2000x128_S128x128_S2000x128_1_0_0_1_n_n)]
  unfold silu
  rw [dense_congr (r' := fun k' => v (ix2 p k')) (b' := fun j => b1 (ix1 j)) W1 k (fun _ => rfl)
    (shapeCast_a_1a_apply b1 shapeCasts_S128_S1x128 (0 : Fin 1) k)]

theorem pay4_eq (x0 : Vec Ideal S2000x20 .f32) (x1 : Vec Ideal S20x128 .f32) (x2 : Vec Ideal S128 .f32)
    (x3 x4 : Vec Ideal S2000x128 .f32) (x5 : Vec Ideal S128x128 .f32) (x6 : Vec Ideal S128 .f32) (x7 : Vec Ideal S128x128 .f32)
    (x8 : Vec Ideal S128 .f32) :
    k1_pay4 x0 x1 x2 x3 x4 x5 x6 x7 x8 = tileMlp (k1_pay3 x0 x1 x2 x3 x4) x5 x6 x7 x8 := rfl

/-- A column of the displacement block stretched over the features reads, at (p, f), the block's entry (p, j). -/
theorem col_apply (x9 : Vec Ideal S2000x3 .f32) (off : Fin 2 → Nat) (h : S2000x3.Slices off S2000x1) (j : Fin 3)
    (hoff0 : off 0 = 0) (hoff1 : off 1 = j.val) (p : Fin 2000) (f : Fin 128) :
    broadcastTo S2000x128 (extractStridedSlice S2000x1 off x9 h) broadcasts_S2000x1_S2000x128 (ix2 p f) = x9 (ix2 p j) := by
  rw [LibRowOps.bcast_a1_ab]
  refine extractStridedSlice_apply off x9 h _ _ fun a => ?_
  match a with
  | ⟨0, _⟩ => show p.val = off 0 + p.val; omega
  | ⟨1, _⟩ => show j.val = off 1 + 0; omega

/-- The first equivariant block at (p, j·128 + f): the network's entry (p, f) times the displacement's entry (p, j). -/
theorem pay16_apply (y : FVec Ideal S2000x128 .f32) (x9 : Vec Ideal S2000x3 .f32)
    (p : Fin 2000) (j : Fin 3) (f : Fin 128) (m : Fin 384) (hm : m.val = j.val * 128 + f.val) :
    k1_pay1 y (extractStridedSlice S2000x1 ![0, 2] x9 slices_S2000x3_o0_2_S2000x1)
        (mulf y (broadcastTo S2000x128 (extractStridedSlice S2000x1 ![0, 0] x9 slices_S2000x3_o0_0_S2000x1) broadcasts_S2000x1_S2000x128))
        (mulf y (broadcastTo S2000x128 (extractStridedSlice S2000x1 ![0, 1] x9 slices_S2000x3_o0_1_S2000x1) broadcasts_S2000x1_S2000x128))
        (ix2 p m)
      = y (ix2 p f) * x9 (ix2 p j) := by
  unfold k1_pay1
  have hj : j.val = 0 ∨ j.val = 1 ∨ j.val = 2 := by omega
  have hf := f.isLt
  rcases hj with h | h | h
  · rw [LibThreeBlocks.cat3_0 _ _ _ _ p m (by omega), mulf_apply, col_apply x9 _ _ j rfl h.symm]
    exact congrArg (fun z => y (ix2 p z) * x9 (ix2 p j)) (Fin.ext (by show m.val = f.val; omega))
  · rw [LibThreeBlocks.cat3_1 _ _ _ _ p m (by omega) (by omega), mulf_apply, col_apply x9 _ _ j rfl h.symm]
    exact congrArg (fun z => y (ix2 p z) * x9 (ix2 p j)) (Fin.ext (by show m.val - 128 = f.val; omega))
  · rw [LibThreeBlocks.cat3_2 _ _ _ _ p m (by omega) (by omega), mulf_apply, col_apply x9 _ _ j rfl h.symm]
    exact congrArg (fun z => y (ix2 p z) * x9 (ix2 p j)) (Fin.ext (by show m.val - (128 + 128) = f.val; omega))

theorem out16_pay_eq (x0 : Vec Ideal S2000x20 .f32) (x1 : Vec Ideal S20x128 .f32) (x2 : Vec Ideal S128 .f32)
    (x3 x4 : Vec Ideal S2000x128 .f32) (x5 : Vec Ideal S128x128 .f32) (x6 : Vec Ideal S128 .f32) (x7 : Vec Ideal S128x128 .f32)
    (x8 : Vec Ideal S128 .f32) (x9 : Vec Ideal S2000x3 .f32) :
    k1_pay1 (k1_pay4 x0 x1 x2 x3 x4 x5 x6 x7 x8) (k1_pay5 x9) (k1_pay6 x0 x1 x2 x3 x4 x5 x6 x7 x8 x9) (k1_pay7 x0 x1 x2 x3 x4 x5 x6 x7 x8 x9)
      = k1_pay1 (k1_pay4 x0 x1 x2 x3 x4 x5 x6 x7 x8) (extractStridedSlice S2000x1 ![0, 2] x9 slices_S2000x3_o0_2_S2000x1)
        (mulf (k1_pay4 x0 x1 x2 x3 x4 x5 x6 x7 x8) (broadcastTo S2000x128 (extractStridedSlice S2000x1 ![0, 0] x9 slices_S2000x3_o0_0_S2000x1) broadcasts_S2000x1_S2000x128))
        (mulf (k1_pay4 x0 x1 x2 x3 x4 x5 x6 x7 x8) (broadcastTo S2000x128 (extractStridedSlice S2000x1 ![0, 1] x9 slices_S2000x3_o0_1_S2000x1) broadcasts_S2000x1_S2000x128)) := rfl

/-- The second equivariant block at (p, j·128 + f): the network's entry (p, f) times the gathered block's entry there. -/
theorem pay17_apply (v : FVec Ideal S2000x128 .f32) (W1 : FVec Ideal S128x128 .f32) (b1 : FVec Ideal S128 .f32)
    (W2 : FVec Ideal S128x128 .f32) (b2 : FVec Ideal S128 .f32) (z : Vec Ideal S2000x384 .f32)
    (p : Fin 2000) (j : Fin 3) (f : Fin 128) (m : Fin 384) (hm : m.val = j.val * 128 + f.val) :
    k1_pay2 v W1 b1 W2 b2 z (ix2 p m) = tileMlp v W1 b1 W2 b2 (ix2 p f) * z (ix2 p m) := by
  unfold k1_pay2
  rw [mulf_apply, shapeCast_self]
  refine congrArg (· * z (ix2 p m)) ?_
  show concatenate S2000x384 1 [⟨S2000x128, tileMlp v W1 b1 W2 b2⟩, ⟨S2000x128, tileMlp v W1 b1 W2 b2⟩, ⟨S2000x128, tileMlp v W1 b1 W2 b2⟩]
    concatenates_S2000x128_S2000x128_S2000x128_S2000x384_d1 (ix2 p m) = _
  have hj : j.val = 0 ∨ j.val = 1 ∨ j.val = 2 := by omega
  have hf := f.isLt
  rcases hj with h | h | h
  · rw [LibThreeBlocks.cat3_0 _ _ _ _ p m (by omega)]
    exact congrArg (fun z => tileMlp v W1 b1 W2 b2 (ix2 p z)) (Fin.ext (by show m.val = f.val; omega))
  · rw [LibThreeBlocks.cat3_1 _ _ _ _ p m (by omega) (by omega)]
    exact congrArg (fun z => tileMlp v W1 b1 W2 b2 (ix2 p z)) (Fin.ext (by show m.val - 128 = f.val; omega))
  · rw [LibThreeBlocks.cat3_2 _ _ _ _ p m (by omega) (by omega)]
    exact congrArg (fun z => tileMlp v W1 b1 W2 b2 (ix2 p z)) (Fin.ext (by show m.val - (128 + 128) = f.val; omega))
/-! ## The reference's stages at an entry -/

theorem rowE_apply (b : Cert.Spec.AB) (e : Fin 200000) (q : Fin 128) : Cert.Spec.rowE b (ix2 e q) = b (ix1 q) := by
  unfold Cert.Spec.rowE
  rw [LibCastForms.bcast_1b_ab_apply, LibCastForms.bcast_row]

theorem linE_apply (x : Cert.Spec.AD) (W : Cert.Spec.AW20) (b : Cert.Spec.AB) (e : Fin 200000) (q : Fin 128) :
    Cert.Spec.linE x W b (ix2 e q) = dense (fun k => x (ix2 e k)) W (fun j => b (ix1 j)) q := by
  unfold Cert.Spec.linE Cert.Spec.rowE
  rw [host_dense Cert.ReferenceIdeal.dot_S200000x20_S20x128_S200000x128_1_0_0_1_n_n rfl rfl rfl rfl
    (by dot_lhs0 Cert.ReferenceIdeal.dot_S200000x20_S20x128_S200000x128_1_0_0_1_n_n)
    (by dot_rhs1 Cert.ReferenceIdeal.dot_S200000x20_S20x128_S200000x128_1_0_0_1_n_n)]
  exact dense_congr W q (fun _ => rfl) (LibCastForms.bcast_row b _ (0 : Fin 1) q)

theorem invE_apply (x : Cert.Spec.AD) (W : Cert.Spec.AW20) (b : Cert.Spec.AB) (hs hd : Cert.Spec.AE) (e : Fin 200000) (q : Fin 128) :
    Cert.Spec.invE x W b hs hd (ix2 e q)
      = invRow (fun k => x (ix2 e k)) W (fun j => b (ix1 j)) (hs (ix2 e q)) (hd (ix2 e q)) q := by
  unfold Cert.Spec.invE invRow
  rw [mulf_apply, mulf_apply, linE_apply]

theorem siluE_apply (t : Cert.Spec.AE) (i : Cert.ReferenceIdeal.S200000x128.Idx) : Cert.Spec.siluE t i = silu (t i) := by
  unfold Cert.Spec.siluE silu
  rw [mulf_apply, hostDivf_apply, addf_apply, broadcastInDim_scalar_apply, constant_apply, Ideal.ofBits_one_f32]
  rfl

theorem mlpE_apply (x : Cert.Spec.AE) (W1 : Cert.Spec.AW) (b1 : Cert.Spec.AB) (W2 : Cert.Spec.AW) (b2 : Cert.Spec.AB)
    (e : Fin 200000) (q : Fin 128) :
    Cert.Spec.mlpE x W1 b1 W2 b2 (ix2 e q)
      = mlpRow (fun k => x (ix2 e k)) W1 (fun j => b1 (ix1 j)) W2 (fun j => b2 (ix1 j)) q := by
  unfold Cert.Spec.mlpE Cert.Spec.rowE mlpRow
  rw [host_dense Cert.ReferenceIdeal.dot_S200000x128_S128x128_S200000x128_1_0_0_1_n_n rfl rfl rfl rfl
    (by dot_lhs0 Cert.ReferenceIdeal.dot_S200000x128_S128x128_S200000x128_1_0_0_1_n_n)
    (by dot_rhs1 Cert.ReferenceIdeal.dot_S200000x128_S128x128_S200000x128_1_0_0_1_n_n)]
  refine dense_congr W2 q (fun k => ?_) (LibCastForms.bcast_row b2 _ (0 : Fin 1) q)
  rw [siluE_apply]
  refine congrArg silu ?_
  rw [host_dense Cert.ReferenceIdeal.dot_S200000x128_S128x128_S200000x128_1_0_0_1_n_n rfl rfl rfl rfl
    (by dot_lhs0 Cert.ReferenceIdeal.dot_S200000x128_S128x128_S200000x128_1_0_0_1_n_n)
    (by dot_rhs1 Cert.ReferenceIdeal.dot_S200000x128_S128x128_S200000x128_1_0_0_1_n_n)]
  exact dense_congr W1 k (fun _ => rfl) (LibCastForms.bcast_row b1 _ (0 : Fin 1) k)

theorem stretchE_apply (y : Cert.Spec.AE) (e : Fin 200000) (j : Fin 3) (f : Fin 128) :
    Cert.Spec.stretchE y (ix3 e j f) = y (ix2 e f) := by
  unfold Cert.Spec.stretchE
  refine (broadcastInDim_apply _ _ _ _ (ix3 e (0 : Fin 1) f) fun a => ?_).trans
    (broadcastInDim_apply _ _ _ _ (ix2 e f) fun a => ?_)
  · match a with
    | ⟨0, _⟩ => rfl
    | ⟨1, _⟩ => rfl
    | ⟨2, _⟩ => rfl
  · match a with
    | ⟨0, _⟩ => rfl
    | ⟨1, _⟩ => rfl

theorem eq1E_apply (y : Cert.Spec.AE) (de : Cert.Spec.AE3c) (e : Fin 200000) (j : Fin 3) (f : Fin 128) :
    Cert.Spec.eq1E y de (ix3 e j f) = y (ix2 e f) * de (ix2 e j) := by
  unfold Cert.Spec.eq1E
  rw [mulf_apply, stretchE_apply]
  refine congrArg (y (ix2 e f) * ·) ?_
  refine (broadcastInDim_apply _ _ _ _ (ix3 e j (0 : Fin 1)) fun a => ?_).trans
    (broadcastInDim_apply _ _ _ _ (ix2 e j) fun a => ?_)
  · match a with
    | ⟨0, _⟩ => rfl
    | ⟨1, _⟩ => rfl
    | ⟨2, _⟩ => rfl
  · match a with
    | ⟨0, _⟩ => rfl
    | ⟨1, _⟩ => rfl

/-! ## From blocks to arrays -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: a row-blocked window's block at point t is block t along the rows;
    a weight's or a bias's block is the whole array. -/
theorem idx_rows : ∀ t : Fin cfg1.N,
    (win1_0.index t (0 : Fin 2) = t.val ∧ win1_0.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_9.index t (0 : Fin 2) = t.val ∧ win1_9.index t (1 : Fin 2) = 0)
    ∧ (win1_14.index t (0 : Fin 2) = t.val ∧ win1_14.index t (1 : Fin 2) = 0)
    ∧ (win1_15.index t (0 : Fin 2) = t.val ∧ win1_15.index t (1 : Fin 2) = 0)
    ∧ (win1_16.index t (0 : Fin 2) = t.val ∧ win1_16.index t (1 : Fin 2) = 0)
    ∧ (win1_17.index t (0 : Fin 2) = t.val ∧ win1_17.index t (1 : Fin 2) = 0) :=
  (by decide +kernel : ∀ t : Fin grid1.N, _)

theorem idx_whole : ∀ t : Fin cfg1.N,
    (win1_1.index t (0 : Fin 2) = 0 ∧ win1_1.index t (1 : Fin 2) = 0)
    ∧ win1_2.index t (0 : Fin 1) = 0
    ∧ (win1_5.index t (0 : Fin 2) = 0 ∧ win1_5.index t (1 : Fin 2) = 0)
    ∧ win1_6.index t (0 : Fin 1) = 0
    ∧ (win1_7.index t (0 : Fin 2) = 0 ∧ win1_7.index t (1 : Fin 2) = 0)
    ∧ win1_8.index t (0 : Fin 1) = 0
    ∧ (win1_10.index t (0 : Fin 2) = 0 ∧ win1_10.index t (1 : Fin 2) = 0)
    ∧ win1_11.index t (0 : Fin 1) = 0
    ∧ (win1_12.index t (0 : Fin 2) = 0 ∧ win1_12.index t (1 : Fin 2) = 0)
    ∧ win1_13.index t (0 : Fin 1) = 0 :=
  (by decide +kernel : ∀ t : Fin grid1.N, _)

section Reads
variable (t : Fin cfg1.N)

/-! Block t of a row-blocked array holds its rows 2000 t … 2000 t + 1999. -/

theorem read0 (A : S200000x20.Idx → EReal) (p : Fin 2000) (k : Fin 20) (e : Fin 200000) (he : e.val = t.val * 2000 + p.val) :
    (((cfg1.win 0).blk t).view.read (Elt Ideal) A : Vec Ideal S2000x20 .f32) (ix2 p k) = A (ix2 e k) := by
  obtain ⟨h0, h1⟩ := (idx_rows t).1
  rw [View.read_apply]
  show A _ = _
  refine congrArg A ?_
  funext a
  apply Fin.ext
  match a with
  | ⟨0, _⟩ => show win1_0.index t 0 * 2000 + 1 * p.val = e.val; rw [h0, he]; omega
  | ⟨1, _⟩ => show win1_0.index t 1 * 20 + 1 * k.val = k.val; rw [h1]; omega

theorem read3 (A : S200000x128.Idx → EReal) (p : Fin 2000) (k : Fin 128) (e : Fin 200000) (he : e.val = t.val * 2000 + p.val) :
    (((cfg1.win 3).blk t).view.read (Elt Ideal) A : Vec Ideal S2000x128 .f32) (ix2 p k) = A (ix2 e k) := by
  obtain ⟨h0, h1⟩ := (idx_rows t).2.1
  rw [View.read_apply]
  show A _ = _
  refine congrArg A ?_
  funext a
  apply Fin.ext
  match a with
  | ⟨0, _⟩ => show win1_3.index t 0 * 2000 + 1 * p.val = e.val; rw [h0, he]; omega
  | ⟨1, _⟩ => show win1_3.index t 1 * 128 + 1 * k.val = k.val; rw [h1]; omega

theorem read4 (A : S200000x128.Idx → EReal) (p : Fin 2000) (k : Fin 128) (e : Fin 200000) (he : e.val = t.val * 2000 + p.val) :
    (((cfg1.win 4).blk t).view.read (Elt Ideal) A : Vec Ideal S2000x128 .f32) (ix2 p k) = A (ix2 e k) := by
  obtain ⟨h0, h1⟩ := (idx_rows t).2.2.1
  rw [View.read_apply]
  show A _ = _
  refine congrArg A ?_
  funext a
  apply Fin.ext
  match a with
  | ⟨0, _⟩ => show win1_4.index t 0 * 2000 + 1 * p.val = e.val; rw [h0, he]; omega
  | ⟨1, _⟩ => show win1_4.index t 1 * 128 + 1 * k.val = k.val; rw [h1]; omega

theorem read9 (A : S200000x3.Idx → EReal) (p : Fin 2000) (k : Fin 3) (e : Fin 200000) (he : e.val = t.val * 2000 + p.val) :
    (((cfg1.win 9).blk t).view.read (Elt Ideal) A : Vec Ideal S2000x3 .f32) (ix2 p k) = A (ix2 e k) := by
  obtain ⟨h0, h1⟩ := (idx_rows t).2.2.2.1
  rw [View.read_apply]
  show A _ = _
  refine congrArg A ?_
  funext a
  apply Fin.ext
  match a with
  | ⟨0, _⟩ => show win1_9.index t 0 * 2000 + 1 * p.val = e.val; rw [h0, he]; omega
  | ⟨1, _⟩ => show win1_9.index t 1 * 3 + 1 * k.val = k.val; rw [h1]; omega

theorem read14 (A : S200000x384.Idx → EReal) (p : Fin 2000) (k : Fin 384) (e : Fin 200000) (he : e.val = t.val * 2000 + p.val) :
    (((cfg1.win 14).blk t).view.read (Elt Ideal) A : Vec Ideal S2000x384 .f32) (ix2 p k) = A (ix2 e k) := by
  obtain ⟨h0, h1⟩ := (idx_rows t).2.2.2.2.1
  rw [View.read_apply]
  show A _ = _
  refine congrArg A ?_
  funext a
  apply Fin.ext
  match a with
  | ⟨0, _⟩ => show win1_14.index t 0 * 2000 + 1 * p.val = e.val; rw [h0, he]; omega
  | ⟨1, _⟩ => show win1_14.index t 1 * 384 + 1 * k.val = k.val; rw [h1]; omega

theorem read15 (A : S200000x128.Idx → EReal) (p : Fin 2000) (k : Fin 128) (e : Fin 200000) (he : e.val = t.val * 2000 + p.val) :
    (((cfg1.win 15).blk t).view.read (Elt Ideal) A : Vec Ideal S2000x128 .f32) (ix2 p k) = A (ix2 e k) := by
  obtain ⟨h0, h1⟩ := (idx_rows t).2.2.2.2.2.1
  rw [View.read_apply]
  show A _ = _
  refine congrArg A ?_
  funext a
  apply Fin.ext
  match a with
  | ⟨0, _⟩ => show win1_15.index t 0 * 2000 + 1 * p.val = e.val; rw [h0, he]; omega
  | ⟨1, _⟩ => show win1_15.index t 1 * 128 + 1 * k.val = k.val; rw [h1]; omega

theorem read16 (A : S200000x384.Idx → EReal) (p : Fin 2000) (k : Fin 384) (e : Fin 200000) (he : e.val = t.val * 2000 + p.val) :
    (((cfg1.win 16).blk t).view.read (Elt Ideal) A : Vec Ideal S2000x384 .f32) (ix2 p k) = A (ix2 e k) := by
  obtain ⟨h0, h1⟩ := (idx_rows t).2.2.2.2.2.2.1
  rw [View.read_apply]
  show A _ = _
  refine congrArg A ?_
  funext a
  apply Fin.ext
  match a with
  | ⟨0, _⟩ => show win1_16.index t 0 * 2000 + 1 * p.val = e.val; rw [h0, he]; omega
  | ⟨1, _⟩ => show win1_16.index t 1 * 384 + 1 * k.val = k.val; rw [h1]; omega

theorem read17 (A : S200000x384.Idx → EReal) (p : Fin 2000) (k : Fin 384) (e : Fin 200000) (he : e.val = t.val * 2000 + p.val) :
    (((cfg1.win 17).blk t).view.read (Elt Ideal) A : Vec Ideal S2000x384 .f32) (ix2 p k) = A (ix2 e k) := by
  obtain ⟨h0, h1⟩ := (idx_rows t).2.2.2.2.2.2.2
  rw [View.read_apply]
  show A _ = _
  refine congrArg A ?_
  funext a
  apply Fin.ext
  match a with
  | ⟨0, _⟩ => show win1_17.index t 0 * 2000 + 1 * p.val = e.val; rw [h0, he]; omega
  | ⟨1, _⟩ => show win1_17.index t 1 * 384 + 1 * k.val = k.val; rw [h1]; omega

/-! A weight's or a bias's block is the whole array. -/

theorem read1 (A : S20x128.Idx → EReal) :
    (((cfg1.win 1).blk t).view.read (Elt Ideal) A : Vec Ideal S20x128 .f32) = A := by
  obtain ⟨h0, h1⟩ := (idx_whole t).1
  funext y
  rw [View.read_apply]
  show A _ = _
  refine congrArg A ?_
  funext a
  apply Fin.ext
  match a with
  | ⟨0, _⟩ => show win1_1.index t 0 * 20 + 1 * (y 0).val = (y 0).val; rw [h0]; omega
  | ⟨1, _⟩ => show win1_1.index t 1 * 128 + 1 * (y 1).val = (y 1).val; rw [h1]; omega

theorem read5 (A : S128x128.Idx → EReal) :
    (((cfg1.win 5).blk t).view.read (Elt Ideal) A : Vec Ideal S128x128 .f32) = A := by
  obtain ⟨h0, h1⟩ := (idx_whole t).2.2.1
  funext y
  rw [View.read_apply]
  show A _ = _
  refine congrArg A ?_
  funext a
  apply Fin.ext
  match a with
  | ⟨0, _⟩ => show win1_5.index t 0 * 128 + 1 * (y 0).val = (y 0).val; rw [h0]; omega
  | ⟨1, _⟩ => show win1_5.index t 1 * 128 + 1 * (y 1).val = (y 1).val; rw [h1]; omega

theorem read7 (A : S128x128.Idx → EReal) :
    (((cfg1.win 7).blk t).view.read (Elt Ideal) A : Vec Ideal S128x128 .f32) = A := by
  obtain ⟨h0, h1⟩ := (idx_whole t).2.2.2.2.1
  funext y
  rw [View.read_apply]
  show A _ = _
  refine congrArg A ?_
  funext a
  apply Fin.ext
  match a with
  | ⟨0, _⟩ => show win1_7.index t 0 * 128 + 1 * (y 0).val = (y 0).val; rw [h0]; omega
  | ⟨1, _⟩ => show win1_7.index t 1 * 128 + 1 * (y 1).val = (y 1).val; rw [h1]; omega

theorem read10 (A : S128x128.Idx → EReal) :
    (((cfg1.win 10).blk t).view.read (Elt Ideal) A : Vec Ideal S128x128 .f32) = A := by
  obtain ⟨h0, h1⟩ := (idx_whole t).2.2.2.2.2.2.1
  funext y
  rw [View.read_apply]
  show A _ = _
  refine congrArg A ?_
  funext a
  apply Fin.ext
  match a with
  | ⟨0, _⟩ => show win1_10.index t 0 * 128 + 1 * (y 0).val = (y 0).val; rw [h0]; omega
  | ⟨1, _⟩ => show win1_10.index t 1 * 128 + 1 * (y 1).val = (y 1).val; rw [h1]; omega

theorem read12 (A : S128x128.Idx → EReal) :
    (((cfg1.win 12).blk t).view.read (Elt Ideal) A : Vec Ideal S128x128 .f32) = A := by
  obtain ⟨h0, h1⟩ := (idx_whole t).2.2.2.2.2.2.2.2.1
  funext y
  rw [View.read_apply]
  show A _ = _
  refine congrArg A ?_
  funext a
  apply Fin.ext
  match a with
  | ⟨0, _⟩ => show win1_12.index t 0 * 128 + 1 * (y 0).val = (y 0).val; rw [h0]; omega
  | ⟨1, _⟩ => show win1_12.index t 1 * 128 + 1 * (y 1).val = (y 1).val; rw [h1]; omega

theorem read2 (A : S128.Idx → EReal) :
    (((cfg1.win 2).blk t).view.read (Elt Ideal) A : Vec Ideal S128 .f32) = A := by
  have h0 := (idx_whole t).2.1
  funext y
  rw [View.read_apply]
  show A _ = _
  refine congrArg A ?_
  funext a
  apply Fin.ext
  match a with
  | ⟨0, _⟩ => show win1_2.index t 0 * 128 + 1 * (y 0).val = (y 0).val; rw [h0]; omega

theorem read6 (A : S128.Idx → EReal) :
    (((cfg1.win 6).blk t).view.read (Elt Ideal) A : Vec Ideal S128 .f32) = A := by
  have h0 := (idx_whole t).2.2.2.1
  funext y
  rw [View.read_apply]
  show A _ = _
  refine congrArg A ?_
  funext a
  apply Fin.ext
  match a with
  | ⟨0, _⟩ => show win1_6.index t 0 * 128 + 1 * (y 0).val = (y 0).val; rw [h0]; omega

theorem read8 (A : S128.Idx → EReal) :
    (((cfg1.win 8).blk t).view.read (Elt Ideal) A : Vec Ideal S128 .f32) = A := by
  have h0 := (idx_whole t).2.2.2.2.2.1
  funext y
  rw [View.read_apply]
  show A _ = _
  refine congrArg A ?_
  funext a
  apply Fin.ext
  match a with
  | ⟨0, _⟩ => show win1_8.index t 0 * 128 + 1 * (y 0).val = (y 0).val; rw [h0]; omega

theorem read11 (A : S128.Idx → EReal) :
    (((cfg1.win 11).blk t).view.read (Elt Ideal) A : Vec Ideal S128 .f32) = A := by
  have h0 := (idx_whole t).2.2.2.2.2.2.2.1
  funext y
  rw [View.read_apply]
  show A _ = _
  refine congrArg A ?_
  funext a
  apply Fin.ext
  match a with
  | ⟨0, _⟩ => show win1_11.index t 0 * 128 + 1 * (y 0).val = (y 0).val; rw [h0]; omega

theorem read13 (A : S128.Idx → EReal) :
    (((cfg1.win 13).blk t).view.read (Elt Ideal) A : Vec Ideal S128 .f32) = A := by
  have h0 := (idx_whole t).2.2.2.2.2.2.2.2.2
  funext y
  rw [View.read_apply]
  show A _ = _
  refine congrArg A ?_
  funext a
  apply Fin.ext
  match a with
  | ⟨0, _⟩ => show win1_13.index t 0 * 128 + 1 * (y 0).val = (y 0).val; rw [h0]; omega

end Reads

/-! ## One point's stores as blocks of the reference's arrays -/

/-- The tile network of rows that are rows of Y is the reference's network of Y, row by row. -/
theorem tileMlp_pt (v : FVec Ideal S2000x128 .f32) (Y : Cert.Spec.AE) (W1 : Cert.Spec.AW) (b1 : Cert.Spec.AB) (W2 : Cert.Spec.AW)
    (b2 : Cert.Spec.AB) (p : Fin 2000) (q : Fin 128) (e : Fin 200000) (hv : ∀ k, v (ix2 p k) = Y (ix2 e k)) :
    tileMlp v W1 b1 W2 b2 (ix2 p q) = Cert.Spec.mlpE Y W1 b1 W2 b2 (ix2 e q) := by
  rw [tileMlp_apply, mlpE_apply, show (fun k => v (ix2 p k)) = fun k => Y (ix2 e k) from funext hv]

section Points
variable (t : Fin cfg1.N) (A0 : Cert.Spec.AD) (A1 : Cert.Spec.AW20) (A2 : Cert.Spec.AB) (A3 A4 : Cert.Spec.AE)
  (x0 : Vec Ideal S2000x20 .f32) (x1 : Vec Ideal S20x128 .f32) (x2 : Vec Ideal S128 .f32) (x3 x4 : Vec Ideal S2000x128 .f32)
  (h0 : ∀ (p : Fin 2000) (k : Fin 20) (e : Fin 200000), e.val = t.val * 2000 + p.val → x0 (ix2 p k) = A0 (ix2 e k))
  (h1 : x1 = A1) (h2 : x2 = A2)
  (h3 : ∀ (p : Fin 2000) (k : Fin 128) (e : Fin 200000), e.val = t.val * 2000 + p.val → x3 (ix2 p k) = A3 (ix2 e k))
  (h4 : ∀ (p : Fin 2000) (k : Fin 128) (e : Fin 200000), e.val = t.val * 2000 + p.val → x4 (ix2 p k) = A4 (ix2 e k))

include h0 h1 h2 h3 h4 in
/-- The invariant message's tile at (p, q) is the reference's invariant message at (2000 t + p, q), once the row blocks
    loaded are blocks t of their arrays and the weights loaded are the arrays themselves. -/
theorem pay3_pt (p : Fin 2000) (q : Fin 128) (e : Fin 200000) (he : e.val = t.val * 2000 + p.val) :
    k1_pay3 x0 x1 x2 x3 x4 (ix2 p q) = Cert.Spec.invE A0 A1 A2 A3 A4 (ix2 e q) := by
  subst h1 h2
  rw [pay3_apply, invE_apply]
  unfold invRow
  rw [h3 p q e he, h4 p q e he]
  exact congrArg (fun z => z * _ * _) (dense_congr x1 q (fun k => h0 p k e he) rfl)

include h0 h1 h2 h3 h4 in
/-- What point t stores into window 15's buffer is block t of the reference's invariant message. -/
theorem blk15 :
    k1_pay3 x0 x1 x2 x3 x4
      = (((cfg1.win 15).blk t).view.read (Elt Ideal) (Cert.Spec.invE A0 A1 A2 A3 A4) : Vec Ideal S2000x128 .f32) := by
  funext j
  obtain ⟨p, q, rfl⟩ : ∃ (p : Fin 2000) (q : Fin 128), j = ix2 p q := ⟨j 0, j 1, eq_ix2 j⟩
  have ht : t.val < 100 := t.isLt
  have hp := p.isLt
  rw [read15 t _ p q ⟨t.val * 2000 + p.val, by omega⟩ rfl]
  exact pay3_pt t A0 A1 A2 A3 A4 x0 x1 x2 x3 x4 h0 h1 h2 h3 h4 p q _ rfl

variable (A9 : Cert.Spec.AE3c) (x9 : Vec Ideal S2000x3 .f32)
  (h9 : ∀ (p : Fin 2000) (k : Fin 3) (e : Fin 200000), e.val = t.val * 2000 + p.val → x9 (ix2 p k) = A9 (ix2 e k))
  (B1 : Cert.Spec.AW) (c1 : Cert.Spec.AB) (B2 : Cert.Spec.AW) (c2 : Cert.Spec.AB)
  (w1 : Vec Ideal S128x128 .f32) (d1 : Vec Ideal S128 .f32) (w2 : Vec Ideal S128x128 .f32) (d2 : Vec Ideal S128 .f32)
  (hw1 : w1 = B1) (hd1 : d1 = c1) (hw2 : w2 = B2) (hd2 : d2 = c2)

include h0 h1 h2 h3 h4 h9 hw1 hd1 hw2 hd2 in
/-- What point t stores into window 16's buffer is block t of the reference's first equivariant message, its two
    trailing axes folded into one. -/
theorem blk16 :
    k1_pay1 (k1_pay4 x0 x1 x2 x3 x4 w1 d1 w2 d2) (k1_pay5 x9) (k1_pay6 x0 x1 x2 x3 x4 w1 d1 w2 d2 x9) (k1_pay7 x0 x1 x2 x3 x4 w1 d1 w2 d2 x9)
      = (((cfg1.win 16).blk t).view.read (Elt Ideal)
          (shapeCast S200000x384 (Cert.Spec.eq1E (Cert.Spec.mlpE (Cert.Spec.invE A0 A1 A2 A3 A4) B1 c1 B2 c2) A9)
            shapeCasts_S200000x3x128_S200000x384) : Vec Ideal S2000x384 .f32) := by
  subst hw1 hd1 hw2 hd2
  funext j
  obtain ⟨p, m, rfl⟩ : ∃ (p : Fin 2000) (m : Fin 384), j = ix2 p m := ⟨j 0, j 1, eq_ix2 j⟩
  have ht : t.val < 100 := t.isLt
  have hp := p.isLt
  have hm := m.isLt
  rw [read16 t _ p m ⟨t.val * 2000 + p.val, by omega⟩ rfl, out16_pay_eq,
    pay16_apply _ x9 p ⟨m.val / 128, by omega⟩ ⟨m.val % 128, by omega⟩ m (by show m.val = m.val / 128 * 128 + m.val % 128; omega),
    Idealize.ShloMosaic.TableRows.fold_last_apply _ _ (by rfl) ⟨t.val * 2000 + p.val, by omega⟩ ⟨m.val / 128, by omega⟩ ⟨m.val % 128, by omega⟩ m
      (by show m.val = m.val / 128 * 128 + m.val % 128; omega),
    eq1E_apply, pay4_eq,
    tileMlp_pt _ (Cert.Spec.invE A0 A1 A2 A3 A4) w1 d1 w2 d2 p _ ⟨t.val * 2000 + p.val, by omega⟩
      (fun k => pay3_pt t A0 A1 A2 A3 A4 x0 x1 x2 x3 x4 h0 h1 h2 h3 h4 p k _ rfl),
    h9 p _ ⟨t.val * 2000 + p.val, by omega⟩ rfl]

variable (Y : Cert.Spec.AE3) (x14 : Vec Ideal S2000x384 .f32)
  (h14 : ∀ (p : Fin 2000) (k : Fin 384) (e : Fin 200000), e.val = t.val * 2000 + p.val →
    x14 (ix2 p k) = shapeCast S200000x384 Y shapeCasts_S200000x3x128_S200000x384 (ix2 e k))

include h0 h1 h2 h3 h4 h14 hw1 hd1 hw2 hd2 in
/-- What point t stores into window 17's buffer is block t of the reference's second network of the invariant message,
    laid along the three directions and multiplied by the array whose folding the region found in window 14. -/
theorem blk17 :
    k1_pay2 (k1_pay3 x0 x1 x2 x3 x4) w1 d1 w2 d2 x14
      = (((cfg1.win 17).blk t).view.read (Elt Ideal)
          (shapeCast S200000x384 (mulf (Cert.Spec.stretchE (Cert.Spec.mlpE (Cert.Spec.invE A0 A1 A2 A3 A4) B1 c1 B2 c2)) Y)
            shapeCasts_S200000x3x128_S200000x384) : Vec Ideal S2000x384 .f32) := by
  subst hw1 hd1 hw2 hd2
  funext j
  obtain ⟨p, m, rfl⟩ : ∃ (p : Fin 2000) (m : Fin 384), j = ix2 p m := ⟨j 0, j 1, eq_ix2 j⟩
  have ht : t.val < 100 := t.isLt
  have hp := p.isLt
  have hm := m.isLt
  rw [read17 t _ p m ⟨t.val * 2000 + p.val, by omega⟩ rfl,
    pay17_apply _ w1 d1 w2 d2 x14 p ⟨m.val / 128, by omega⟩ ⟨m.val % 128, by omega⟩ m (by show m.val = m.val / 128 * 128 + m.val % 128; omega),
    Idealize.ShloMosaic.TableRows.fold_last_apply _ _ (by rfl) ⟨t.val * 2000 + p.val, by omega⟩ ⟨m.val / 128, by omega⟩ ⟨m.val % 128, by omega⟩ m
      (by show m.val = m.val / 128 * 128 + m.val % 128; omega),
    mulf_apply, stretchE_apply,
    tileMlp_pt _ (Cert.Spec.invE A0 A1 A2 A3 A4) w1 d1 w2 d2 p _ ⟨t.val * 2000 + p.val, by omega⟩
      (fun k => pay3_pt t A0 A1 A2 A3 A4 x0 x1 x2 x3 x4 h0 h1 h2 h3 h4 p k _ rfl),
    h14 p m ⟨t.val * 2000 + p.val, by omega⟩ rfl,
    Idealize.ShloMosaic.TableRows.fold_last_apply Y _ (by rfl) ⟨t.val * 2000 + p.val, by omega⟩ ⟨m.val / 128, by omega⟩ ⟨m.val % 128, by omega⟩ m
      (by show m.val = m.val / 128 * 128 + m.val % 128; omega)]

end Points

/-! ## The invariant message: output window 15 -/

/-- An index of the array is in point t's block iff each coordinate is in the block's range on its axis. -/
theorem mem_blk15 (t : Fin cfg1.N) (i : S200000x128.Idx) :
    i ∈ ((cfg1.win 15).blk t).view.set ↔ ∀ a : Fin 2, win1_15.index t a * S2000x128.size a ≤ (i a).val ∧ (i a).val < win1_15.index t a * S2000x128.size a + S2000x128.size a := by
  show i ∈ ((View.whole main_v27_0).slice (win1_15.rect t)).set ↔ _
  rw [View.set_slice_whole, Rect.mem_set_unit]
  exact Iff.rfl

/-- Row r of the array is in the block of point r / 2000. -/
theorem cover15 (i : S200000x128.Idx) :
    ∃ t : Fin cfg1.N, (cfg1.win 15).flush t = true ∧ i ∈ ((cfg1.win 15).blk t).view.set := by
  have hi0 : (i 0).val < 200000 := (i 0).isLt
  have hi1 : (i 1).val < 128 := (i 1).isLt
  have hlt : (i 0).val / 2000 < cfg1.N := by show (i 0).val / 2000 < 100; omega
  refine ⟨⟨(i 0).val / 2000, hlt⟩, flush1_15 _, ?_⟩
  rw [mem_blk15]
  obtain ⟨h0, h1⟩ := (idx_rows ⟨(i 0).val / 2000, hlt⟩).2.2.2.2.2.1
  intro a
  match a with
  | ⟨0, _⟩ =>
    show win1_15.index ⟨(i 0).val / 2000, hlt⟩ 0 * 2000 ≤ (i 0).val ∧ (i 0).val < win1_15.index ⟨(i 0).val / 2000, hlt⟩ 0 * 2000 + 2000
    rw [h0]; show (i 0).val / 2000 * 2000 ≤ (i 0).val ∧ (i 0).val < (i 0).val / 2000 * 2000 + 2000; omega
  | ⟨1, _⟩ =>
    show win1_15.index ⟨(i 0).val / 2000, hlt⟩ 1 * 128 ≤ (i 1).val ∧ (i 1).val < win1_15.index ⟨(i 0).val / 2000, hlt⟩ 1 * 128 + 128
    rw [h1]; omega

section Finals
variable (V : (c : Dev nD) → (b : Ref sig .tc) → Buf (Elt Ideal) ((c : Thread nD τ).loc b)) (c : Dev nD)

/-- What point t writes back from window 15 is block t of the invariant message of the arrays the region finds. -/
theorem flushed15_eq (t : Fin cfg1.N) :
    (dat1 (F := Ideal) V c).flushed 15 t
      = ((cfg1.win 15).blk t).view.read (Elt Ideal)
          (Cert.Spec.invE (V c (Pipeline.arrRef spec1 0)) (V c (Pipeline.arrRef spec1 1)) (V c (Pipeline.arrRef spec1 2))
            (V c (Pipeline.arrRef spec1 3)) (V c (Pipeline.arrRef spec1 4))) := by
  show (cfg1.win 15).cut (grid1.coords t) ((dat1 V c).after 15 t) = _
  rw [after1_15]
  unfold out1_15
  rw [View.canon_unit_zero hz2]
  simp only [View.ld_unit_zero (S := S2000x20) hz2, View.ld_unit_zero (S := S20x128) hz2, View.ld_unit_zero (S := S128) hz1,
    View.ld_unit_zero (S := S2000x128) hz2]
  exact blk15 t _ _ _ _ _ _ _ _ _ _ (read0 t _) (read1 t _) (read2 t _) (read3 t _) (read4 t _)

/-- The invariant message's array after the region: the reference's invariant message of the region's input arrays. -/
theorem final15 :
    (dat1 (F := Ideal) V c).arrAt 15 cfg1.N
      = Cert.Spec.invE (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 15 _ (fun t _ => flushed15_eq V c t) cover15

end Finals

/-- An index of window 16's array is in point t's block iff each coordinate is in the block's range on its axis. -/
theorem mem_blk16 (t : Fin cfg1.N) (i : S200000x384.Idx) :
    i ∈ ((cfg1.win 16).blk t).view.set ↔ ∀ a : Fin 2, win1_16.index t a * S2000x384.size a ≤ (i a).val ∧ (i a).val < win1_16.index t a * S2000x384.size a + S2000x384.size a := by
  show i ∈ ((View.whole main_v27_1).slice (win1_16.rect t)).set ↔ _
  rw [View.set_slice_whole, Rect.mem_set_unit]
  exact Iff.rfl

/-- Row r of window 16's array is in the block of point r / 2000. -/
theorem cover16 (i : S200000x384.Idx) :
    ∃ t : Fin cfg1.N, (cfg1.win 16).flush t = true ∧ i ∈ ((cfg1.win 16).blk t).view.set := by
  have hi0 : (i 0).val < 200000 := (i 0).isLt
  have hi1 : (i 1).val < 384 := (i 1).isLt
  have hlt : (i 0).val / 2000 < cfg1.N := by show (i 0).val / 2000 < 100; omega
  refine ⟨⟨(i 0).val / 2000, hlt⟩, flush1_16 _, ?_⟩
  rw [mem_blk16]
  obtain ⟨h0, h1⟩ := (idx_rows ⟨(i 0).val / 2000, hlt⟩).2.2.2.2.2.2.1
  intro a
  match a with
  | ⟨0, _⟩ =>
    show win1_16.index ⟨(i 0).val / 2000, hlt⟩ 0 * 2000 ≤ (i 0).val ∧ (i 0).val < win1_16.index ⟨(i 0).val / 2000, hlt⟩ 0 * 2000 + 2000
    rw [h0]; show (i 0).val / 2000 * 2000 ≤ (i 0).val ∧ (i 0).val < (i 0).val / 2000 * 2000 + 2000; omega
  | ⟨1, _⟩ =>
    show win1_16.index ⟨(i 0).val / 2000, hlt⟩ 1 * 384 ≤ (i 1).val ∧ (i 1).val < win1_16.index ⟨(i 0).val / 2000, hlt⟩ 1 * 384 + 384
    rw [h1]; omega

/-- An index of window 17's array is in point t's block iff each coordinate is in the block's range on its axis. -/
theorem mem_blk17 (t : Fin cfg1.N) (i : S200000x384.Idx) :
    i ∈ ((cfg1.win 17).blk t).view.set ↔ ∀ a : Fin 2, win1_17.index t a * S2000x384.size a ≤ (i a).val ∧ (i a).val < win1_17.index t a * S2000x384.size a + S2000x384.size a := by
  show i ∈ ((View.whole main_v27_2).slice (win1_17.rect t)).set ↔ _
  rw [View.set_slice_whole, Rect.mem_set_unit]
  exact Iff.rfl

/-- Row r of window 17's array is in the block of point r / 2000. -/
theorem cover17 (i : S200000x384.Idx) :
    ∃ t : Fin cfg1.N, (cfg1.win 17).flush t = true ∧ i ∈ ((cfg1.win 17).blk t).view.set := by
  have hi0 : (i 0).val < 200000 := (i 0).isLt
  have hi1 : (i 1).val < 384 := (i 1).isLt
  have hlt : (i 0).val / 2000 < cfg1.N := by show (i 0).val / 2000 < 100; omega
  refine ⟨⟨(i 0).val / 2000, hlt⟩, flush1_17 _, ?_⟩
  rw [mem_blk17]
  obtain ⟨h0, h1⟩ := (idx_rows ⟨(i 0).val / 2000, hlt⟩).2.2.2.2.2.2.2
  intro a
  match a with
  | ⟨0, _⟩ =>
    show win1_17.index ⟨(i 0).val / 2000, hlt⟩ 0 * 2000 ≤ (i 0).val ∧ (i 0).val < win1_17.index ⟨(i 0).val / 2000, hlt⟩ 0 * 2000 + 2000
    rw [h0]; show (i 0).val / 2000 * 2000 ≤ (i 0).val ∧ (i 0).val < (i 0).val / 2000 * 2000 + 2000; omega
  | ⟨1, _⟩ =>
    show win1_17.index ⟨(i 0).val / 2000, hlt⟩ 1 * 384 ≤ (i 1).val ∧ (i 1).val < win1_17.index ⟨(i 0).val / 2000, hlt⟩ 1 * 384 + 384
    rw [h1]; omega

section Finals
variable (V : (c : Dev nD) → (b : Ref sig .tc) → Buf (Elt Ideal) ((c : Thread nD τ).loc b)) (c : Dev nD)

/-- What point t writes back from window 16 is block t of the folded first equivariant message of the arrays the region finds. -/
theorem flushed16_eq (t : Fin cfg1.N) :
    (dat1 (F := Ideal) V c).flushed 16 t
      = ((cfg1.win 16).blk t).view.read (Elt Ideal)
          (shapeCast S200000x384 (Cert.Spec.eq1E (Cert.Spec.mlpE (Cert.Spec.invE (V c (Pipeline.arrRef spec1 0)) (V c (Pipeline.arrRef spec1 1)) (V c (Pipeline.arrRef spec1 2)) (V c (Pipeline.arrRef spec1 3)) (V c (Pipeline.arrRef spec1 4)))
            (V c (Pipeline.arrRef spec1 5)) (V c (Pipeline.arrRef spec1 6)) (V c (Pipeline.arrRef spec1 7)) (V c (Pipeline.arrRef spec1 8))) (V c (Pipeline.arrRef spec1 9))) shapeCasts_S200000x3x128_S200000x384) := by
  show (cfg1.win 16).cut (grid1.coords t) ((dat1 V c).after 16 t) = _
  rw [after1_16]
  unfold out1_16
  rw [View.canon_unit_zero hz2]
  simp only [View.ld_unit_zero (S := S2000x20) hz2, View.ld_unit_zero (S := S20x128) hz2, View.ld_unit_zero (S := S128) hz1,
    View.ld_unit_zero (S := S2000x128) hz2, View.ld_unit_zero (S := S128x128) hz2, View.ld_unit_zero (S := S2000x3) hz2]
  exact blk16 t _ _ _ _ _ _ _ _ _ _ (read0 t _) (read1 t _) (read2 t _) (read3 t _) (read4 t _) _ _ (read9 t _)
    _ _ _ _ _ _ _ _ (read5 t _) (read6 t _) (read7 t _) (read8 t _)

/-- The first equivariant message's array after the region, as [200000, 3, 128]: the reference's first equivariant message. -/
theorem final16 :
    shapeCast Cert.ReferenceIdeal.S200000x3x128 ((dat1 (F := Ideal) V c).arrAt 16 cfg1.N) shapeCasts_S200000x384_S200000x3x128
      = Cert.Spec.eq1E (Cert.Spec.mlpE (Cert.Spec.invE (V c (Pipeline.arrRef spec1 0)) (V c (Pipeline.arrRef spec1 1)) (V c (Pipeline.arrRef spec1 2)) (V c (Pipeline.arrRef spec1 3)) (V c (Pipeline.arrRef spec1 4)))
          (V c (Pipeline.arrRef spec1 5)) (V c (Pipeline.arrRef spec1 6)) (V c (Pipeline.arrRef spec1 7)) (V c (Pipeline.arrRef spec1 8))) (V c (Pipeline.arrRef spec1 9)) := by
  have e : (dat1 (F := Ideal) V c).arrAt 16 cfg1.N
      = shapeCast S200000x384 (Cert.Spec.eq1E (Cert.Spec.mlpE (Cert.Spec.invE (V c (Pipeline.arrRef spec1 0)) (V c (Pipeline.arrRef spec1 1)) (V c (Pipeline.arrRef spec1 2)) (V c (Pipeline.arrRef spec1 3)) (V c (Pipeline.arrRef spec1 4)))
          (V c (Pipeline.arrRef spec1 5)) (V c (Pipeline.arrRef spec1 6)) (V c (Pipeline.arrRef spec1 7)) (V c (Pipeline.arrRef spec1 8))) (V c (Pipeline.arrRef spec1 9))) shapeCasts_S200000x3x128_S200000x384 :=
    (dat1 (F := Ideal) V c).arrAt_eq_of_cover 16 _ (fun t _ => flushed16_eq V c t) cover16
  exact (congrArg (fun z => shapeCast Cert.ReferenceIdeal.S200000x3x128 z shapeCasts_S200000x384_S200000x3x128) e).trans
    (shapeCast_shapeCast _ shapeCasts_S200000x3x128_S200000x384 shapeCasts_S200000x384_S200000x3x128)

/-- What point t writes back from window 17 is block t of the folded second equivariant message of the arrays the region finds. -/
theorem flushed17_eq (y : Cert.Spec.AE3)
    (hy : V c (Pipeline.arrRef spec1 14) = shapeCast S200000x384 y shapeCasts_S200000x3x128_S200000x384) (t : Fin cfg1.N) :
    (dat1 (F := Ideal) V c).flushed 17 t
      = ((cfg1.win 17).blk t).view.read (Elt Ideal)
          (shapeCast S200000x384 (mulf (Cert.Spec.stretchE (Cert.Spec.mlpE (Cert.Spec.invE (V c (Pipeline.arrRef spec1 0)) (V c (Pipeline.arrRef spec1 1)) (V c (Pipeline.arrRef spec1 2)) (V c (Pipeline.arrRef spec1 3)) (V c (Pipeline.arrRef spec1 4)))
            (V c (Pipeline.arrRef spec1 10)) (V c (Pipeline.arrRef spec1 11)) (V c (Pipeline.arrRef spec1 12)) (V c (Pipeline.arrRef spec1 13)))) y) shapeCasts_S200000x3x128_S200000x384) := by
  show (cfg1.win 17).cut (grid1.coords t) ((dat1 V c).after 17 t) = _
  rw [after1_17]
  unfold out1_17
  rw [View.canon_unit_zero hz2]
  simp only [View.ld_unit_zero (S := S2000x20) hz2, View.ld_unit_zero (S := S20x128) hz2, View.ld_unit_zero (S := S128) hz1,
    View.ld_unit_zero (S := S2000x128) hz2, View.ld_unit_zero (S := S128x128) hz2, View.ld_unit_zero (S := S2000x384) hz2]
  refine blk17 t _ _ _ _ _ _ _ _ _ _ (read0 t _) (read1 t _) (read2 t _) (read3 t _) (read4 t _)
    _ _ _ _ _ _ _ _ (read10 t _) (read11 t _) (read12 t _) (read13 t _) y _ ?_
  intro p k e he
  rw [← hy]
  exact read14 t _ p k e he

/-- The second equivariant message's array after the region, as [200000, 3, 128]: the reference's second network of the
    invariant message, laid along the three directions, times the array whose folding the region finds in window 14. -/
theorem final17 (y : Cert.Spec.AE3)
    (hy : V c (Pipeline.arrRef spec1 14) = shapeCast S200000x384 y shapeCasts_S200000x3x128_S200000x384) :
    shapeCast Cert.ReferenceIdeal.S200000x3x128 ((dat1 (F := Ideal) V c).arrAt 17 cfg1.N) shapeCasts_S200000x384_S200000x3x128
      = mulf (Cert.Spec.stretchE (Cert.Spec.mlpE (Cert.Spec.invE (V c (Pipeline.arrRef spec1 0)) (V c (Pipeline.arrRef spec1 1)) (V c (Pipeline.arrRef spec1 2)) (V c (Pipeline.arrRef spec1 3)) (V c (Pipeline.arrRef spec1 4)))
          (V c (Pipeline.arrRef spec1 10)) (V c (Pipeline.arrRef spec1 11)) (V c (Pipeline.arrRef spec1 12)) (V c (Pipeline.arrRef spec1 13)))) y := by
  have e : (dat1 (F := Ideal) V c).arrAt 17 cfg1.N
      = shapeCast S200000x384 (mulf (Cert.Spec.stretchE (Cert.Spec.mlpE (Cert.Spec.invE (V c (Pipeline.arrRef spec1 0)) (V c (Pipeline.arrRef spec1 1)) (V c (Pipeline.arrRef spec1 2)) (V c (Pipeline.arrRef spec1 3)) (V c (Pipeline.arrRef spec1 4)))
          (V c (Pipeline.arrRef spec1 10)) (V c (Pipeline.arrRef spec1 11)) (V c (Pipeline.arrRef spec1 12)) (V c (Pipeline.arrRef spec1 13)))) y) shapeCasts_S200000x3x128_S200000x384 :=
    (dat1 (F := Ideal) V c).arrAt_eq_of_cover 17 _ (fun t _ => flushed17_eq V c y hy t) cover17
  exact (congrArg (fun z => shapeCast Cert.ReferenceIdeal.S200000x3x128 z shapeCasts_S200000x384_S200000x3x128) e).trans
    (shapeCast_shapeCast _ shapeCasts_S200000x3x128_S200000x384 shapeCasts_S200000x384_S200000x3x128)

end Finals

end Cert.KernelIdeal.HandEdge

end
-- ==== Proof.RegionMerge.lean ====
/-
  The merge region: the second equivariant message plus the edge's invariant row times the aggregate, as one function of
  the arrays.

  Each edge carries three rows of 128 entries (one per spatial direction), stored flat as one row of 384 entries: entry
  (e, j, f) sits in column 128 j + f. A block of 2000 edges computes, entry by entry, the first array plus the edge's
  invariant row, repeated three times side by side, times the third array. The hundred blocks tile the 200000 edges; read
  back along the three directions, the array the region leaves is u + stretch(y) · w for the unflattened arrays u, w.
-/
import proofs.«115706_j13340168421980_2_alg».proof.Proof.Gen.KernelIdeal.Frame
import proofs.«115706_j13340168421980_2_alg».proof.Proof.Spec
import proofs.«115706_j13340168421980_2_alg».proof.Proof.LibThreeBlocks
import proofs.«115706_j13340168421980_2_alg».proof.Proof.LibTableRows
import Idealize.ShloMosaic.Lib.Pipeline.Value
import Idealize.ShloMosaic.Lib.IdealHost
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.HandMerge

open Cert.KernelIdeal Cert.KernelIdeal.Gen

/-! ## Layouts read at coordinates -/

/-- A matrix [P, M] with M = Q · R recast as [P, Q, R]: entry (p, q, r) is the matrix's entry in column q · R + r. -/
theorem split_last_apply {α : Type} {P Q R M : ℕ} (y : (⟨2, ![P, M]⟩ : Shape).Idx → α)
    (h : (⟨2, ![P, M]⟩ : Shape).ShapeCasts ⟨3, ![P, Q, R]⟩) (hM : M = Q * R) (p : Fin P) (q : Fin Q) (r : Fin R) (m : Fin M)
    (hm : m.val = q.val * R + r.val) :
    shapeCast ⟨3, ![P, Q, R]⟩ y h (ix3 p q r) = y (ix2 p m) := by
  refine shapeCast_apply y h _ _ ?_
  rw [Shape.rowMajor_val_three, Shape.rowMajor_val_two]
  show p.val * M + m.val = (p.val * Q + q.val) * R + r.val
  rw [hm, hM, Nat.add_mul, Nat.mul_assoc, Nat.add_assoc]

/-- One block of rows set three times side by side: column 128 j + f reads column f. -/
theorem cat_same_apply (v : Vec Ideal S2000x128 .f32) (p : Fin 2000) (j : Fin 3) (f : Fin 128) (m : Fin 384)
    (hm : m.val = j.val * 128 + f.val) :
    concatenate S2000x384 1 [⟨S2000x128, v⟩, ⟨S2000x128, v⟩, ⟨S2000x128, v⟩] concatenates_S2000x128_S2000x128_S2000x128_S2000x384_d1 (ix2 p m)
      = v (ix2 p f) := by
  have hf := f.isLt
  have hj := j.isLt
  by_cases h0 : m.val < 128
  · refine (Cert.LibThreeBlocks.cat3_0 v v v concatenates_S2000x128_S2000x128_S2000x128_S2000x384_d1 p m h0).trans
      (congrArg (fun k => v (ix2 p k)) (Fin.ext ?_))
    show m.val = f.val; omega
  · by_cases h1 : m.val < 256
    · refine (Cert.LibThreeBlocks.cat3_1 v v v concatenates_S2000x128_S2000x128_S2000x128_S2000x384_d1 p m (by omega) (by omega)).trans
        (congrArg (fun k => v (ix2 p k)) (Fin.ext ?_))
      show m.val - 128 = f.val; omega
    · have hm' := m.isLt
      refine (Cert.LibThreeBlocks.cat3_2 v v v concatenates_S2000x128_S2000x128_S2000x128_S2000x384_d1 p m (by omega) (by omega)).trans
        (congrArg (fun k => v (ix2 p k)) (Fin.ext ?_))
      show m.val - (128 + 128) = f.val; omega

/-- The block's result at row p, column 128 j + f. -/
theorem pay3_apply (v0 : Vec Ideal S2000x128 .f32) (v3 v5 : Vec Ideal S2000x384 .f32) (p : Fin 2000) (j : Fin 3) (f : Fin 128)
    (m : Fin 384) (hm : m.val = j.val * 128 + f.val) :
    k3_pay1 v0 v3 v5 (ix2 p m) = v3 (ix2 p m) + v0 (ix2 p f) * v5 (ix2 p m) := by
  unfold k3_pay1
  rw [shapeCast_self, shapeCast_self, shapeCast_self]
  show v3 (ix2 p m) + concatenate S2000x384 1 [⟨S2000x128, v0⟩, ⟨S2000x128, v0⟩, ⟨S2000x128, v0⟩] _ (ix2 p m) * v5 (ix2 p m) = _
  rw [cat_same_apply v0 p j f m hm]

/-- An edge row repeated along the three directions, at (e, j, f): the row's entry f. -/
theorem stretchE_apply (y : Cert.Spec.AE) (e : Fin 200000) (j : Fin 3) (f : Fin 128) :
    Cert.Spec.stretchE y (ix3 e j f) = y (ix2 e f) := by
  unfold Cert.Spec.stretchE
  refine (broadcastInDim_apply _ _ _ _ (ix3 e (0 : Fin 1) f) fun a => ?_).trans (broadcastInDim_apply _ _ _ _ (ix2 e f) fun a => ?_)
  · match a with
    | ⟨0, _⟩ => rfl
    | ⟨1, _⟩ => rfl
    | ⟨2, _⟩ => rfl
  · match a with
    | ⟨0, _⟩ => rfl
    | ⟨1, _⟩ => rfl

/-! ## From the blocks to the array -/

variable (V : (c : Dev nD) → (b : Ref sig .tc) → Buf (Elt Ideal) ((c : Thread nD τ).loc b)) (c : Dev nD)

theorem hz2 : (![0, 0] : Fin 2 → Nat) = fun _ => 0 := funext fun a => by fin_cases a <;> rfl

/-- The first array the region reads (flat), by coordinates. -/
abbrev arrU : S200000x384.Idx → EReal := V c (Pipeline.arrRef spec3 0)
/-- The invariant rows the region reads, by coordinates. -/
abbrev arrY : S200000x128.Idx → EReal := V c (Pipeline.arrRef spec3 1)
/-- The third array the region reads (flat), by coordinates. -/
abbrev arrW : S200000x384.Idx → EReal := V c (Pipeline.arrRef spec3 2)

/-- The printed index maps over the grid: every window's block of edge rows moves with the point. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

theorem lt_N3 (t : Fin cfg3.N) : t.val < 100 := by have h : t.val < grid3.N := t.isLt; have := N_3; omega

/-- Row p of point t's block of the first array is row 2000 t + p of the array. -/
theorem iblk3_0_apply (t : Fin cfg3.N) (p : Fin 2000) (m : Fin 384) :
    (iblk3 V c 0 t : Vec Ideal S2000x384 .f32) (ix2 p m)
      = arrU V c (ix2 ⟨t.val * 2000 + p.val, by have := lt_N3 t; omega⟩ m) := by
  obtain ⟨e0, e1, -⟩ := idx_facts3 t
  unfold iblk3
  rw [View.read_apply]
  show arrU V c _ = arrU V c _
  refine congrArg (arrU V c) (funext fun a => Fin.ext ?_)
  match a with
  | ⟨0, _⟩ => show win3_0.index t (0 : Fin 2) * 2000 + 1 * p.val = t.val * 2000 + p.val; rw [e0]; omega
  | ⟨1, _⟩ => show win3_0.index t (1 : Fin 2) * 384 + 1 * m.val = m.val; rw [e1]; omega

/-- Row p of point t's block of the invariant rows is row 2000 t + p of the array. -/
theorem iblk3_1_apply (t : Fin cfg3.N) (p : Fin 2000) (f : Fin 128) :
    (iblk3 V c 1 t : Vec Ideal S2000x128 .f32) (ix2 p f)
      = arrY V c (ix2 ⟨t.val * 2000 + p.val, by have := lt_N3 t; omega⟩ f) := by
  obtain ⟨-, -, e0, e1, -⟩ := idx_facts3 t
  unfold iblk3
  rw [View.read_apply]
  show arrY V c _ = arrY V c _
  refine congrArg (arrY V c) (funext fun a => Fin.ext ?_)
  match a with
  | ⟨0, _⟩ => show win3_1.index t (0 : Fin 2) * 2000 + 1 * p.val = t.val * 2000 + p.val; rw [e0]; omega
  | ⟨1, _⟩ => show win3_1.index t (1 : Fin 2) * 128 + 1 * f.val = f.val; rw [e1]; omega

/-- Row p of point t's block of the third array is row 2000 t + p of the array. -/
theorem iblk3_2_apply (t : Fin cfg3.N) (p : Fin 2000) (m : Fin 384) :
    (iblk3 V c 2 t : Vec Ideal S2000x384 .f32) (ix2 p m)
      = arrW V c (ix2 ⟨t.val * 2000 + p.val, by have := lt_N3 t; omega⟩ m) := by
  obtain ⟨-, -, -, -, e0, e1, -⟩ := idx_facts3 t
  unfold iblk3
  rw [View.read_apply]
  show arrW V c _ = arrW V c _
  refine congrArg (arrW V c) (funext fun a => Fin.ext ?_)
  match a with
  | ⟨0, _⟩ => show win3_2.index t (0 : Fin 2) * 2000 + 1 * p.val = t.val * 2000 + p.val; rw [e0]; omega
  | ⟨1, _⟩ => show win3_2.index t (1 : Fin 2) * 384 + 1 * m.val = m.val; rw [e1]; omega

section Array
variable (G : S200000x384.Idx → EReal)
  (hG : ∀ (e : Fin 200000) (j : Fin 3) (f : Fin 128) (m : Fin 384), m.val = j.val * 128 + f.val →
    G (ix2 e m) = arrU V c (ix2 e m)
      + arrY V c (ix2 e f) * arrW V c (ix2 e m))

include hG in
/-- What point t writes back is block t of G. -/
theorem flushed3_eq (t : Fin cfg3.N) :
    (dat3 (F := Ideal) V c).flushed 3 t = ((cfg3.win 3).blk t).view.read (Elt Ideal) G := by
  show (cfg3.win 3).cut (grid3.coords t) ((dat3 V c).after 3 t) = _
  rw [after3_3]
  unfold out3_3
  rw [View.canon_unit_zero hz2]
  simp only [View.ld_unit_zero (S := S2000x128) hz2, View.ld_unit_zero (S := S2000x384) hz2]
  funext i
  obtain ⟨p, m, rfl⟩ : ∃ (p : Fin 2000) (m : Fin 384), i = ix2 p m := ⟨i 0, i 1, eq_ix2 i⟩
  obtain ⟨-, -, -, -, -, -, e0, e1⟩ := idx_facts3 t
  have hm' := m.isLt
  have hm : m.val = (⟨m.val / 128, by omega⟩ : Fin 3).val * 128 + (⟨m.val % 128, Nat.mod_lt _ (by norm_num)⟩ : Fin 128).val := by
    show m.val = m.val / 128 * 128 + m.val % 128; omega
  show k3_pay1 (iblk3 V c 1 t : Vec Ideal S2000x128 .f32) (iblk3 V c 0 t : Vec Ideal S2000x384 .f32) (iblk3 V c 2 t : Vec Ideal S2000x384 .f32) (ix2 p m)
      = G (((cfg3.win 3).blk t).view.emb (ix2 p m))
  have hemb : ((cfg3.win 3).blk t).view.emb (ix2 p m) = (ix2 ⟨t.val * 2000 + p.val, by have := lt_N3 t; omega⟩ m : S200000x384.Idx) := by
    funext a; apply Fin.ext
    match a with
    | ⟨0, _⟩ => show win3_3.index t (0 : Fin 2) * 2000 + 1 * p.val = t.val * 2000 + p.val; rw [e0]; omega
    | ⟨1, _⟩ => show win3_3.index t (1 : Fin 2) * 384 + 1 * m.val = m.val; rw [e1]; omega
  rw [hemb, hG _ _ _ m hm, pay3_apply _ _ _ p _ _ m hm, iblk3_0_apply, iblk3_1_apply, iblk3_2_apply]

theorem mem_blk3 (t : Fin cfg3.N) (i : S200000x384.Idx) :
    i ∈ ((cfg3.win 3).blk t).view.set ↔ ∀ a : Fin 2, win3_3.index t a * S2000x384.size a ≤ (i a).val ∧ (i a).val < win3_3.index t a * S2000x384.size a + S2000x384.size a := by
  show i ∈ ((View.whole main_v53).slice (win3_3.rect t)).set ↔ _
  rw [View.set_slice_whole, Rect.mem_set_unit]
  exact Iff.rfl

/-- Edge row r is in the block of point r / 2000. -/
theorem cover3 (i : S200000x384.Idx) : ∃ t : Fin cfg3.N, (cfg3.win 3).flush t = true ∧ i ∈ ((cfg3.win 3).blk t).view.set := by
  have hi0 : (i 0).val < 200000 := (i 0).isLt
  have hi1 : (i 1).val < 384 := (i 1).isLt
  let t : Fin cfg3.N := ⟨(i 0).val / 2000, by show _ < grid3.N; rw [N_3]; omega⟩
  obtain ⟨-, -, -, -, -, -, e0, e1⟩ := idx_facts3 t
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; rw [e0]; show (i 0).val / 2000 * 2000 ≤ _ ∧ _ < (i 0).val / 2000 * 2000 + 2000; omega
  | ⟨1, _⟩ => show win3_3.index t (1 : Fin 2) * 384 ≤ (i 1).val ∧ (i 1).val < win3_3.index t (1 : Fin 2) * 384 + 384; rw [e1]; omega

include hG in
/-- The hundred blocks tile the array: it ends holding G. -/
theorem final3_of : (dat3 (F := Ideal) V c).arrAt 3 cfg3.N = G :=
  (dat3 (F := Ideal) V c).arrAt_eq_of_cover 3 G (fun t _ => flushed3_eq V c G hG t) cover3

end Array

/-- The flat array the region leaves: entry by entry the first array plus the edge's invariant row, at the column's
    place within its direction, times the third array. -/
def mergeG : S200000x384.Idx → EReal := fun i =>
  arrU V c i + arrY V c (ix2 (⟨(i 0).val, (i 0).isLt⟩ : Fin 200000) (⟨(i 1).val % 128, Nat.mod_lt _ (by norm_num)⟩ : Fin 128)) * arrW V c i

theorem mergeG_apply (e : Fin 200000) (j : Fin 3) (f : Fin 128) (m : Fin 384) (hm : m.val = j.val * 128 + f.val) :
    mergeG V c (ix2 e m) = arrU V c (ix2 e m) + arrY V c (ix2 e f) * arrW V c (ix2 e m) := by
  have hf := f.isLt
  unfold mergeG
  refine congrArg (fun k => arrU V c (ix2 e m) + arrY V c k * arrW V c (ix2 e m)) ?_
  funext a
  match a with
  | ⟨0, _⟩ => rfl
  | ⟨1, _⟩ => exact Fin.ext (by show m.val % 128 = f.val; omega)

/-- The array the region leaves, at row e and column 128 j + f. -/
theorem final3_entry (e : Fin 200000) (j : Fin 3) (f : Fin 128) (m : Fin 384) (hm : m.val = j.val * 128 + f.val) :
    ((dat3 (F := Ideal) V c).arrAt 3 cfg3.N : S200000x384.Idx → EReal) (ix2 e m)
      = arrU V c (ix2 e m) + arrY V c (ix2 e f) * arrW V c (ix2 e m) := by
  rw [final3_of V c (mergeG V c) (mergeG_apply V c)]
  exact mergeG_apply V c e j f m hm

/-- Read back along the three directions, the array the region leaves is u + stretch(y) · w. -/
theorem final3 (u w : Cert.Spec.AE3)
    (hu : V c (Pipeline.arrRef spec3 0) = shapeCast S200000x384 u shapeCasts_S200000x3x128_S200000x384)
    (hw : V c (Pipeline.arrRef spec3 2) = shapeCast S200000x384 w shapeCasts_S200000x3x128_S200000x384) :
    shapeCast S200000x3x128 ((dat3 (F := Ideal) V c).arrAt 3 cfg3.N) shapeCasts_S200000x384_S200000x3x128
      = addf u (mulf (Cert.Spec.stretchE (V c (Pipeline.arrRef spec3 1))) w) := by
  have hu' : arrU V c = shapeCast S200000x384 u shapeCasts_S200000x3x128_S200000x384 := hu
  have hw' : arrW V c = shapeCast S200000x384 w shapeCasts_S200000x3x128_S200000x384 := hw
  funext i
  obtain ⟨e, j, f, rfl⟩ : ∃ (e : Fin 200000) (j : Fin 3) (f : Fin 128), i = ix3 e j f := ⟨i 0, i 1, i 2, eq_ix3 i⟩
  have hj := j.isLt
  have hf := f.isLt
  have hlt : j.val * 128 + f.val < 384 := by omega
  refine (split_last_apply _ shapeCasts_S200000x384_S200000x3x128 (by norm_num) e j f ⟨j.val * 128 + f.val, hlt⟩ rfl).trans ?_
  refine (final3_entry V c e j f ⟨j.val * 128 + f.val, hlt⟩ rfl).trans ?_
  show _ = u (ix3 e j f) + Cert.Spec.stretchE (arrY V c) (ix3 e j f) * w (ix3 e j f)
  rw [stretchE_apply, hu', hw',
    Idealize.ShloMosaic.TableRows.fold_last_apply u shapeCasts_S200000x3x128_S200000x384 (by norm_num) e j f ⟨j.val * 128 + f.val, hlt⟩ rfl,
    Idealize.ShloMosaic.TableRows.fold_last_apply w shapeCasts_S200000x3x128_S200000x384 (by norm_num) e j f ⟨j.val * 128 + f.val, hlt⟩ rfl]

end Cert.KernelIdeal.HandMerge
end
-- ==== Proof.RegionNorm.lean ====
/-
  The invariant update and the row normalisation of the atoms, block by block and as one array.

  For a node n with atom row a (128 features), force rows f j and displacement rows d j (j over the three spatial
  directions), weights W1, b1, W2, b2 of a two-layer network and normalisation parameters g, b:
    * the work term at feature q is  ∑ j, (−f j q) · d j q;
    * the updated row is             a q + (silu (a · W1 + b1) · W2 + b2) q · work q,   silu x = x · logistic x;
    * its mean is (∑ k, x k) / 128, its variance the mean of the squared deviations, and the result is
      (x q − mean) · rsqrt (variance + ε) · g q + b q.
  A row's result depends on that row only, so a computation that walks over blocks of 1000 rows agrees with the
  computation on the whole arrays. Here: the row formula over the extended reals (`pre`, `norm`); what the block
  computation stores at (p, q) is the formula of row p of its blocks (`out_apply`), where the three directions are
  three column blocks of width 128 of a flattened row and the work term is written (0 − f₀d₀) + (0 − f₁d₁) + (0 − f₂d₂);
  the whole-array computation at (n, q) is the formula of row n of the arrays (`lnN_apply`), where the work term is a
  sum over the middle axis from zero; each block read off its array (`iblk0_apply` … `iblk8_eq`); the block written at
  point t is block t of the whole-array result (`flushed9_eq`), the ten blocks tile the array (`cover9`), so the array
  ends at the whole-array result (`final9`).
-/
import proofs.«115706_j13340168421980_2_alg».proof.Proof.Gen.KernelIdeal.Frame
import proofs.«115706_j13340168421980_2_alg».proof.Proof.LibRowLayers
import proofs.«115706_j13340168421980_2_alg».proof.Proof.LibRowOps
import proofs.«115706_j13340168421980_2_alg».proof.Proof.LibCastForms
import proofs.«115706_j13340168421980_2_alg».proof.Proof.LibTableRows
import proofs.«115706_j13340168421980_2_alg».proof.Proof.Spec
import Idealize.ShloMosaic.Lib.Pipeline.Value
import Idealize.ShloMosaic.Lib.ValueLayout
import Idealize.ShloMosaic.Lib.IdealHost

noncomputable section

namespace Cert.KernelIdeal.HandNorm

open Cert.KernelIdeal Cert.KernelIdeal.Gen Idealize.ShloMosaic Idealize.ShloMosaic.TcCoe Idealize.SL.Sem
open Idealize.ShloMosaic.ValueIdx
open Idealize.ShloMosaic.Pipeline (Dat)
open Cert.LibRowLayers (dense)

/-! ## One row of the update and of the normalisation, over the extended reals -/

/-- x · logistic x. -/
def silu (x : EReal) : EReal := x * Ideal.logistic x

/-- The sum over the three spatial directions of minus force times displacement, at feature q. -/
def work (f d : Fin 3 → Fin 128 → EReal) (q : Fin 128) : EReal := ∑ j : Fin 3, -(f j q) * d j q

/-- The updated row before normalisation: the atom row plus its two-layer image times the work term. -/
def pre (a : Fin 128 → EReal) (W1 : (⟨2, ![128, 128]⟩ : Shape).Idx → EReal) (b1 : Fin 128 → EReal)
    (W2 : (⟨2, ![128, 128]⟩ : Shape).Idx → EReal) (b2 : Fin 128 → EReal) (f d : Fin 3 → Fin 128 → EReal) (q : Fin 128) : EReal :=
  a q + dense (fun k => silu (dense a W1 b1 k)) W2 b2 q * work f d q

/-- The mean of a row of 128 entries (the divisor is the word of 128). -/
def mean (x : Fin 128 → EReal) : EReal := Ideal.div (∑ k : Fin 128, x k) (Ideal.ofBits .f32 0x43000000#32)

/-- Row normalisation: (x − mean) · rsqrt (variance + ε) · g + b. -/
def norm (x g b : Fin 128 → EReal) (q : Fin 128) : EReal :=
  (x q - mean x) * Ideal.rsqrt (mean (fun k => (x k - mean x) * (x k - mean x)) + Ideal.ofBits .f32 0x3727C5AC#32) * g q + b q

/-- Column j·128 + r of a row of three blocks of 128. -/
def col (j : Fin 3) (r : Fin 128) : Fin 384 := ⟨j.val * 128 + r.val, by have := j.isLt; have := r.isLt; omega⟩

/-- The three-term sum of the kernel is the sum over the directions. -/
theorem work_eq (f d : Fin 3 → Fin 128 → EReal) (q : Fin 128) :
    (0 - f 0 q * d 0 q) + (0 - f 1 q * d 1 q) + (0 - f 2 q * d 2 q) = work f d q := by
  unfold work
  rw [Fin.sum_univ_three, zero_sub, zero_sub, zero_sub, EReal.neg_mul, EReal.neg_mul, EReal.neg_mul]

/-! ## The kernel's payloads at an entry -/

/-- A bias vector recast as a one-row matrix reads the vector. -/
theorem bias_row (b : FVec Ideal S128 .f32) (j : Fin 128) :
    shapeCast S1x128 b shapeCasts_S128_S1x128 (ix2 (0 : Fin 1) j) = b (ix1 j) :=
  shapeCast_a_1a_apply b shapeCasts_S128_S1x128 0 j

/-- The logistic function entry by entry. -/
theorem logistic_apply {s : Shape} (v : FVec Ideal s .f32) (i : s.Idx) : logistic v i = Ideal.logistic (v i) := rfl

/-- The reciprocal square root entry by entry. -/
theorem rsqrt_apply {s : Shape} (v : FVec Ideal s .f32) (i : s.Idx) : rsqrt v i = Ideal.rsqrt (v i) := rfl

/-- One dense layer of the kernel, at (p, k): the layer applied to row p. -/
theorem tile_layer (x : FVec Ideal S1000x128 .f32) (w : FVec Ideal S128x128 .f32) (b : FVec Ideal S128 .f32) (p : Fin 1000) (k : Fin 128) :
    addf (matmul dot_S1000x128_S128x128_S1000x128_1_0_0_1_n_n (some ContractPrecision.fp32) x w (constant S1000x128 .f32 0x00000000#32))
        (broadcastTo S1000x128 (shapeCast S1x128 b shapeCasts_S128_S1x128) broadcasts_S1x128_S1000x128) (ix2 p k)
      = dense (fun k => x (ix2 p k)) w (fun j => b (ix1 j)) k :=
  (Cert.LibRowLayers.tile_dense dot_S1000x128_S128x128_S1000x128_1_0_0_1_n_n rfl rfl rfl rfl
      (by dot_lhs0 dot_S1000x128_S128x128_S1000x128_1_0_0_1_n_n) (by dot_rhs1 dot_S1000x128_S128x128_S1000x128_1_0_0_1_n_n)
      (some ContractPrecision.fp32) x w (shapeCast S1x128 b shapeCasts_S128_S1x128) broadcasts_S1x128_S1000x128 p k).trans
    (Cert.LibRowLayers.dense_congr w k (fun _ => rfl) (bias_row b k))

/-- A column block of the product of the two flattened rows, taken from zero: minus force times displacement. -/
theorem slice_apply (xf xd : FVec Ideal S1000x384 .f32) (o : ℕ) (h : S1000x384.Slices ![0, o] S1000x128) (p : Fin 1000) (q : Fin 128)
    (m : Fin 384) (hm : m.val = o + q.val) :
    extractStridedSlice S1000x128 ![0, o] (subf (broadcast S1000x384 (FloatOps.ofBits (F := Ideal) .f32 0x00000000#32)) (mulf xf xd)) h (ix2 p q)
      = 0 - xf (ix2 p m) * xd (ix2 p m) := by
  rw [slice2_axis1_apply o _ h p q m hm, subf_apply, mulf_apply, broadcast_apply]
  show Ideal.ofBits .f32 0x00000000#32 - _ = _
  rw [Ideal.ofBits_zero_f32]

theorem pay2_apply (x0 : FVec Ideal S1000x128 .f32) (w1 : FVec Ideal S128x128 .f32) (b1 : FVec Ideal S128 .f32)
    (w2 : FVec Ideal S128x128 .f32) (b2 : FVec Ideal S128 .f32) (xf xd : FVec Ideal S1000x384 .f32) (p : Fin 1000) (q : Fin 128) :
    k4_pay2 (F := Ideal) x0 w1 b1 w2 b2 xf xd (ix2 p q)
      = pre (fun k => x0 (ix2 p k)) w1 (fun k => b1 (ix1 k)) w2 (fun k => b2 (ix1 k))
          (fun j r => xf (ix2 p (col j r))) (fun j r => xd (ix2 p (col j r))) q := by
  unfold k4_pay2
  rw [shapeCast_self, shapeCast_self, shapeCast_self]
  rw [addf_apply, mulf_apply, tile_layer, addf_apply, addf_apply,
    slice_apply xf xd 0 _ p q (col 0 q) (by show 0 * 128 + q.val = 0 + q.val; omega),
    slice_apply xf xd 128 _ p q (col 1 q) (by show 1 * 128 + q.val = 128 + q.val; omega),
    slice_apply xf xd 256 _ p q (col 2 q) (by show 2 * 128 + q.val = 256 + q.val; omega),
    work_eq (fun j r => xf (ix2 p (col j r))) (fun j r => xd (ix2 p (col j r))) q]
  unfold pre
  refine congrArg (fun z => x0 (ix2 p q) + z * _) ?_
  refine Cert.LibRowLayers.dense_congr w2 q (fun k => ?_) rfl
  rw [mulf_apply, tile_layer, logistic_apply, tile_layer]
  rfl

/-- The row means of the kernel, at (p, z): the mean of row p of the updated rows. -/
theorem pay3_apply (x0 : FVec Ideal S1000x128 .f32) (w1 : FVec Ideal S128x128 .f32) (b1 : FVec Ideal S128 .f32)
    (w2 : FVec Ideal S128x128 .f32) (b2 : FVec Ideal S128 .f32) (xf xd : FVec Ideal S1000x384 .f32) (p : Fin 1000) (z : Fin 1) :
    k4_pay3 (F := Ideal) x0 w1 b1 w2 b2 xf xd (ix2 p z)
      = mean (fun k => k4_pay2 (F := Ideal) x0 w1 b1 w2 b2 xf xd (ix2 p k)) := by
  unfold k4_pay3
  rw [divf_apply, Cert.LibRowOps.cast_a_a1, Cert.LibRowOps.sum_last2, broadcast_apply]
  rfl

/-- The row sums of squared deviations of the kernel, at (p, z). -/
theorem pay4_apply (x0 : FVec Ideal S1000x128 .f32) (w1 : FVec Ideal S128x128 .f32) (b1 : FVec Ideal S128 .f32)
    (w2 : FVec Ideal S128x128 .f32) (b2 : FVec Ideal S128 .f32) (xf xd : FVec Ideal S1000x384 .f32) (p : Fin 1000) (z : Fin 1) :
    k4_pay4 (F := Ideal) x0 w1 b1 w2 b2 xf xd (ix2 p z)
      = ∑ k : Fin 128, (k4_pay2 (F := Ideal) x0 w1 b1 w2 b2 xf xd (ix2 p k) - k4_pay3 (F := Ideal) x0 w1 b1 w2 b2 xf xd (ix2 p (0 : Fin 1)))
          * (k4_pay2 (F := Ideal) x0 w1 b1 w2 b2 xf xd (ix2 p k) - k4_pay3 (F := Ideal) x0 w1 b1 w2 b2 xf xd (ix2 p (0 : Fin 1))) := by
  unfold k4_pay4
  rw [Cert.LibRowOps.cast_a_a1, Cert.LibRowOps.sum_last2]
  refine Finset.sum_congr rfl fun k _ => ?_
  rw [mulf_apply, subf_apply, Cert.LibRowOps.bcast_a1_ab]

/-- The stored value of the kernel, at (p, q), from the updated rows, their means and their sums of squares. -/
theorem pay1_apply (v29 : FVec Ideal S1000x128 .f32) (v33 v38 v39 : FVec Ideal S1000x1 .f32) (g b : FVec Ideal S128 .f32)
    (p : Fin 1000) (q : Fin 128) :
    k4_pay1 (F := Ideal) v29 v33 v38 v39 g b (ix2 p q)
      = (v29 (ix2 p q) - v33 (ix2 p (0 : Fin 1)))
          * Ideal.rsqrt (Ideal.div (v38 (ix2 p (0 : Fin 1))) (v39 (ix2 p (0 : Fin 1))) + Ideal.ofBits .f32 0x3727C5AC#32)
          * g (ix1 q) + b (ix1 q) := by
  unfold k4_pay1
  rw [addf_apply, mulf_apply, mulf_apply, subf_apply, Cert.LibRowOps.bcast_a1_ab, Cert.LibRowOps.bcast_a1_ab, rsqrt_apply,
    addf_apply, divf_apply, broadcast_apply, broadcastTo_1b_ab_apply, broadcastTo_1b_ab_apply, bias_row, bias_row]
  rfl

theorem hz2 : (![0, 0] : Fin 2 → Nat) = fun _ => 0 := funext fun a => by fin_cases a <;> rfl
theorem hz1 : (![0] : Fin 1 → Nat) = fun _ => 0 := funext fun a => by fin_cases a; rfl

/-- What the body leaves in the output block, at (p, q): the normalised updated row p. -/
theorem out_apply (x0 : FVec Ideal S1000x128 .f32) (x1 x2 : FVec Ideal S1000x384 .f32) (x3 : FVec Ideal S128x128 .f32)
    (x4 : FVec Ideal S128 .f32) (x5 : FVec Ideal S128x128 .f32) (x6 x7 x8 : FVec Ideal S128 .f32) (p : Fin 1000) (q : Fin 128) :
    out4_9 (F := Ideal) x0 x1 x2 x3 x4 x5 x6 x7 x8 (ix2 p q)
      = norm (pre (fun k => x0 (ix2 p k)) x3 (fun k => x4 (ix1 k)) x5 (fun k => x6 (ix1 k))
            (fun j r => x1 (ix2 p (col j r))) (fun j r => x2 (ix2 p (col j r))))
          (fun k => x7 (ix1 k)) (fun k => x8 (ix1 k)) q := by
  unfold out4_9
  rw [View.canon_unit_zero hz2]
  simp only [View.ld_unit_zero (S := S1000x128) hz2, View.ld_unit_zero (S := S1000x384) hz2, View.ld_unit_zero (S := S128x128) hz2,
    View.ld_unit_zero (S := S128) hz1]
  rw [pay1_apply, pay4_apply, pay3_apply]
  simp only [pay2_apply]
  rfl

/-! ## The reference's stages at an entry -/

section Host
open Cert.Spec

/-- The host's gate, entry by entry. -/
theorem siluN_apply (t : AN) (n : Fin 10000) (q : Fin 128) : siluN t (ix2 n q) = silu (t (ix2 n q)) := by
  unfold siluN
  rw [mulf_apply, hostDivf_apply, addf_apply, broadcastInDim_scalar_apply, constant_apply, Ideal.ofBits_one_f32]
  rfl

/-- A bias vector laid down the node rows reads the vector. -/
theorem rowN_apply (b : AB) (n : Fin 10000) (q : Fin 128) : rowN b (ix2 n q) = b (ix1 q) := by
  unfold rowN
  rw [Cert.LibCastForms.bcast_1b_ab_apply, Cert.LibCastForms.bcast_row]

/-- One dense layer of the reference, at (n, q): the layer applied to row n. -/
theorem host_layer (x : AN) (w : AW) (b : AB) (n : Fin 10000) (q : Fin 128) :
    addf (Host.dotGeneral Cert.ReferenceIdeal.dot_S10000x128_S128x128_S10000x128_1_0_0_1_n_n none x w) (rowN b) (ix2 n q)
      = dense (fun k => x (ix2 n k)) w (fun j => b (ix1 j)) q := by
  unfold rowN
  exact (Cert.LibRowLayers.host_dense Cert.ReferenceIdeal.dot_S10000x128_S128x128_S10000x128_1_0_0_1_n_n rfl rfl rfl rfl
      (by dot_lhs0 Cert.ReferenceIdeal.dot_S10000x128_S128x128_S10000x128_1_0_0_1_n_n)
      (by dot_rhs1 Cert.ReferenceIdeal.dot_S10000x128_S128x128_S10000x128_1_0_0_1_n_n)
      none x w _ _ n q).trans
    (Cert.LibRowLayers.dense_congr w q (fun _ => rfl) (Cert.LibCastForms.bcast_row b _ 0 q))

/-- The reference's two-layer network, at (n, q). -/
theorem mlpN_apply (x : AN) (W1 : AW) (b1 : AB) (W2 : AW) (b2 : AB) (n : Fin 10000) (q : Fin 128) :
    mlpN x W1 b1 W2 b2 (ix2 n q)
      = dense (fun k => silu (dense (fun k => x (ix2 n k)) W1 (fun j => b1 (ix1 j)) k)) W2 (fun j => b2 (ix1 j)) q := by
  unfold mlpN
  rw [host_layer]
  refine Cert.LibRowLayers.dense_congr W2 q (fun k => ?_) rfl
  rw [siluN_apply, host_layer]

/-- The reference's sum over the three directions of minus force times displacement, at (n, q). -/
theorem host_work (f d : AN3) (n : Fin 10000) (q : Fin 128) :
    Host.reduceAdd (mulf (Host.negf f) d) (constant (F := Ideal) Cert.ReferenceIdeal.S_ .f32 0x00000000#32)
        Cert.ReferenceIdeal.Gen.reducesTo_S10000x3x128_S10000x128_d1 Cert.ReferenceIdeal.Gen.h_S_ (ix2 n q)
      = work (fun j r => f (ix3 n j r)) (fun j r => d (ix3 n j r)) q := by
  rw [hostReduceAdd_apply]
  refine (Ideal.hostReduceAdd_single Cert.ReferenceIdeal.Gen.reducesTo_S10000x3x128_S10000x128_d1
    (by decide : Cert.ReferenceIdeal.S10000x3x128.Reduces [1] Cert.ReferenceIdeal.S10000x128) _ _ (ix2 n q)).trans ?_
  rw [constant_apply, Ideal.ofBits_zero_f32, zero_add]
  unfold work
  refine Finset.sum_congr rfl fun j _ => ?_
  have e : (by decide : Cert.ReferenceIdeal.S10000x3x128.Reduces [1] Cert.ReferenceIdeal.S10000x128).lift (ix2 n q) j = ix3 n j q := by
    funext a
    match a with
    | ⟨0, _⟩ => rfl
    | ⟨1, _⟩ => rfl
    | ⟨2, _⟩ => rfl
  rw [e]
  rfl

/-- The reference's row mean, at (n, z): the mean of row n. -/
theorem meanN_apply (x : AN) (n : Fin 10000) (z : Fin 1) : meanN x (ix2 n z) = mean (fun k => x (ix2 n k)) := by
  unfold meanN
  rw [hostDivf_apply, Cert.LibCastForms.bcast_col, hostReduceAdd_apply, broadcastInDim_scalar_apply, constant_apply]
  refine congrArg (fun s => Ideal.div s _) ?_
  refine (Ideal.hostReduceAdd_single Cert.ReferenceIdeal.Gen.reducesTo_S10000x128_S10000_d1
    (by decide : Cert.ReferenceIdeal.S10000x128.Reduces [1] Cert.ReferenceIdeal.S10000) _ _ (ix1 n)).trans ?_
  rw [Ideal.ofBits_zero_f32, zero_add]
  refine Finset.sum_congr rfl fun k _ => congrArg x ?_
  funext a
  match a with
  | ⟨0, _⟩ => rfl
  | ⟨1, _⟩ => rfl

/-- A column of node rows stretched over the features reads the column. -/
theorem colN_apply (v : AN1) (n : Fin 10000) (q : Fin 128) : colN v (ix2 n q) = v (ix2 n (0 : Fin 1)) := by
  unfold colN
  rw [Cert.LibCastForms.bcast_a1_ab_apply]

/-- The host's reciprocal square root entry by entry. -/
theorem hostRsqrt_apply {s : Shape} (v : FVec Ideal s .f32) (i : s.Idx) : Host.rsqrt v i = Ideal.rsqrt (v i) := rfl

/-- The reference's rows before normalisation, at (n, q). -/
theorem preN_apply (a : AN) (f d : AN3) (W1 : AW) (b1 : AB) (W2 : AW) (b2 : AB) (n : Fin 10000) (q : Fin 128) :
    preN a f d W1 b1 W2 b2 (ix2 n q)
      = pre (fun k => a (ix2 n k)) W1 (fun k => b1 (ix1 k)) W2 (fun k => b2 (ix1 k))
          (fun j r => f (ix3 n j r)) (fun j r => d (ix3 n j r)) q := by
  unfold preN
  rw [addf_apply, mulf_apply, mlpN_apply, host_work]
  rfl

/-- The reference's normalisation, at (n, q): the normalised row n. -/
theorem normN_apply (x : AN) (g b : AB) (n : Fin 10000) (q : Fin 128) :
    normN x g b (ix2 n q) = norm (fun k => x (ix2 n k)) (fun k => g (ix1 k)) (fun k => b (ix1 k)) q := by
  unfold normN
  rw [addf_apply, mulf_apply, mulf_apply, subf_apply, colN_apply, colN_apply, meanN_apply, rowN_apply, rowN_apply]
  rw [hostRsqrt_apply, addf_apply, meanN_apply, broadcastInDim_scalar_apply, constant_apply]
  simp only [mulf_apply, subf_apply, colN_apply, meanN_apply]
  rfl

/-- The reference's last stage, at (n, q): the normalised updated row n. -/
theorem lnN_apply (a : AN) (f d : AN3) (W1 : AW) (b1 : AB) (W2 : AW) (b2 : AB) (g b : AB) (n : Fin 10000) (q : Fin 128) :
    lnN a f d W1 b1 W2 b2 g b (ix2 n q)
      = norm (pre (fun k => a (ix2 n k)) W1 (fun k => b1 (ix1 k)) W2 (fun k => b2 (ix1 k))
            (fun j r => f (ix3 n j r)) (fun j r => d (ix3 n j r)))
          (fun k => g (ix1 k)) (fun k => b (ix1 k)) q := by
  unfold lnN
  rw [normN_apply]
  simp only [preN_apply]
end Host

/-! ## From the blocks to the array -/

section Blocks
variable (V : (c : Dev nD) → (b : Ref sig .tc) → Buf (Elt Ideal) ((c : Thread nD τ).loc b)) (c : Dev nD)

/-- The printed index maps over the grid: the row-blocked windows sit at block (t, 0), the parameter windows at block 0. -/
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = 0 ∧ win4_3.index t (1 : Fin 2) = 0)
    ∧ win4_4.index t (0 : Fin 1) = 0
    ∧ (win4_5.index t (0 : Fin 2) = 0 ∧ win4_5.index t (1 : Fin 2) = 0)
    ∧ win4_6.index t (0 : Fin 1) = 0
    ∧ win4_7.index t (0 : Fin 1) = 0
    ∧ win4_8.index t (0 : Fin 1) = 0
    ∧ (win4_9.index t (0 : Fin 2) = t.val ∧ win4_9.index t (1 : Fin 2) = 0) :=
  (by decide +kernel : ∀ t : Fin grid4.N, _)

/-- Row p of the atom block at point t is row 1000·t + p of the atom array. -/
theorem iblk0_apply (t : Fin cfg4.N) (p : Fin 1000) (k : Fin 128) (n : Fin 10000) (hn : n.val = t.val * 1000 + p.val) :
    (iblk4 V c 0 t : FVec Ideal S1000x128 .f32) (ix2 p k) = (V c (Pipeline.arrRef spec4 0) : FVec Ideal S10000x128 .f32) (ix2 n k) := by
  obtain ⟨⟨e0, e1⟩, -⟩ := idx_facts t
  unfold iblk4
  rw [View.read_apply]
  refine congrArg (V c (Pipeline.arrRef spec4 0) : FVec Ideal S10000x128 .f32) ?_
  funext a
  apply Fin.ext
  match a with
  | ⟨0, _⟩ => show win4_0.index t (0 : Fin 2) * 1000 + 1 * p.val = n.val; rw [e0, hn]; omega
  | ⟨1, _⟩ => show win4_0.index t (1 : Fin 2) * 128 + 1 * k.val = k.val; rw [e1]; omega

/-- Row p of the flattened force block at point t is row 1000·t + p of the flattened force array. -/
theorem iblk1_apply (t : Fin cfg4.N) (p : Fin 1000) (k : Fin 384) (n : Fin 10000) (hn : n.val = t.val * 1000 + p.val) :
    (iblk4 V c 1 t : FVec Ideal S1000x384 .f32) (ix2 p k) = (V c (Pipeline.arrRef spec4 1) : FVec Ideal S10000x384 .f32) (ix2 n k) := by
  obtain ⟨-, ⟨e0, e1⟩, -⟩ := idx_facts t
  unfold iblk4
  rw [View.read_apply]
  refine congrArg (V c (Pipeline.arrRef spec4 1) : FVec Ideal S10000x384 .f32) ?_
  funext a
  apply Fin.ext
  match a with
  | ⟨0, _⟩ => show win4_1.index t (0 : Fin 2) * 1000 + 1 * p.val = n.val; rw [e0, hn]; omega
  | ⟨1, _⟩ => show win4_1.index t (1 : Fin 2) * 384 + 1 * k.val = k.val; rw [e1]; omega

/-- Row p of the flattened displacement block at point t is row 1000·t + p of the flattened displacement array. -/
theorem iblk2_apply (t : Fin cfg4.N) (p : Fin 1000) (k : Fin 384) (n : Fin 10000) (hn : n.val = t.val * 1000 + p.val) :
    (iblk4 V c 2 t : FVec Ideal S1000x384 .f32) (ix2 p k) = (V c (Pipeline.arrRef spec4 2) : FVec Ideal S10000x384 .f32) (ix2 n k) := by
  obtain ⟨-, -, ⟨e0, e1⟩, -⟩ := idx_facts t
  unfold iblk4
  rw [View.read_apply]
  refine congrArg (V c (Pipeline.arrRef spec4 2) : FVec Ideal S10000x384 .f32) ?_
  funext a
  apply Fin.ext
  match a with
  | ⟨0, _⟩ => show win4_2.index t (0 : Fin 2) * 1000 + 1 * p.val = n.val; rw [e0, hn]; omega
  | ⟨1, _⟩ => show win4_2.index t (1 : Fin 2) * 384 + 1 * k.val = k.val; rw [e1]; omega

/-- The first weight matrix's block at any point is the whole matrix. -/
theorem iblk3_eq (t : Fin cfg4.N) :
    (iblk4 V c 3 t : FVec Ideal S128x128 .f32) = (V c (Pipeline.arrRef spec4 3) : FVec Ideal S128x128 .f32) := by
  obtain ⟨-, -, -, ⟨e0, e1⟩, -⟩ := idx_facts t
  funext j
  unfold iblk4
  rw [View.read_apply]
  refine congrArg (V c (Pipeline.arrRef spec4 3) : FVec Ideal S128x128 .f32) ?_
  funext a
  apply Fin.ext
  match a with
  | ⟨0, _⟩ => show win4_3.index t (0 : Fin 2) * 128 + 1 * (j 0).val = (j 0).val; rw [e0]; omega
  | ⟨1, _⟩ => show win4_3.index t (1 : Fin 2) * 128 + 1 * (j 1).val = (j 1).val; rw [e1]; omega

/-- The second weight matrix's block at any point is the whole matrix. -/
theorem iblk5_eq (t : Fin cfg4.N) :
    (iblk4 V c 5 t : FVec Ideal S128x128 .f32) = (V c (Pipeline.arrRef spec4 5) : FVec Ideal S128x128 .f32) := by
  obtain ⟨-, -, -, -, -, ⟨e0, e1⟩, -⟩ := idx_facts t
  funext j
  unfold iblk4
  rw [View.read_apply]
  refine congrArg (V c (Pipeline.arrRef spec4 5) : FVec Ideal S128x128 .f32) ?_
  funext a
  apply Fin.ext
  match a with
  | ⟨0, _⟩ => show win4_5.index t (0 : Fin 2) * 128 + 1 * (j 0).val = (j 0).val; rw [e0]; omega
  | ⟨1, _⟩ => show win4_5.index t (1 : Fin 2) * 128 + 1 * (j 1).val = (j 1).val; rw [e1]; omega

/-- The first bias vector's block at any point is the whole vector. -/
theorem iblk4_eq (t : Fin cfg4.N) :
    (iblk4 V c 4 t : FVec Ideal S128 .f32) = (V c (Pipeline.arrRef spec4 4) : FVec Ideal S128 .f32) := by
  obtain ⟨-, -, -, -, e0, -⟩ := idx_facts t
  funext j
  unfold iblk4
  rw [View.read_apply]
  refine congrArg (V c (Pipeline.arrRef spec4 4) : FVec Ideal S128 .f32) ?_
  funext a
  apply Fin.ext
  match a with
  | ⟨0, _⟩ => show win4_4.index t (0 : Fin 1) * 128 + 1 * (j 0).val = (j 0).val; rw [e0]; omega

/-- The second bias vector's block at any point is the whole vector. -/
theorem iblk6_eq (t : Fin cfg4.N) :
    (iblk4 V c 6 t : FVec Ideal S128 .f32) = (V c (Pipeline.arrRef spec4 6) : FVec Ideal S128 .f32) := by
  obtain ⟨-, -, -, -, -, -, e0, -⟩ := idx_facts t
  funext j
  unfold iblk4
  rw [View.read_apply]
  refine congrArg (V c (Pipeline.arrRef spec4 6) : FVec Ideal S128 .f32) ?_
  funext a
  apply Fin.ext
  match a with
  | ⟨0, _⟩ => show win4_6.index t (0 : Fin 1) * 128 + 1 * (j 0).val = (j 0).val; rw [e0]; omega

/-- The scale vector's block at any point is the whole vector. -/
theorem iblk7_eq (t : Fin cfg4.N) :
    (iblk4 V c 7 t : FVec Ideal S128 .f32) = (V c (Pipeline.arrRef spec4 7) : FVec Ideal S128 .f32) := by
  obtain ⟨-, -, -, -, -, -, -, e0, -⟩ := idx_facts t
  funext j
  unfold iblk4
  rw [View.read_apply]
  refine congrArg (V c (Pipeline.arrRef spec4 7) : FVec Ideal S128 .f32) ?_
  funext a
  apply Fin.ext
  match a with
  | ⟨0, _⟩ => show win4_7.index t (0 : Fin 1) * 128 + 1 * (j 0).val = (j 0).val; rw [e0]; omega

/-- The shift vector's block at any point is the whole vector. -/
theorem iblk8_eq (t : Fin cfg4.N) :
    (iblk4 V c 8 t : FVec Ideal S128 .f32) = (V c (Pipeline.arrRef spec4 8) : FVec Ideal S128 .f32) := by
  obtain ⟨-, -, -, -, -, -, -, -, e0, -⟩ := idx_facts t
  funext j
  unfold iblk4
  rw [View.read_apply]
  refine congrArg (V c (Pipeline.arrRef spec4 8) : FVec Ideal S128 .f32) ?_
  funext a
  apply Fin.ext
  match a with
  | ⟨0, _⟩ => show win4_8.index t (0 : Fin 1) * 128 + 1 * (j 0).val = (j 0).val; rw [e0]; omega

section Array
variable (G : S10000x128.Idx → EReal) (f d : Cert.Spec.AN3)
  (hG : ∀ (n : Fin 10000) (q : Fin 128), G (ix2 n q)
    = norm (pre (fun k => (V c (Pipeline.arrRef spec4 0) : S10000x128.Idx → EReal) (ix2 n k))
          (V c (Pipeline.arrRef spec4 3)) (fun k => (V c (Pipeline.arrRef spec4 4) : S128.Idx → EReal) (ix1 k))
          (V c (Pipeline.arrRef spec4 5)) (fun k => (V c (Pipeline.arrRef spec4 6) : S128.Idx → EReal) (ix1 k))
          (fun j r => f (ix3 n j r)) (fun j r => d (ix3 n j r)))
        (fun k => (V c (Pipeline.arrRef spec4 7) : S128.Idx → EReal) (ix1 k))
        (fun k => (V c (Pipeline.arrRef spec4 8) : S128.Idx → EReal) (ix1 k)) q)
  (hf : V c (Pipeline.arrRef spec4 1) = shapeCast S10000x384 f shapeCasts_S10000x3x128_S10000x384)
  (hd : V c (Pipeline.arrRef spec4 2) = shapeCast S10000x384 d shapeCasts_S10000x3x128_S10000x384)

theorem lt_N4 (t : Fin cfg4.N) : t.val < 10 := by have h : t.val < grid4.N := t.isLt; have := N_4; omega

set_option backward.isDefEq.respectTransparency.types false in
set_option maxHeartbeats 2000000 in
include hG hf hd in
/-- What point t writes back is block t of G. -/
theorem flushed9_eq (t : Fin cfg4.N) :
    (dat4 (F := Ideal) V c).flushed 9 t = ((cfg4.win 9).blk t).view.read (Elt Ideal) G := by
  show (cfg4.win 9).cut (grid4.coords t) ((dat4 V c).after 9 t) = _
  rw [after4_9]
  rw [iblk3_eq, iblk4_eq, iblk5_eq, iblk6_eq, iblk7_eq, iblk8_eq]
  funext j
  obtain ⟨p, q, rfl⟩ : ∃ (p : Fin 1000) (q : Fin 128), j = ix2 p q := ⟨j 0, j 1, eq_ix2 j⟩
  obtain ⟨-, -, -, -, -, -, -, -, -, ⟨e0, e1⟩⟩ := idx_facts t
  show out4_9 (F := Ideal) (iblk4 V c 0 t : Vec Ideal S1000x128 .f32) (iblk4 V c 1 t : Vec Ideal S1000x384 .f32)
      (iblk4 V c 2 t : Vec Ideal S1000x384 .f32) _ _ _ _ _ _ (ix2 p q) = G (((cfg4.win 9).blk t).view.emb (ix2 p q))
  have hemb : ((cfg4.win 9).blk t).view.emb (ix2 p q) = (ix2 ⟨t.val * 1000 + p.val, by have := lt_N4 t; omega⟩ q : S10000x128.Idx) := by
    funext a; apply Fin.ext
    match a with
    | ⟨0, _⟩ => show win4_9.index t (0 : Fin 2) * 1000 + 1 * p.val = t.val * 1000 + p.val; rw [e0]; omega
    | ⟨1, _⟩ => show win4_9.index t (1 : Fin 2) * 128 + 1 * q.val = q.val; rw [e1]; omega
  rw [hemb]
  refine Eq.trans ?_ (hG ⟨t.val * 1000 + p.val, by have := lt_N4 t; omega⟩ q).symm
  rw [out_apply]
  have r0 : (fun k => (iblk4 V c 0 t : FVec Ideal S1000x128 .f32) (ix2 p k))
      = fun k => (V c (Pipeline.arrRef spec4 0) : FVec Ideal S10000x128 .f32) (ix2 ⟨t.val * 1000 + p.val, by have := lt_N4 t; omega⟩ k) :=
    funext fun k => iblk0_apply V c t p k _ rfl
  have r1 : (fun (j : Fin 3) (r : Fin 128) => (iblk4 V c 1 t : FVec Ideal S1000x384 .f32) (ix2 p (col j r)))
      = fun j r => f (ix3 ⟨t.val * 1000 + p.val, by have := lt_N4 t; omega⟩ j r) :=
    funext fun j => funext fun r => (iblk1_apply V c t p (col j r) _ rfl).trans ((congrFun hf _).trans
      (Idealize.ShloMosaic.TableRows.fold_last_apply f shapeCasts_S10000x3x128_S10000x384 rfl _ j r (col j r) rfl))
  have r2 : (fun (j : Fin 3) (r : Fin 128) => (iblk4 V c 2 t : FVec Ideal S1000x384 .f32) (ix2 p (col j r)))
      = fun j r => d (ix3 ⟨t.val * 1000 + p.val, by have := lt_N4 t; omega⟩ j r) :=
    funext fun j => funext fun r => (iblk2_apply V c t p (col j r) _ rfl).trans ((congrFun hd _).trans
      (Idealize.ShloMosaic.TableRows.fold_last_apply d shapeCasts_S10000x3x128_S10000x384 rfl _ j r (col j r) rfl))
  rw [r0, r1, r2]

/-- An index of the output array is in point t's block iff each coordinate is in the block's range on its axis. -/
theorem mem_blk9 (t : Fin cfg4.N) (i : S10000x128.Idx) :
    i ∈ ((cfg4.win 9).blk t).view.set ↔ ∀ a : Fin 2, win4_9.index t a * S1000x128.size a ≤ (i a).val
      ∧ (i a).val < win4_9.index t a * S1000x128.size a + S1000x128.size a := by
  show i ∈ ((View.whole main_v61).slice (win4_9.rect t)).set ↔ _
  rw [View.set_slice_whole, Rect.mem_set_unit]
  exact Iff.rfl

/-- Every index of the output array is in some point's block: row r is in the block of point r / 1000. -/
theorem cover9 (i : S10000x128.Idx) : ∃ t : Fin cfg4.N, (cfg4.win 9).flush t = true ∧ i ∈ ((cfg4.win 9).blk t).view.set := by
  have hi0 : (i 0).val < 10000 := (i 0).isLt
  have hi1 : (i 1).val < 128 := (i 1).isLt
  have hN : cfg4.N = 10 := N_4
  refine ⟨⟨(i 0).val / 1000, by rw [hN]; omega⟩, flush4_9 _, ?_⟩
  obtain ⟨-, -, -, -, -, -, -, -, -, ⟨e0, e1⟩⟩ := idx_facts ⟨(i 0).val / 1000, by rw [hN]; omega⟩
  rw [mem_blk9]
  intro a
  match a with
  | ⟨0, _⟩ =>
    show win4_9.index _ (0 : Fin 2) * 1000 ≤ (i 0).val ∧ (i 0).val < win4_9.index _ (0 : Fin 2) * 1000 + 1000
    rw [e0]
    show (i 0).val / 1000 * 1000 ≤ (i 0).val ∧ (i 0).val < (i 0).val / 1000 * 1000 + 1000
    omega
  | ⟨1, _⟩ =>
    show win4_9.index _ (1 : Fin 2) * 128 ≤ (i 1).val ∧ (i 1).val < win4_9.index _ (1 : Fin 2) * 128 + 128
    rw [e1]
    omega

include hG hf hd in
/-- The ten blocks tile the array: it ends holding G. -/
theorem final9_of : (dat4 (F := Ideal) V c).arrAt 9 cfg4.N = G :=
  (dat4 (F := Ideal) V c).arrAt_eq_of_cover 9 G (fun t _ => flushed9_eq V c G f d hG hf hd t) cover9

end Array

/-- THE REGION'S VALUE: after all grid points the output array is the reference's last stage — the normalised
    updated atoms — of the arrays the region finds, the force and displacement arrays read through their flattening. -/
theorem final9 (f d : Cert.Spec.AN3)
    (hf : V c (Pipeline.arrRef spec4 1) = shapeCast S10000x384 f shapeCasts_S10000x3x128_S10000x384)
    (hd : V c (Pipeline.arrRef spec4 2) = shapeCast S10000x384 d shapeCasts_S10000x3x128_S10000x384) :
    (dat4 (F := Ideal) V c).arrAt 9 cfg4.N
      = Cert.Spec.lnN (V c (Pipeline.arrRef spec4 0)) f d (V c (Pipeline.arrRef spec4 3)) (V c (Pipeline.arrRef spec4 4))
          (V c (Pipeline.arrRef spec4 5)) (V c (Pipeline.arrRef spec4 6)) (V c (Pipeline.arrRef spec4 7)) (V c (Pipeline.arrRef spec4 8)) :=
  final9_of V c _ f d (fun n q => lnN_apply _ _ _ _ _ _ _ _ _ n q) hf hd
end Blocks

end Cert.KernelIdeal.HandNorm
end
-- ==== Proof.lean ====
/-
  The certificate: the kernel program and the reference compute the same three arrays on the extended reals.

  Both programs are message passing over a graph. With A the atom rows, F and D the force and displacement rows and
  src, dst the two rows of the edge index, both compute
      H = mlp(A),  INV = (dist * W + b) * H[src] * H[dst],  ATOM1 = A + scatter_src(INV),
      AGG1 = scatter_src(mlp1(INV) ⊗ disp_edge),  FORCE1 = F + AGG1,
      EQ2 = mlp2(INV) ⊗ D[dst],  EQ3 = mlpnb(ATOM1)[dst] ⊗ AGG1[dst],
      OUT = layernorm(ATOM1 + mlp(ATOM1) * sum over the three directions of (-FORCE1 * DISP1))
  and return OUT, FORCE1 and the updated displacement rows DISP1. The reference scatters EQ2 and EQ3 one after the other,
  DISP1 = (D + scatter_src(EQ2)) + scatter_src(EQ3); the kernel program merges them first,
  D + scatter_src(EQ2 + EQ3). A scatter into zeros is a sum over the updates landing at each row, a sum of a + b is
  the sum of the a's plus the sum of the b's, and addition of extended reals is associative: the two are equal with no
  condition on the entries. Every dense stage of the kernel program is a launch over row blocks whose output array is,
  row by row, the reference's stage of the same rows (a matrix product accumulated into zero is the host's product,
  the logistic function is 1 / (1 + exp(-x)), a sum of three column blocks is the host's sum over the middle axis);
  the gathers, scatters and recasts between the launches are the reference's own operations.
  The idealization rewrote nothing, so the preservation claim is trivial; the kernel programs' frames are the generated
  ones and the reference's frame is its generated run with the results dropped.
-/
import proofs.«115706_j13340168421980_2_alg».proof.Defs
import proofs.«115706_j13340168421980_2_alg».proof.Proof.Gen.Kernel
import proofs.«115706_j13340168421980_2_alg».proof.Proof.Gen.Kernel.Frame
import proofs.«115706_j13340168421980_2_alg».proof.Proof.Gen.KernelIdeal
import proofs.«115706_j13340168421980_2_alg».proof.Proof.Gen.KernelIdeal.Frame
import proofs.«115706_j13340168421980_2_alg».proof.Proof.Gen.ReferenceIdeal
import proofs.«115706_j13340168421980_2_alg».proof.Proof.Gen.Pre_finite_inputs
import proofs.«115706_j13340168421980_2_alg».proof.Proof.Gen.ReferenceIdeal.Run
import proofs.«115706_j13340168421980_2_alg».proof.Proof.Gen.ReferenceIdeal.Read
import proofs.«115706_j13340168421980_2_alg».proof.Proof.KernelRun
import proofs.«115706_j13340168421980_2_alg».proof.Proof.KernelValues
import proofs.«115706_j13340168421980_2_alg».proof.Proof.RegionNodeMlp
import proofs.«115706_j13340168421980_2_alg».proof.Proof.RegionNodeGate
import proofs.«115706_j13340168421980_2_alg».proof.Proof.RegionEdge
import proofs.«115706_j13340168421980_2_alg».proof.Proof.RegionMerge
import proofs.«115706_j13340168421980_2_alg».proof.Proof.RegionNorm
import Idealize.ShloMosaic.Adequacy
import Idealize.ShloMosaic.Init

set_option maxRecDepth 16384

noncomputable section

namespace Cert.Proof

open Idealize.ShloMosaic Idealize.SL.Sem

/-- What each of the five launches leaves in its output arrays. -/
theorem launches : Cert.KernelIdeal.Hand.Launches where
  node := Cert.KernelIdeal.HandNodeMlp.final0
  edgeInv := Cert.KernelIdeal.HandEdge.final15
  edgeEq1 := Cert.KernelIdeal.HandEdge.final16
  edgeEq2 := Cert.KernelIdeal.HandEdge.final17
  gate := Cert.KernelIdeal.HandNodeGate.final2
  merge := Cert.KernelIdeal.HandMerge.final3
  norm := Cert.KernelIdeal.HandNorm.final9

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

set_option maxHeartbeats 4000000 in
/-- Both programs end with OUT, FORCE1 and DISP1 of the arguments in their result buffers. -/
theorem algebraic : Cert.algebraic_KernelIdeal_ReferenceIdeal := by
  intro m ρ m' ρ' _ hagree
  refine ⟨fun c => Cert.Spec.OUT (Cert.KernelIdeal.Hand.args m c), fun c => Cert.Spec.FORCE1 (Cert.KernelIdeal.Hand.args m c),
    fun c => Cert.Spec.DISP1 (Cert.KernelIdeal.Hand.args m c), ?_, ?_⟩
  · exact (θ_run Cert.KernelIdeal.defs _ _).mono (fun r h c =>
      ⟨(h c).1.trans (Cert.KernelIdeal.Hand.W10_v61 m ρ c launches),
       (h c).2.1.trans (Cert.KernelIdeal.Hand.W10_v36 m ρ c launches),
       (h c).2.2.1.trans (Cert.KernelIdeal.Hand.W10_v58 m ρ c launches),
       (h c).2.2.2⟩) (Cert.KernelIdeal.Hand.run_results m ρ)
  · refine (θ_run Cert.ReferenceIdeal.defs _ _).mono (fun r h c => ?_) (Cert.ReferenceIdeal.Value.run (F := Ideal) m' ρ')
    obtain ⟨h0, h1, h2, h3, h4, h5, h6, h7, h8, h9, h10, h11, h12, h13, h14, h15, h16, h17, h18, h19, h20, h21, h22, h23, h24, h25, h26, h27⟩ := hagree c
    refine ⟨(h c).1.trans ?_, (h c).2.1.trans ?_, (h c).2.2.1.trans ?_, (h c).2.2.2⟩
    · rw [Cert.ReferenceIdeal.Read.val_main_v139_eq m' c]
      simp only [h0, h1, h2, h3, h4, h5, h6, h7, h8, h9, h10, h11, h12, h13, h14, h15, h16, h17, h18, h19, h20, h21, h22, h23, h24, h25, h26, h27]
      exact Cert.Spec.ref_out0 (Cert.KernelIdeal.Hand.args m c)
    · rw [Cert.ReferenceIdeal.Read.val_main_v54_eq m' c]
      simp only [h0, h1, h2, h3, h4, h5, h6, h7, h8, h9, h10, h11, h12, h13, h14, h15, h16, h17, h18, h19, h20, h21, h22, h23, h24, h25, h26, h27]
      exact Cert.Spec.ref_out1 (Cert.KernelIdeal.Hand.args m c)
    · rw [Cert.ReferenceIdeal.Read.val_main_v101_eq m' c]
      simp only [h0, h1, h2, h3, h4, h5, h6, h7, h8, h9, h10, h11, h12, h13, h14, h15, h16, h17, h18, h19, h20, h21, h22, h23, h24, h25, h26, h27]
      exact Cert.Spec.ref_out2 (Cert.KernelIdeal.Hand.args m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
